-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v94_0)) (v1 : (c : Dev Cert.KernelIdeal.nD) → Buf (Elt Ideal) ((c.tc : Thread Cert.KernelIdeal.nD Cert.KernelIdeal.τ).loc Cert.KernelIdeal.main_v94_1)) (v2 : (c : Dev Cert.KernelIdeal.nD) → Buf (Elt Ideal) ((c.tc : Thread Cert.KernelIdeal.nD Cert.KernelIdeal.τ).loc Cert.KernelIdeal.main_v95_0)) (v3 : (c : Dev Cert.KernelIdeal.nD) → Buf (Elt Ideal) ((c.tc : Thread Cert.KernelIdeal.nD Cert.KernelIdeal.τ).loc Cert.KernelIdeal.main_v95_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94_0) = v0 c
          ∧ r.2.mem ((c.tc : Thread Cert.KernelIdeal.nD Cert.KernelIdeal.τ).loc Cert.KernelIdeal.main_v94_1) = v1 c
          ∧ r.2.mem ((c.tc : Thread Cert.KernelIdeal.nD Cert.KernelIdeal.τ).loc Cert.KernelIdeal.main_v95_0) = v2 c
          ∧ r.2.mem ((c.tc : Thread Cert.KernelIdeal.nD Cert.KernelIdeal.τ).loc Cert.KernelIdeal.main_v95_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_v146) = v2 c
          ∧ r.2.mem ((c.tc : Thread Cert.ReferenceIdeal.nD Cert.ReferenceIdeal.τ).loc Cert.ReferenceIdeal.main_v153) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S300000x32 : Shape := ⟨2, ![300000, 32]⟩
abbrev S2x1000000 : Shape := ⟨2, ![2, 1000000]⟩
abbrev S2x2000000 : Shape := ⟨2, ![2, 2000000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S300000x32 : S_.BroadcastsInDim S300000x32 (![] : Fin 0 → Fin S300000x32.rank)
  reducesTo_S300000x32_S_d0_1 : S300000x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part8 {F : FTy → Type} [FloatOps F] (main_v133 : IVec S_ 1) (main_v136 : IVec S16 1) : IVec S_ 1 :=
  let main_c_53 : IVec S_ 1 := constantI S_ 1 1#1
  let main_v137 : IVec S_ 1 := (fun x v => Host.reduce IntOp.andi x v reducesTo_S16_S_d0 h_S_) main_v136 main_c_53
  let main_v138 : IVec S_ 1 := andi main_v133 main_v137
  main_v138

def fn_part7 {F : FTy → Type} [FloatOps F] (main_arg28 : FVec F S16 .f32) (main_arg29 : FVec F S64x16 .f32) (main_arg30 : FVec F S16 .f32) (main_v118 : IVec S_ 1) (main_v119 : FVec F S64x16 .f32) : IVec S_ 1 :=
  let main_cst_46 : FVec F S_ .f32 := constant S_ .f32 0x7F800000#32
  let main_v120 : FVec F S64x16 .f32 := broadcastInDim S64x16 ![] bcast_S_S64x16 main_cst_46
  let main_v121 : IVec S64x16 1 := cmpf .olt main_v119 main_v120
  let main_c_47 : IVec S_ 1 := constantI S_ 1 1#1
  let main_v122 : IVec S_ 1 := (fun x v => Host.reduce IntOp.andi x v reducesTo_S64x16_S_d0_1 h_S_) main_v121 main_c_47
  let main_v123 : IVec S_ 1 := andi main_v118 main_v122
  let main_v124 : FVec F S16 .f32 := Host.absf main_arg28
  let main_cst_48 : FVec F S_ .f32 := constant S_ .f32 0x7F800000#32
  let main_v125 : FVec F S16 .f32 := broadcastInDim S16 ![] bcast_S_S16 main_cst_48
  let main_v126 : IVec S16 1 := cmpf .olt main_v124 main_v125
  let main_c_49 : IVec S_ 1 := constantI S_ 1 1#1
  let main_v127 : IVec S_ 1 := (fun x v => Host.reduce IntOp.andi x v reducesTo_S16_S_d0 h_S_) main_v126 main_c_49
  let main_v128 : IVec S_ 1 := andi main_v123 main_v127
  let main_v129 : FVec F S64x16 .f32 := Host.absf main_arg29
  let main_cst_50 : FVec F S_ .f32 := constant S_ .f32 0x7F800000#32
  let main_v130 : FVec F S64x16 .f32 := broadcastInDim S64x16 ![] bcast_S_S64x16 main_cst_50
  let main_v131 : IVec S64x16 1 := cmpf .olt main_v129 main_v130
  let main_c_51 : IVec S_ 1 := constantI S_ 1 1#1
  let main_v132 : IVec S_ 1 := (fun x v => Host.reduce IntOp.andi x v reducesTo_S64x16_S_d0_1 h_S_) main_v131 main_c_51
  let main_v133 : IVec S_ 1 := andi main_v128 main_v132
  let main_v134 : FVec F S16 .f32 := Host.absf main_arg30
  let main_cst_52 : FVec F S_ .f32 := constant S_ .f32 0x7F800000#32
  let main_v135 : FVec F S16 .f32 := broadcastInDim S16 ![] bcast_S_S16 main_cst_52
  let main_v136 : IVec S16 1 := cmpf .olt main_v134 main_v135
  fn_part8 (F := F) main_v133 main_v136

def fn_part6 {F : FTy → Type} [FloatOps F] (main_arg24 : FVec F S64x64 .f32) (main_arg25 : FVec F S64 .f32) (main_arg26 : FVec F S64x64 .f32) (main_arg27 : FVec F S64x16 .f32) (main_arg28 : FVec F S16 .f32) (main_arg29 : FVec F S64x16 .f32) (main_arg30 : FVec F S16 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64x64 .f32 := Host.absf main_arg24
  let main_cst_40 : FVec F S_ .f32 := constant S_ .f32 0x7F800000#32
  let main_v105 : FVec F S64x64 .f32 := broadcastInDim S64x64 ![] bcast_S_S64x64 main_cst_40
  let main_v106 : IVec S64x64 1 := cmpf .olt main_v104 main_v105
  let main_c_41 : IVec S_ 1 := constantI S_ 1 1#1
  let main_v107 : IVec S_ 1 := (fun x v => Host.reduce IntOp.andi x v reducesTo_S64x64_S_d0_1 h_S_) main_v106 main_c_41
  let main_v108 : IVec S_ 1 := andi main_v103 main_v107
  let main_v109 : FVec F S64 .f32 := Host.absf main_arg25
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x64 .f32 := Host.absf main_arg26
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64x16 .f32 := Host.absf main_arg27
  fn_part7 (F := F) main_arg28 main_arg29 main_arg30 main_v118 main_v119

def fn_part5 {F : FTy → Type} [FloatOps F] (main_arg21 : FVec F S64x64 .f32) (main_arg22 : FVec F S64 .f32) (main_arg23 : FVec F S64x64 .f32) (main_arg24 : FVec F S64x64 .f32) (main_arg25 : FVec F S64 .f32) (main_arg26 : FVec F S64x64 .f32) (main_arg27 : FVec F S64x16 .f32) (main_arg28 : FVec F S16 .f32) (main_arg29 : FVec F S64x16 .f32) (main_arg30 : FVec F S16 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64x64 .f32 := Host.absf main_arg21
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg22
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x64 .f32 := Host.absf main_arg23
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg24 main_arg25 main_arg26 main_arg27 main_arg28 main_arg29 main_arg30 main_v98 main_v101 main_c_39

def fn_part4 {F : FTy → Type} [FloatOps F] (main_arg17 : FVec F S64x64 .f32) (main_arg18 : FVec F S64x64 .f32) (main_arg19 : FVec F S64 .f32) (main_arg20 : FVec F S64x64 .f32) (main_arg21 : FVec F S64x64 .f32) (main_arg22 : FVec F S64 .f32) (main_arg23 : FVec F S64x64 .f32) (main_arg24 : FVec F S64x64 .f32) (main_arg25 : FVec F S64 .f32) (main_arg26 : FVec F S64x64 .f32) (main_arg27 : FVec F S64x16 .f32) (main_arg28 : FVec F S16 .f32) (main_arg29 : FVec F S64x16 .f32) (main_arg30 : FVec F S16 .f32) (main_v63 : IVec S_ 1) (main_v67 : IVec S_ 1) : IVec S_ 1 :=
  let main_v68 : IVec S_ 1 := andi main_v63 main_v67
  let main_v69 : FVec F S64x64 .f32 := Host.absf main_arg17
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64x64 .f32 := Host.absf main_arg18
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg19
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_arg30 main_v83 main_v84 main_cst_32

def fn_part3 {F : FTy → Type} [FloatOps F] (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_arg21 : FVec F S64x64 .f32) (main_arg22 : FVec F S64 .f32) (main_arg23 : FVec F S64x64 .f32) (main_arg24 : FVec F S64x64 .f32) (main_arg25 : FVec F S64 .f32) (main_arg26 : FVec F S64x64 .f32) (main_arg27 : FVec F S64x16 .f32) (main_arg28 : FVec F S16 .f32) (main_arg29 : FVec F S64x16 .f32) (main_arg30 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg14
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg15
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg16
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg17 main_arg18 main_arg19 main_arg20 main_arg21 main_arg22 main_arg23 main_arg24 main_arg25 main_arg26 main_arg27 main_arg28 main_arg29 main_arg30 main_v63 main_v67

def fn_part2 {F : FTy → Type} [FloatOps F] (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_arg21 : FVec F S64x64 .f32) (main_arg22 : FVec F S64 .f32) (main_arg23 : FVec F S64x64 .f32) (main_arg24 : FVec F S64x64 .f32) (main_arg25 : FVec F S64 .f32) (main_arg26 : FVec F S64x64 .f32) (main_arg27 : FVec F S64x16 .f32) (main_arg28 : FVec F S16 .f32) (main_arg29 : FVec F S64x16 .f32) (main_arg30 : FVec F S16 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg11
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg12
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg7 : FVec F S32x64 .f32) (main_arg8 : FVec F S64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_arg21 : FVec F S64x64 .f32) (main_arg22 : FVec F S64 .f32) (main_arg23 : FVec F S64x64 .f32) (main_arg24 : FVec F S64x64 .f32) (main_arg25 : FVec F S64 .f32) (main_arg26 : FVec F S64x64 .f32) (main_arg27 : FVec F S64x16 .f32) (main_arg28 : FVec F S16 .f32) (main_arg29 : FVec F S64x16 .f32) (main_arg30 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg7
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S100000x32 .f32) (main_arg1 : FVec F S300000x32 .f32) (main_arg2 : IVec S2x1000000 32) (main_arg3 : IVec S2x1000000 32) (main_arg4 : IVec S2x2000000 32) (main_arg5 : FVec F S32x64 .f32) (main_arg6 : FVec F S64 .f32) (main_arg7 : FVec F S32x64 .f32) (main_arg8 : FVec F S64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_arg21 : FVec F S64x64 .f32) (main_arg22 : FVec F S64 .f32) (main_arg23 : FVec F S64x64 .f32) (main_arg24 : FVec F S64x64 .f32) (main_arg25 : FVec F S64 .f32) (main_arg26 : FVec F S64x64 .f32) (main_arg27 : FVec F S64x16 .f32) (main_arg28 : FVec F S16 .f32) (main_arg29 : FVec F S64x16 .f32) (main_arg30 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S300000x32 .f32 := Host.absf main_arg1
  let main_cst_0 : FVec F S_ .f32 := constant S_ .f32 0x7F800000#32
  let main_v5 : FVec F S300000x32 .f32 := broadcastInDim S300000x32 ![] bcast_S_S300000x32 main_cst_0
  let main_v6 : IVec S300000x32 1 := cmpf .olt main_v4 main_v5
  let main_c_1 : IVec S_ 1 := constantI S_ 1 1#1
  let main_v7 : IVec S_ 1 := (fun x v => Host.reduce IntOp.andi x v reducesTo_S300000x32_S_d0_1 h_S_) main_v6 main_c_1
  let main_v8 : IVec S_ 1 := andi main_v3 main_v7
  let main_v9 : FVec F S32x64 .f32 := Host.absf main_arg5
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S100000x32 : Shape := ⟨2, ![100000, 32]⟩
abbrev S300000x32 : Shape := ⟨2, ![300000, 32]⟩
abbrev S2x1000000 : Shape := ⟨2, ![2, 1000000]⟩
abbrev S2x2000000 : Shape := ⟨2, ![2, 2000000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000x64 : Shape := ⟨2, ![100000, 64]⟩
abbrev S4000x32 : Shape := ⟨2, ![4000, 32]⟩
abbrev S4000x64 : Shape := ⟨2, ![4000, 64]⟩
abbrev S1x64 : Shape := ⟨2, ![1, 64]⟩
abbrev S300000x64 : Shape := ⟨2, ![300000, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x2000000 : Shape := ⟨2, ![1, 2000000]⟩
abbrev S2000000 : Shape := ⟨1, ![2000000]⟩
abbrev S2000000x1 : Shape := ⟨2, ![2000000, 1]⟩
abbrev S2000000x64 : Shape := ⟨2, ![2000000, 64]⟩
abbrev S100000x8 : Shape := ⟨2, ![100000, 8]⟩
abbrev S4000x8 : Shape := ⟨2, ![4000, 8]⟩
abbrev S4000x16 : Shape := ⟨2, ![4000, 16]⟩
abbrev S1x16 : Shape := ⟨2, ![1, 16]⟩
abbrev S300000x8 : Shape := ⟨2, ![300000, 8]⟩

abbrev nBuf : Space → Nat
  | .hbm => 147
  | .vmem => 70
  | .smem => 0
  | _ => 0

abbrev hbmTy0_0 (i : Nat) : BufTy := match i % 128 with
  | 0 => ⟨S100000x32, .f32⟩
  | 1 => ⟨S300000x32, .f32⟩
  | 2 => ⟨S2x1000000, .i32⟩
  | 3 => ⟨S2x1000000, .i32⟩
  | 4 => ⟨S2x2000000, .i32⟩
  | 5 => ⟨S32x64, .f32⟩
  | 6 => ⟨S64, .f32⟩
  | 7 => ⟨S32x64, .f32⟩
  | 8 => ⟨S64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x64, .f32⟩
  | 16 => ⟨S64, .f32⟩
  | 17 => ⟨S64x64, .f32⟩
  | 18 => ⟨S64x64, .f32⟩
  | 19 => ⟨S64, .f32⟩
  | 20 => ⟨S64x64, .f32⟩
  | 21 => ⟨S64x64, .f32⟩
  | 22 => ⟨S64, .f32⟩
  | 23 => ⟨S64x64, .f32⟩
  | 24 => ⟨S64x64, .f32⟩
  | 25 => ⟨S64, .f32⟩
  | 26 => ⟨S64x64, .f32⟩
  | 27 => ⟨S64x16, .f32⟩
  | 28 => ⟨S16, .f32⟩
  | 29 => ⟨S64x16, .f32⟩
  | 30 => ⟨S16, .f32⟩
  | 31 => ⟨S100000x64, .f32⟩
  | 32 => ⟨S300000x64, .f32⟩
  | 33 => ⟨S1x1000000, .i32⟩
  | 34 => ⟨S1000000, .i32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x64, .f32⟩
  | 44 => ⟨S1x1000000, .i32⟩
  | 45 => ⟨S1000000, .i32⟩
  | 46 => ⟨S_, .f32⟩
  | 47 => ⟨S100000x64, .f32⟩
  | 48 => ⟨S1000000x1, .i32⟩
  | 49 => ⟨S100000x64, .f32⟩
  | 50 => ⟨S100000x64, .f32⟩
  | 51 => ⟨S1x1000000, .i32⟩
  | 52 => ⟨S1000000, .i32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x64, .f32⟩
  | 62 => ⟨S1x1000000, .i32⟩
  | 63 => ⟨S1000000, .i32⟩
  | 64 => ⟨S_, .f32⟩
  | 65 => ⟨S300000x64, .f32⟩
  | 66 => ⟨S1000000x1, .i32⟩
  | 67 => ⟨S300000x64, .f32⟩
  | 68 => ⟨S1x2000000, .i32⟩
  | 69 => ⟨S2000000, .i32⟩
  | 70 => ⟨S_, .i32⟩
  | 71 => ⟨S2000000, .i32⟩
  | 72 => ⟨S2000000, .i1⟩
  | 73 => ⟨S_, .i32⟩
  | 74 => ⟨S2000000, .i32⟩
  | 75 => ⟨S2000000, .i32⟩
  | 76 => ⟨S2000000, .i32⟩
  | 77 => ⟨S2000000x1, .i32⟩
  | 78 => ⟨S2000000x64, .f32⟩
  | 79 => ⟨S1x2000000, .i32⟩
  | 80 => ⟨S2000000, .i32⟩
  | 81 => ⟨S_, .f32⟩
  | 82 => ⟨S300000x64, .f32⟩
  | 83 => ⟨S2000000x1, .i32⟩
  | 84 => ⟨S300000x64, .f32⟩
  | 85 => ⟨S64, .f32⟩
  | 86 => ⟨S64x64, .f32⟩
  | 87 => ⟨S300000x64, .f32⟩
  | 88 => ⟨S1x1000000, .i32⟩
  | 89 => ⟨S1000000, .i32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000x64, .f32⟩
  | 99 => ⟨S1x1000000, .i32⟩
  | 100 => ⟨S1000000, .i32⟩
  | 101 => ⟨S_, .f32⟩
  | 102 => ⟨S100000x64, .f32⟩
  | 103 => ⟨S1000000x1, .i32⟩
  | 104 => ⟨S100000x64, .f32⟩
  | 105 => ⟨S100000x64, .f32⟩
  | 106 => ⟨S1x1000000, .i32⟩
  | 107 => ⟨S1000000, .i32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000x64, .f32⟩
  | 117 => ⟨S1x1000000, .i32⟩
  | 118 => ⟨S1000000, .i32⟩
  | 119 => ⟨S_, .f32⟩
  | 120 => ⟨S300000x64, .f32⟩
  | 121 => ⟨S1000000x1, .i32⟩
  | 122 => ⟨S300000x64, .f32⟩
  | 123 => ⟨S1x2000000, .i32⟩
  | 124 => ⟨S2000000, .i32⟩
  | 125 => ⟨S_, .i32⟩
  | 126 => ⟨S2000000, .i32⟩
  | 127 => ⟨S2000000, .i1⟩
  | _ => ⟨S100000x32, .f32⟩

abbrev hbmTy0_1 (i : Nat) : BufTy := match i % 128 with
  | 0 => ⟨S_, .i32⟩
  | 1 => ⟨S2000000, .i32⟩
  | 2 => ⟨S2000000, .i32⟩
  | 3 => ⟨S2000000, .i32⟩
  | 4 => ⟨S2000000x1, .i32⟩
  | 5 => ⟨S2000000x64, .f32⟩
  | 6 => ⟨S1x2000000, .i32⟩
  | 7 => ⟨S2000000, .i32⟩
  | 8 => ⟨S_, .f32⟩
  | 9 => ⟨S300000x64, .f32⟩
  | 10 => ⟨S2000000x1, .i32⟩
  | 11 => ⟨S300000x64, .f32⟩
  | 12 => ⟨S64, .f32⟩
  | 13 => ⟨S64x64, .f32⟩
  | 14 => ⟨S300000x64, .f32⟩
  | 15 => ⟨S100000x8, .f32⟩
  | 16 => ⟨S100000x8, .f32⟩
  | 17 => ⟨S300000x8, .f32⟩
  | 18 => ⟨S300000x8, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S4000x32, .f32⟩
  | .local _ .vmem, ⟨1, _⟩ => ⟨S4000x32, .f32⟩
  | .local _ .vmem, ⟨2, _⟩ => ⟨S32x64, .f32⟩
  | .local _ .vmem, ⟨3, _⟩ => ⟨S64, .f32⟩
  | .local _ .vmem, ⟨4, _⟩ => ⟨S4000x64, .f32⟩
  | .local _ .vmem, ⟨5, _⟩ => ⟨S4000x64, .f32⟩
  | .local _ .vmem, ⟨6, _⟩ => ⟨S4000x32, .f32⟩
  | .local _ .vmem, ⟨7, _⟩ => ⟨S4000x32, .f32⟩
  | .local _ .vmem, ⟨8, _⟩ => ⟨S32x64, .f32⟩
  | .local _ .vmem, ⟨9, _⟩ => ⟨S64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S64x64, .f32⟩
  | .local _ .vmem, ⟨15, _⟩ => ⟨S64, .f32⟩
  | .local _ .vmem, ⟨16, _⟩ => ⟨S4000x64, .f32⟩
  | .local _ .vmem, ⟨17, _⟩ => ⟨S4000x64, .f32⟩
  | .local _ .vmem, ⟨18, _⟩ => ⟨S64x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S64x64, .f32⟩
  | .local _ .vmem, ⟨24, _⟩ => ⟨S4000x64, .f32⟩
  | .local _ .vmem, ⟨25, _⟩ => ⟨S4000x64, .f32⟩
  | .local _ .vmem, ⟨26, _⟩ => ⟨S64x64, .f32⟩
  | .local _ .vmem, ⟨27, _⟩ => ⟨S64, .f32⟩
  | .local _ .vmem, ⟨28, _⟩ => ⟨S4000x64, .f32⟩
  | .local _ .vmem, ⟨29, _⟩ => ⟨S4000x64, .f32⟩
  | .local _ .vmem, ⟨30, _⟩ => ⟨S64x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S64x64, .f32⟩
  | .local _ .vmem, ⟨36, _⟩ => ⟨S64, .f32⟩
  | .local _ .vmem, ⟨37, _⟩ => ⟨S4000x64, .f32⟩
  | .local _ .vmem, ⟨38, _⟩ => ⟨S4000x64, .f32⟩
  | .local _ .vmem, ⟨39, _⟩ => ⟨S64x64, .f32⟩
  | .local _ .vmem, ⟨40, _⟩ => ⟨S4000x64, .f32⟩
  | .local _ .vmem, ⟨41, _⟩ => ⟨S4000x64, .f32⟩
  | .local _ .vmem, ⟨42, _⟩ => ⟨S4000x64, .f32⟩
  | .local _ .vmem, ⟨43, _⟩ => ⟨S4000x64, .f32⟩
  | .local _ .vmem, ⟨44, _⟩ => ⟨S64x64, .f32⟩
  | .local _ .vmem, ⟨45, _⟩ => ⟨S4000x64, .f32⟩
  | .local _ .vmem, ⟨46, _⟩ => ⟨S4000x64, .f32⟩
  | .local _ .vmem, ⟨47, _⟩ => ⟨S64x64, .f32⟩
  | .local _ .vmem, ⟨48, _⟩ => ⟨S64, .f32⟩
  | .local _ .vmem, ⟨49, _⟩ => ⟨S4000x64, .f32⟩
  | .local _ .vmem, ⟨50, _⟩ => ⟨S4000x64, .f32⟩
  | .local _ .vmem, ⟨51, _⟩ => ⟨S64x64, .f32⟩
  | .local _ .vmem, ⟨52, _⟩ => ⟨S4000x64, .f32⟩
  | .local _ .vmem, ⟨53, _⟩ => ⟨S4000x64, .f32⟩
  | .local _ .vmem, ⟨54, _⟩ => ⟨S4000x64, .f32⟩
  | .local _ .vmem, ⟨55, _⟩ => ⟨S4000x64, .f32⟩
  | .local _ .vmem, ⟨56, _⟩ => ⟨S64x16, .f32⟩
  | .local _ .vmem, ⟨57, _⟩ => ⟨S16, .f32⟩
  | .local _ .vmem, ⟨58, _⟩ => ⟨S4000x8, .f32⟩
  | .local _ .vmem, ⟨59, _⟩ => ⟨S4000x8, .f32⟩
  | .local _ .vmem, ⟨60, _⟩ => ⟨S4000x8, .f32⟩
  | .local _ .vmem, ⟨61, _⟩ => ⟨S4000x8, .f32⟩
  | .local _ .vmem, ⟨62, _⟩ => ⟨S4000x64, .f32⟩
  | .local _ .vmem, ⟨63, _⟩ => ⟨S4000x64, .f32⟩
  | .local _ .vmem, ⟨64, _⟩ => ⟨S64x16, .f32⟩
  | .local _ .vmem, ⟨65, _⟩ => ⟨S16, .f32⟩
  | .local _ .vmem, ⟨66, _⟩ => ⟨S4000x8, .f32⟩
  | .local _ .vmem, ⟨67, _⟩ => ⟨S4000x8, .f32⟩
  | .local _ .vmem, ⟨68, _⟩ => ⟨S4000x8, .f32⟩
  | .local _ .vmem, ⟨69, _⟩ => ⟨S4000x8, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_c_1 : Ref sig .tc := ⟨.hbm, 53, rfl⟩
abbrev main_v19 : Ref sig .tc := ⟨.hbm, 54, rfl⟩
abbrev main_v20 : Ref sig .tc := ⟨.hbm, 55, rfl⟩
abbrev main_c_2 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_3 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_c_4 : Ref sig .tc := ⟨.hbm, 70, rfl⟩
abbrev main_v33 : Ref sig .tc := ⟨.hbm, 71, rfl⟩
abbrev main_v34 : Ref sig .tc := ⟨.hbm, 72, rfl⟩
abbrev main_c_5 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_6 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_7 : Ref sig .tc := ⟨.hbm, 90, rfl⟩
abbrev main_v50 : Ref sig .tc := ⟨.hbm, 91, rfl⟩
abbrev main_v51 : Ref sig .tc := ⟨.hbm, 92, rfl⟩
abbrev main_c_8 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_9 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_c_10 : Ref sig .tc := ⟨.hbm, 108, rfl⟩
abbrev main_v65 : Ref sig .tc := ⟨.hbm, 109, rfl⟩
abbrev main_v66 : Ref sig .tc := ⟨.hbm, 110, rfl⟩
abbrev main_c_11 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_12 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_c_13 : Ref sig .tc := ⟨.hbm, 125, rfl⟩
abbrev main_v79 : Ref sig .tc := ⟨.hbm, 126, rfl⟩
abbrev main_v80 : Ref sig .tc := ⟨.hbm, 127, rfl⟩
abbrev main_c_14 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_15 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94_0 : Ref sig .tc := ⟨.hbm, 143, rfl⟩
abbrev main_v94_1 : Ref sig .tc := ⟨.hbm, 144, rfl⟩
abbrev main_v95_0 : Ref sig .tc := ⟨.hbm, 145, rfl⟩
abbrev main_v95_1 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg7_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg7_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc6_stg4_0 : Ref sig .tc := ⟨.vmem, 60, rfl⟩
abbrev cc6_stg4_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg3_1 : Ref sig .tc := ⟨.vmem, 67, rfl⟩
abbrev cc7_stg4_0 : Ref sig .tc := ⟨.vmem, 68, rfl⟩
abbrev cc7_stg4_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem5_1 : DmaSem sig := 29
abbrev cc3_sem6_0 : DmaSem sig := 30
abbrev cc3_sem7_0 : DmaSem sig := 31
abbrev cc3_sem7_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem3_1 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem5_0 : DmaSem sig := 49
abbrev cc5_sem5_1 : DmaSem sig := 50
abbrev cc5_sem6_0 : DmaSem sig := 51
abbrev cc5_sem7_0 : DmaSem sig := 52
abbrev cc5_sem7_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59
abbrev cc6_sem4_0 : DmaSem sig := 60
abbrev cc6_sem4_1 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem3_1 : DmaSem sig := 67
abbrev cc7_sem4_0 : DmaSem sig := 68
abbrev cc7_sem4_1 : DmaSem sig := 69

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![75], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![75], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S64x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S4000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4000x8 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S4000x8 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![75], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x16 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S16 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4000x8 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S4000x8 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  inb_S4000x32_S4000x32_0_0 : ∀ a, (![0, 0] : Fin 2 → Nat) a + S4000x32.size a ≤ S4000x32.size a
  h_S4000x32 : 0 < S4000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S100000x64 : S_.BroadcastsInDim S100000x64 (![] : Fin 0 → Fin S100000x64.rank)
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  bcast_S_S300000x64 : S_.BroadcastsInDim S300000x64 (![] : Fin 0 → Fin S300000x64.rank)
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  shapeCasts_S64x64_S64x64 : S64x64.ShapeCasts S64x64
  shapeCasts_S64_S64 : S64.ShapeCasts S64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  slices_S4000x16_o0_0_S4000x8 : S4000x16.Slices ![0, 0] S4000x8
  slices_S4000x16_o0_8_S4000x8 : S4000x16.Slices ![0, 8] S4000x8
  inb_S4000x8_S4000x8_0_0 : ∀ a, (![0, 0] : Fin 2 → Nat) a + S4000x8.size a ≤ S4000x8.size a
  h_S4000x8 : 0 < S4000x8.numel
  dot_S4000x32_S32x64_S4000x64_1_0_0_1_n_n_wf : DotDims.WF S4000x32 S32x64 S4000x64 [1] [0] [0] [1] [] []
  gather_S300000x64_S1000000x1_S1000000x64_1_0_n_n_0_1_164_wf : GatherDims.WF S300000x64 S1000000x1 S1000000x64 [1] [0] [] [0] [] 1 ![1, 64]
  scatter_S100000x64_S1000000x1_S1000000x64_1_0_0_1_wf : ScatterDims.WF S100000x64 S1000000x1 S1000000x64 [1] [0] [0] 1
  dot_S4000x64_S64x64_S4000x64_1_0_0_1_n_n_wf : DotDims.WF S4000x64 S64x64 S4000x64 [1] [0] [0] [1] [] []
  gather_S100000x64_S1000000x1_S1000000x64_1_0_n_n_0_1_164_wf : GatherDims.WF S100000x64 S1000000x1 S1000000x64 [1] [0] [] [0] [] 1 ![1, 64]
  scatter_S300000x64_S1000000x1_S1000000x64_1_0_0_1_wf : ScatterDims.WF S300000x64 S1000000x1 S1000000x64 [1] [0] [0] 1
  gather_S300000x64_S2000000x1_S2000000x64_1_0_n_n_0_1_164_wf : GatherDims.WF S300000x64 S2000000x1 S2000000x64 [1] [0] [] [0] [] 1 ![1, 64]
  scatter_S300000x64_S2000000x1_S2000000x64_1_0_0_1_wf : ScatterDims.WF S300000x64 S2000000x1 S2000000x64 [1] [0] [0] 1
  dot_S4000x64_S64x16_S4000x16_1_0_0_1_n_n_wf : DotDims.WF S4000x64 S64x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S100000x32.size a
  hwx0_0 : ∀ i : grid0.Coords, EltTy.bits .f32 = 32 ∨ (Rect.block (s := S100000x32) S4000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S300000x32.size a
  hwx1_0 : ∀ i : grid1.Coords, EltTy.bits .f32 = 32 ∨ (Rect.block (s := S300000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S300000x64.size a
  hwx1_3 : ∀ i : grid1.Coords, EltTy.bits .f32 = 32 ∨ (Rect.block (s := S300000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S100000x64.size a
  hwx2_5 : ∀ i : grid2.Coords, EltTy.bits .f32 = 32 ∨ (Rect.block (s := S100000x64) S4000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S300000x64.size a
  hwx3_0 : ∀ i : grid3.Coords, EltTy.bits .f32 = 32 ∨ (Rect.block (s := S300000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S300000x64.size a
  hwx3_2 : ∀ i : grid3.Coords, EltTy.bits .f32 = 32 ∨ (Rect.block (s := S300000x64) S4000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x64.size a ≤ S300000x64.size a
  hwx3_5 : ∀ i : grid3.Coords, EltTy.bits .f32 = 32 ∨ (Rect.block (s := S300000x64) S4000x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x64.size a ≤ S300000x64.size a
  hwx3_7 : ∀ i : grid3.Coords, EltTy.bits .f32 = 32 ∨ (Rect.block (s := S300000x64) S4000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x64.size a ≤ S100000x64.size a
  hwx4_3 : ∀ i : grid4.Coords, EltTy.bits .f32 = 32 ∨ (Rect.block (s := S100000x64) S4000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x64.size a ≤ S100000x64.size a
  hwx4_5 : ∀ i : grid4.Coords, EltTy.bits .f32 = 32 ∨ (Rect.block (s := S100000x64) S4000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S300000x64.size a
  hwx5_0 : ∀ i : grid5.Coords, EltTy.bits .f32 = 32 ∨ (Rect.block (s := S300000x64) S4000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x64.size a ≤ S300000x64.size a
  hwx5_2 : ∀ i : grid5.Coords, EltTy.bits .f32 = 32 ∨ (Rect.block (s := S300000x64) S4000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x64.size a ≤ S300000x64.size a
  hwx5_5 : ∀ i : grid5.Coords, EltTy.bits .f32 = 32 ∨ (Rect.block (s := S300000x64) S4000x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64x64.size a ≤ S64x64.size a
  hwx5_6 : ∀ i : grid5.Coords, EltTy.bits .f32 = 32 ∨ (Rect.block (s := S64x64) S64x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S4000x64.size a ≤ S300000x64.size a
  hwx5_7 : ∀ i : grid5.Coords, EltTy.bits .f32 = 32 ∨ (Rect.block (s := S300000x64) S4000x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S100000x64.size a
  hwx6_0 : ∀ i : grid6.Coords, EltTy.bits .f32 = 32 ∨ (Rect.block (s := S100000x64) S4000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x16.size a ≤ S64x16.size a
  hwx6_1 : ∀ i : grid6.Coords, EltTy.bits .f32 = 32 ∨ (Rect.block (s := S64x16) S64x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16.size a ≤ S16.size a
  hwx6_2 : ∀ i : grid6.Coords, EltTy.bits .f32 = 32 ∨ (Rect.block (s := S16) S16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x8.size a ≤ S100000x8.size a
  hwx6_3 : ∀ i : grid6.Coords, EltTy.bits .f32 = 32 ∨ (Rect.block (s := S100000x8) S4000x8.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x8.size a ≤ S100000x8.size a
  hwx6_4 : ∀ i : grid6.Coords, EltTy.bits .f32 = 32 ∨ (Rect.block (s := S100000x8) S4000x8.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S300000x64.size a
  hwx7_0 : ∀ i : grid7.Coords, EltTy.bits .f32 = 32 ∨ (Rect.block (s := S300000x64) S4000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x16.size a ≤ S64x16.size a
  hwx7_1 : ∀ i : grid7.Coords, EltTy.bits .f32 = 32 ∨ (Rect.block (s := S64x16) S64x16.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S16.size a ≤ S16.size a
  hwx7_2 : ∀ i : grid7.Coords, EltTy.bits .f32 = 32 ∨ (Rect.block (s := S16) S16.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x8.size a ≤ S300000x8.size a
  hwx7_3 : ∀ i : grid7.Coords, EltTy.bits .f32 = 32 ∨ (Rect.block (s := S300000x8) S4000x8.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S4000x8.size a ≤ S300000x8.size a
  hwx7_4 : ∀ i : grid7.Coords, EltTy.bits .f32 = 32 ∨ (Rect.block (s := S300000x8) S4000x8.size (cc7_transform_4 i) (hinb7_4 i)).WholeWords (EltTy.packing .f32)

variable [Facts₀]

def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def gather_S300000x64_S1000000x1_S1000000x64_1_0_n_n_0_1_164 : GatherDims S300000x64 S1000000x1 S1000000x64 where
  offsetDims := [1]
  collapsedSliceDims := [0]
  operandBatchingDims := []
  startIndicesBatchingDims := []
  startIndexMap := [0]
  indexVectorDim := 1
  sliceSizes := ![1, 64]
  wf := gather_S300000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S300000x64_S1000000x1_S1000000x64_1_0_0_1 : ScatterDims S300000x64 S1000000x1 S1000000x64 where
  updateWindowDims := [1]
  insertedWindowDims := [0]
  scatterDimsToOperandDims := [0]
  indexVectorDim := 1
  wf := scatter_S300000x64_S1000000x1_S1000000x64_1_0_0_1_wf
def gather_S300000x64_S2000000x1_S2000000x64_1_0_n_n_0_1_164 : GatherDims S300000x64 S2000000x1 S2000000x64 where
  offsetDims := [1]
  collapsedSliceDims := [0]
  operandBatchingDims := []
  startIndicesBatchingDims := []
  startIndexMap := [0]
  indexVectorDim := 1
  sliceSizes := ![1, 64]
  wf := gather_S300000x64_S2000000x1_S2000000x64_1_0_n_n_0_1_164_wf
def scatter_S300000x64_S2000000x1_S2000000x64_1_0_0_1 : ScatterDims S300000x64 S2000000x1 S2000000x64 where
  updateWindowDims := [1]
  insertedWindowDims := [0]
  scatterDimsToOperandDims := [0]
  indexVectorDim := 1
  wf := scatter_S300000x64_S2000000x1_S2000000x64_1_0_0_1_wf
def dot_S4000x64_S64x16_S4000x16_1_0_0_1_n_n : DotDims S4000x64 S64x16 S4000x16 where
  lhsContracting := [1]
  rhsContracting := [0]
  lhsNonContracting := [0]
  rhsNonContracting := [1]
  lhsBatch := []
  rhsBatch := []
  wf := dot_S4000x64_S64x16_S4000x16_1_0_0_1_n_n_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S4000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S4000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v30) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v1) S4000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v46) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v47) S4000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v61) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg21) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg22) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v16) S4000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg23) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v62) S4000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v76) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg18) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S4000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg24) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v91) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v47) S4000x64.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v92) S64x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v93) S4000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v62) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg27) S64x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg28) S16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v94_0) S4000x8.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v94_1) S4000x8.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v93) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg29) S64x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg30) S16.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v95_0) S4000x8.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v95_1) S4000x8.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x32 : Shape := ⟨2, ![100000, 32]⟩
abbrev S300000x32 : Shape := ⟨2, ![300000, 32]⟩
abbrev S2x1000000 : Shape := ⟨2, ![2, 1000000]⟩
abbrev S2x2000000 : Shape := ⟨2, ![2, 2000000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000x64 : Shape := ⟨2, ![100000, 64]⟩
abbrev S1x64 : Shape := ⟨2, ![1, 64]⟩
abbrev S300000x64 : Shape := ⟨2, ![300000, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x2000000 : Shape := ⟨2, ![1, 2000000]⟩
abbrev S2000000 : Shape := ⟨1, ![2000000]⟩
abbrev S2000000x1 : Shape := ⟨2, ![2000000, 1]⟩
abbrev S2000000x64 : Shape := ⟨2, ![2000000, 64]⟩
abbrev S100000x16 : Shape := ⟨2, ![100000, 16]⟩
abbrev S1x16 : Shape := ⟨2, ![1, 16]⟩
abbrev S300000x16 : Shape := ⟨2, ![300000, 16]⟩
abbrev S100000x8 : Shape := ⟨2, ![100000, 8]⟩
abbrev S300000x8 : Shape := ⟨2, ![300000, 8]⟩

abbrev nBuf : Space → Nat
  | .hbm => 231
  | .vmem => 0
  | .smem => 0
  | _ => 0

abbrev hbmTy0_0 (i : Nat) : BufTy := match i % 128 with
  | 0 => ⟨S100000x32, .f32⟩
  | 1 => ⟨S300000x32, .f32⟩
  | 2 => ⟨S2x1000000, .i32⟩
  | 3 => ⟨S2x1000000, .i32⟩
  | 4 => ⟨S2x2000000, .i32⟩
  | 5 => ⟨S32x64, .f32⟩
  | 6 => ⟨S64, .f32⟩
  | 7 => ⟨S32x64, .f32⟩
  | 8 => ⟨S64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x64, .f32⟩
  | 16 => ⟨S64, .f32⟩
  | 17 => ⟨S64x64, .f32⟩
  | 18 => ⟨S64x64, .f32⟩
  | 19 => ⟨S64, .f32⟩
  | 20 => ⟨S64x64, .f32⟩
  | 21 => ⟨S64x64, .f32⟩
  | 22 => ⟨S64, .f32⟩
  | 23 => ⟨S64x64, .f32⟩
  | 24 => ⟨S64x64, .f32⟩
  | 25 => ⟨S64, .f32⟩
  | 26 => ⟨S64x64, .f32⟩
  | 27 => ⟨S64x16, .f32⟩
  | 28 => ⟨S16, .f32⟩
  | 29 => ⟨S64x16, .f32⟩
  | 30 => ⟨S16, .f32⟩
  | 31 => ⟨S100000x64, .f32⟩
  | 32 => ⟨S1x64, .f32⟩
  | 33 => ⟨S100000x64, .f32⟩
  | 34 => ⟨S100000x64, .f32⟩
  | 35 => ⟨S300000x64, .f32⟩
  | 36 => ⟨S1x64, .f32⟩
  | 37 => ⟨S300000x64, .f32⟩
  | 38 => ⟨S300000x64, .f32⟩
  | 39 => ⟨S1x1000000, .i32⟩
  | 40 => ⟨S1000000, .i32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x64, .f32⟩
  | 50 => ⟨S1x1000000, .i32⟩
  | 51 => ⟨S1000000, .i32⟩
  | 52 => ⟨S_, .f32⟩
  | 53 => ⟨S100000x64, .f32⟩
  | 54 => ⟨S1000000x1, .i32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S100000x64, .f32⟩
  | 61 => ⟨S100000x64, .f32⟩
  | 62 => ⟨S1x1000000, .i32⟩
  | 63 => ⟨S1000000, .i32⟩
  | 64 => ⟨S_, .i32⟩
  | 65 => ⟨S1000000, .i32⟩
  | 66 => ⟨S1000000, .i1⟩
  | 67 => ⟨S_, .i32⟩
  | 68 => ⟨S1000000, .i32⟩
  | 69 => ⟨S1000000, .i32⟩
  | 70 => ⟨S1000000, .i32⟩
  | 71 => ⟨S1000000x1, .i32⟩
  | 72 => ⟨S1000000x64, .f32⟩
  | 73 => ⟨S1x1000000, .i32⟩
  | 74 => ⟨S1000000, .i32⟩
  | 75 => ⟨S_, .f32⟩
  | 76 => ⟨S300000x64, .f32⟩
  | 77 => ⟨S1000000x1, .i32⟩
  | 78 => ⟨S300000x64, .f32⟩
  | 79 => ⟨S300000x64, .f32⟩
  | 80 => ⟨S1x64, .f32⟩
  | 81 => ⟨S300000x64, .f32⟩
  | 82 => ⟨S300000x64, .f32⟩
  | 83 => ⟨S300000x64, .f32⟩
  | 84 => ⟨S300000x64, .f32⟩
  | 85 => ⟨S1x2000000, .i32⟩
  | 86 => ⟨S2000000, .i32⟩
  | 87 => ⟨S_, .i32⟩
  | 88 => ⟨S2000000, .i32⟩
  | 89 => ⟨S2000000, .i1⟩
  | 90 => ⟨S_, .i32⟩
  | 91 => ⟨S2000000, .i32⟩
  | 92 => ⟨S2000000, .i32⟩
  | 93 => ⟨S2000000, .i32⟩
  | 94 => ⟨S2000000x1, .i32⟩
  | 95 => ⟨S2000000x64, .f32⟩
  | 96 => ⟨S1x2000000, .i32⟩
  | 97 => ⟨S2000000, .i32⟩
  | 98 => ⟨S_, .f32⟩
  | 99 => ⟨S300000x64, .f32⟩
  | 100 => ⟨S2000000x1, .i32⟩
  | 101 => ⟨S300000x64, .f32⟩
  | 102 => ⟨S300000x64, .f32⟩
  | 103 => ⟨S1x64, .f32⟩
  | 104 => ⟨S300000x64, .f32⟩
  | 105 => ⟨S300000x64, .f32⟩
  | 106 => ⟨S300000x64, .f32⟩
  | 107 => ⟨S300000x64, .f32⟩
  | 108 => ⟨S300000x64, .f32⟩
  | 109 => ⟨S100000x64, .f32⟩
  | 110 => ⟨S300000x64, .f32⟩
  | 111 => ⟨S1x1000000, .i32⟩
  | 112 => ⟨S1000000, .i32⟩
  | 113 => ⟨S_, .i32⟩
  | 114 => ⟨S1000000, .i32⟩
  | 115 => ⟨S1000000, .i1⟩
  | 116 => ⟨S_, .i32⟩
  | 117 => ⟨S1000000, .i32⟩
  | 118 => ⟨S1000000, .i32⟩
  | 119 => ⟨S1000000, .i32⟩
  | 120 => ⟨S1000000x1, .i32⟩
  | 121 => ⟨S1000000x64, .f32⟩
  | 122 => ⟨S1x1000000, .i32⟩
  | 123 => ⟨S1000000, .i32⟩
  | 124 => ⟨S_, .f32⟩
  | 125 => ⟨S100000x64, .f32⟩
  | 126 => ⟨S1000000x1, .i32⟩
  | 127 => ⟨S100000x64, .f32⟩
  | _ => ⟨S100000x32, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S100000x64, .f32⟩
  | 5 => ⟨S100000x64, .f32⟩
  | 6 => ⟨S1x1000000, .i32⟩
  | 7 => ⟨S1000000, .i32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x64, .f32⟩
  | 17 => ⟨S1x1000000, .i32⟩
  | 18 => ⟨S1000000, .i32⟩
  | 19 => ⟨S_, .f32⟩
  | 20 => ⟨S300000x64, .f32⟩
  | 21 => ⟨S1000000x1, .i32⟩
  | 22 => ⟨S300000x64, .f32⟩
  | 23 => ⟨S300000x64, .f32⟩
  | 24 => ⟨S1x64, .f32⟩
  | 25 => ⟨S300000x64, .f32⟩
  | 26 => ⟨S300000x64, .f32⟩
  | 27 => ⟨S300000x64, .f32⟩
  | 28 => ⟨S300000x64, .f32⟩
  | 29 => ⟨S1x2000000, .i32⟩
  | 30 => ⟨S2000000, .i32⟩
  | 31 => ⟨S_, .i32⟩
  | 32 => ⟨S2000000, .i32⟩
  | 33 => ⟨S2000000, .i1⟩
  | 34 => ⟨S_, .i32⟩
  | 35 => ⟨S2000000, .i32⟩
  | 36 => ⟨S2000000, .i32⟩
  | 37 => ⟨S2000000, .i32⟩
  | 38 => ⟨S2000000x1, .i32⟩
  | 39 => ⟨S2000000x64, .f32⟩
  | 40 => ⟨S1x2000000, .i32⟩
  | 41 => ⟨S2000000, .i32⟩
  | 42 => ⟨S_, .f32⟩
  | 43 => ⟨S300000x64, .f32⟩
  | 44 => ⟨S2000000x1, .i32⟩
  | 45 => ⟨S300000x64, .f32⟩
  | 46 => ⟨S300000x64, .f32⟩
  | 47 => ⟨S1x64, .f32⟩
  | 48 => ⟨S300000x64, .f32⟩
  | 49 => ⟨S300000x64, .f32⟩
  | 50 => ⟨S300000x64, .f32⟩
  | 51 => ⟨S300000x64, .f32⟩
  | 52 => ⟨S300000x64, .f32⟩
  | 53 => ⟨S100000x64, .f32⟩
  | 54 => ⟨S300000x64, .f32⟩
  | 55 => ⟨S100000x16, .f32⟩
  | 56 => ⟨S1x16, .f32⟩
  | 57 => ⟨S100000x16, .f32⟩
  | 58 => ⟨S100000x16, .f32⟩
  | 59 => ⟨S100000x16, .f32⟩
  | 60 => ⟨S300000x16, .f32⟩
  | 61 => ⟨S1x16, .f32⟩
  | 62 => ⟨S300000x16, .f32⟩
  | 63 => ⟨S300000x16, .f32⟩
  | 64 => ⟨S300000x16, .f32⟩
  | 65 => ⟨S100000x8, .f32⟩
  | 66 => ⟨S100000x8, .f32⟩
  | 67 => ⟨S300000x8, .f32⟩
  | 68 => ⟨S300000x8, .f32⟩
  | 69 => ⟨S_, .f32⟩
  | 70 => ⟨S100000x8, .f32⟩
  | 71 => ⟨S100000x8, .f32⟩
  | 72 => ⟨S_, .f32⟩
  | 73 => ⟨S100000x8, .f32⟩
  | 74 => ⟨S100000x8, .f32⟩
  | 75 => ⟨S100000x8, .f32⟩
  | 76 => ⟨S100000x8, .f32⟩
  | 77 => ⟨S100000x8, .i1⟩
  | 78 => ⟨S100000x8, .f32⟩
  | 79 => ⟨S100000x8, .f32⟩
  | 80 => ⟨S100000x8, .f32⟩
  | 81 => ⟨S100000x8, .f32⟩
  | 82 => ⟨S100000x8, .f32⟩
  | 83 => ⟨S100000x8, .f32⟩
  | 84 => ⟨S100000x8, .f32⟩
  | 85 => ⟨S100000x8, .f32⟩
  | 86 => ⟨S_, .f32⟩
  | 87 => ⟨S300000x8, .f32⟩
  | 88 => ⟨S300000x8, .f32⟩
  | 89 => ⟨S_, .f32⟩
  | 90 => ⟨S300000x8, .f32⟩
  | 91 => ⟨S300000x8, .f32⟩
  | 92 => ⟨S300000x8, .f32⟩
  | 93 => ⟨S300000x8, .f32⟩
  | 94 => ⟨S300000x8, .i1⟩
  | 95 => ⟨S300000x8, .f32⟩
  | 96 => ⟨S300000x8, .f32⟩
  | 97 => ⟨S300000x8, .f32⟩
  | 98 => ⟨S300000x8, .f32⟩
  | 99 => ⟨S300000x8, .f32⟩
  | 100 => ⟨S300000x8, .f32⟩
  | 101 => ⟨S300000x8, .f32⟩
  | 102 => ⟨S300000x8, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_c : Ref sig .tc := ⟨.hbm, 41, rfl⟩
abbrev main_v10 : Ref sig .tc := ⟨.hbm, 42, rfl⟩
abbrev main_v11 : Ref sig .tc := ⟨.hbm, 43, rfl⟩
abbrev main_c_0 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_1 : Ref sig .tc := ⟨.hbm, 64, rfl⟩
abbrev main_v30 : Ref sig .tc := ⟨.hbm, 65, rfl⟩
abbrev main_v31 : Ref sig .tc := ⟨.hbm, 66, rfl⟩
abbrev main_c_2 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_3 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_4 : Ref sig .tc := ⟨.hbm, 87, rfl⟩
abbrev main_v50 : Ref sig .tc := ⟨.hbm, 88, rfl⟩
abbrev main_v51 : Ref sig .tc := ⟨.hbm, 89, rfl⟩
abbrev main_c_5 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_6 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_7 : Ref sig .tc := ⟨.hbm, 113, rfl⟩
abbrev main_v73 : Ref sig .tc := ⟨.hbm, 114, rfl⟩
abbrev main_v74 : Ref sig .tc := ⟨.hbm, 115, rfl⟩
abbrev main_c_8 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_9 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_10 : Ref sig .tc := ⟨.hbm, 136, rfl⟩
abbrev main_v93 : Ref sig .tc := ⟨.hbm, 137, rfl⟩
abbrev main_v94 : Ref sig .tc := ⟨.hbm, 138, rfl⟩
abbrev main_c_11 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_12 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_c_13 : Ref sig .tc := ⟨.hbm, 159, rfl⟩
abbrev main_v113 : Ref sig .tc := ⟨.hbm, 160, rfl⟩
abbrev main_v114 : Ref sig .tc := ⟨.hbm, 161, rfl⟩
abbrev main_c_14 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_15 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_16 : Ref sig .tc := ⟨.hbm, 197, rfl⟩
abbrev main_v148 : Ref sig .tc := ⟨.hbm, 198, rfl⟩
abbrev main_v149 : Ref sig .tc := ⟨.hbm, 199, rfl⟩
abbrev main_call0_cst : Ref sig .tc := ⟨.hbm, 200, rfl⟩
abbrev main_call0_v0 : Ref sig .tc := ⟨.hbm, 201, rfl⟩
abbrev main_call0_v1 : Ref sig .tc := ⟨.hbm, 202, rfl⟩
abbrev main_call0_v2 : Ref sig .tc := ⟨.hbm, 203, rfl⟩
abbrev main_call0_v3 : Ref sig .tc := ⟨.hbm, 204, rfl⟩
abbrev main_call0_v4 : Ref sig .tc := ⟨.hbm, 205, rfl⟩
abbrev main_call0_v5 : Ref sig .tc := ⟨.hbm, 206, rfl⟩
abbrev main_call0_v6 : Ref sig .tc := ⟨.hbm, 207, rfl⟩
abbrev main_call0_v7 : Ref sig .tc := ⟨.hbm, 208, rfl⟩
abbrev main_call0_v8 : Ref sig .tc := ⟨.hbm, 209, rfl⟩
abbrev main_call0_v9 : Ref sig .tc := ⟨.hbm, 210, rfl⟩
abbrev main_call0_v10 : Ref sig .tc := ⟨.hbm, 211, rfl⟩
abbrev main_call0_v11 : Ref sig .tc := ⟨.hbm, 212, rfl⟩
abbrev main_v150 : Ref sig .tc := ⟨.hbm, 213, rfl⟩
abbrev main_cst_17 : Ref sig .tc := ⟨.hbm, 214, rfl⟩
abbrev main_v151 : Ref sig .tc := ⟨.hbm, 215, rfl⟩
abbrev main_v152 : Ref sig .tc := ⟨.hbm, 216, rfl⟩
abbrev main_call1_cst : Ref sig .tc := ⟨.hbm, 217, rfl⟩
abbrev main_call1_v0 : Ref sig .tc := ⟨.hbm, 218, rfl⟩
abbrev main_call1_v1 : Ref sig .tc := ⟨.hbm, 219, rfl⟩
abbrev main_call1_v2 : Ref sig .tc := ⟨.hbm, 220, rfl⟩
abbrev main_call1_v3 : Ref sig .tc := ⟨.hbm, 221, rfl⟩
abbrev main_call1_v4 : Ref sig .tc := ⟨.hbm, 222, rfl⟩
abbrev main_call1_v5 : Ref sig .tc := ⟨.hbm, 223, rfl⟩
abbrev main_call1_v6 : Ref sig .tc := ⟨.hbm, 224, rfl⟩
abbrev main_call1_v7 : Ref sig .tc := ⟨.hbm, 225, rfl⟩
abbrev main_call1_v8 : Ref sig .tc := ⟨.hbm, 226, rfl⟩
abbrev main_call1_v9 : Ref sig .tc := ⟨.hbm, 227, rfl⟩
abbrev main_call1_v10 : Ref sig .tc := ⟨.hbm, 228, rfl⟩
abbrev main_call1_v11 : Ref sig .tc := ⟨.hbm, 229, rfl⟩
abbrev main_v153 : Ref sig .tc := ⟨.hbm, 230, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S300000x64_0_1 : S1x64.BroadcastsInDim S300000x64 (![0, 1] : Fin 2 → Fin S300000x64.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S100000x64 : S_.BroadcastsInDim S100000x64 (![] : Fin 0 → Fin S100000x64.rank)
  bcast_S_S300000x64 : S_.BroadcastsInDim S300000x64 (![] : Fin 0 → Fin S300000x64.rank)
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1x16_S300000x16_0_1 : S1x16.BroadcastsInDim S300000x16 (![0, 1] : Fin 2 → Fin S300000x16.rank)
  slices_S100000x16_S100000x8_0_0 : S100000x16.Slices ![0, 0] S100000x8
  slices_S100000x16_S100000x8_0_8 : S100000x16.Slices ![0, 8] S100000x8
  slices_S300000x16_S300000x8_0_0 : S300000x16.Slices ![0, 0] S300000x8
  slices_S300000x16_S300000x8_0_8 : S300000x16.Slices ![0, 8] S300000x8
  bcast_S_S100000x8 : S_.BroadcastsInDim S100000x8 (![] : Fin 0 → Fin S100000x8.rank)
  bcast_S_S300000x8 : S_.BroadcastsInDim S300000x8 (![] : Fin 0 → Fin S300000x8.rank)
  dot_S100000x32_S32x64_S100000x64_1_0_0_1_n_n_wf : DotDims.WF S100000x32 S32x64 S100000x64 [1] [0] [0] [1] [] []
  dot_S300000x32_S32x64_S300000x64_1_0_0_1_n_n_wf : DotDims.WF S300000x32 S32x64 S300000x64 [1] [0] [0] [1] [] []
  gather_S300000x64_S1000000x1_S1000000x64_1_0_n_n_0_1_164_wf : GatherDims.WF S300000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S300000x64_S1000000x1_S1000000x64_1_0_0_1_wf : ScatterDims.WF S300000x64 S1000000x1 S1000000x64 [1] [0] [0] 1
  dot_S300000x64_S64x64_S300000x64_1_0_0_1_n_n_wf : DotDims.WF S300000x64 S64x64 S300000x64 [1] [0] [0] [1] [] []
  gather_S300000x64_S2000000x1_S2000000x64_1_0_n_n_0_1_164_wf : GatherDims.WF S300000x64 S2000000x1 S2000000x64 [1] [0] [] [0] [] 1 ![1, 64]
  scatter_S300000x64_S2000000x1_S2000000x64_1_0_0_1_wf : ScatterDims.WF S300000x64 S2000000x1 S2000000x64 [1] [0] [0] 1
  dot_S100000x64_S64x16_S100000x16_1_0_0_1_n_n_wf : DotDims.WF S100000x64 S64x16 S100000x16 [1] [0] [0] [1] [] []
  dot_S300000x64_S64x16_S300000x16_1_0_0_1_n_n_wf : DotDims.WF S300000x64 S64x16 S300000x16 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S300000x32_S32x64_S300000x64_1_0_0_1_n_n : DotDims S300000x32 S32x64 S300000x64 where
  lhsContracting := [1]
  rhsContracting := [0]
  lhsNonContracting := [0]
  rhsNonContracting := [1]
  lhsBatch := []
  rhsBatch := []
  wf := dot_S300000x32_S32x64_S300000x64_1_0_0_1_n_n_wf
def gather_S300000x64_S1000000x1_S1000000x64_1_0_n_n_0_1_164 : GatherDims S300000x64 S1000000x1 S1000000x64 where
  offsetDims := [1]
  collapsedSliceDims := [0]
  operandBatchingDims := []
  startIndicesBatchingDims := []
  startIndexMap := [0]
  indexVectorDim := 1
  sliceSizes := ![1, 64]
  wf := gather_S300000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S300000x64_S1000000x1_S1000000x64_1_0_0_1 : ScatterDims S300000x64 S1000000x1 S1000000x64 where
  updateWindowDims := [1]
  insertedWindowDims := [0]
  scatterDimsToOperandDims := [0]
  indexVectorDim := 1
  wf := scatter_S300000x64_S1000000x1_S1000000x64_1_0_0_1_wf
def dot_S300000x64_S64x64_S300000x64_1_0_0_1_n_n : DotDims S300000x64 S64x64 S300000x64 where
  lhsContracting := [1]
  rhsContracting := [0]
  lhsNonContracting := [0]
  rhsNonContracting := [1]
  lhsBatch := []
  rhsBatch := []
  wf := dot_S300000x64_S64x64_S300000x64_1_0_0_1_n_n_wf
def gather_S300000x64_S2000000x1_S2000000x64_1_0_n_n_0_1_164 : GatherDims S300000x64 S2000000x1 S2000000x64 where
  offsetDims := [1]
  collapsedSliceDims := [0]
  operandBatchingDims := []
  startIndicesBatchingDims := []
  startIndexMap := [0]
  indexVectorDim := 1
  sliceSizes := ![1, 64]
  wf := gather_S300000x64_S2000000x1_S2000000x64_1_0_n_n_0_1_164_wf
def scatter_S300000x64_S2000000x1_S2000000x64_1_0_0_1 : ScatterDims S300000x64 S2000000x1 S2000000x64 where
  updateWindowDims := [1]
  insertedWindowDims := [0]
  scatterDimsToOperandDims := [0]
  indexVectorDim := 1
  wf := scatter_S300000x64_S2000000x1_S2000000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def dot_S300000x64_S64x16_S300000x16_1_0_0_1_n_n : DotDims S300000x64 S64x16 S300000x16 where
  lhsContracting := [1]
  rhsContracting := [0]
  lhsNonContracting := [0]
  rhsNonContracting := [1]
  lhsBatch := []
  rhsBatch := []
  wf := dot_S300000x64_S64x16_S300000x16_1_0_0_1_n_n_wf

class Facts : Prop extends Facts₀ where

variable [Facts]
-- ==== Proof.KRun.lean ====
/-
  The kernel's run with its four result arrays named.  The program is eight regions among stretches of host
  operations; the buffer contents at every boundary are a fold from the launch memory, and the last boundary's
  contents hold every array the program leaves.  The run below is the frame run of the eight regions with the
  final state read at the four result buffers as well as at the arguments: each result array ends at the last
  boundary's contents of its buffer, each argument as launched.
-/
import proofs.«157873_j19705309954765_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the four results at the last boundary's
    contents and the arguments unchanged. -/
theorem run : θ_run defs (onTc (τ := τ) (main (F := F))) ⟨m, fun _ => 0, ρ⟩ (fun r => ∀ c : Dev nD,
      r.2.mem ((c.tc : Thread nD τ).loc main_v94_0) = W12 m ρ c (Proc.devRef .tc main_v94_0)
      ∧ r.2.mem ((c.tc : Thread nD τ).loc main_v94_1) = W12 m ρ c (Proc.devRef .tc main_v94_1)
      ∧ r.2.mem ((c.tc : Thread nD τ).loc main_v95_0) = W12 m ρ c (Proc.devRef .tc main_v95_0)
      ∧ r.2.mem ((c.tc : Thread nD τ).loc main_v95_1) = W12 m ρ c (Proc.devRef .tc main_v95_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v94_0 (by decide)),
       h c _ (mem_uc main_v94_1 (by decide)),
       h c _ (mem_uc main_v95_0 (by decide)),
       h c _ (mem_uc main_v95_1 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c),
       (h c _ (mem_uc main_arg25 (by decide))).trans (W12_main_arg25 m ρ c),
       (h c _ (mem_uc main_arg26 (by decide))).trans (W12_main_arg26 m ρ c),
       (h c _ (mem_uc main_arg27 (by decide))).trans (W12_main_arg27 m ρ c),
       (h c _ (mem_uc main_arg28 (by decide))).trans (W12_main_arg28 m ρ c),
       (h c _ (mem_uc main_arg29 (by decide))).trans (W12_main_arg29 m ρ c),
       (h c _ (mem_uc main_arg30 (by decide))).trans (W12_main_arg30 m ρ c)⟩)

end Cert.KernelIdeal.KRun

end
-- ==== Proof.Spec.lean ====
/-
  The network both programs compute, written once as functions of whole arrays read index by index on the
  extended reals.  A node array is a matrix of rows (one row per node); the stages are

    * a dense affine map            x · w + b,
    * the one-relation update       tanh (msg · w + b + x · r),
    * the two-relation update       tanh ((msg₁ · w₁ + b₁ + x · r₁) + (msg₂ · w₂ + b₂ + x · r₂)),
      and its fused form            tanh (msg₁ · w₁ + msg₂ · w₂ + (b₁ + b₂) + x · (r₁ + r₂)),
    * the output head               tanh (h · w + b), whose first eight columns are the location and whose
      last eight, shifted by a constant and passed through softplus, are the scale.

  The fused and the unfused two-relation updates agree when the node features x and both root weights are real:
  x · (r₁ + r₂) = x · r₁ + x · r₂ term by term needs every factor finite on the extended reals (with x = ⊤,
  r₁ = 1, r₂ = -1 the left side is 0 and the right side is ⊥); the regrouping of the sums that remains is
  commutativity and associativity of +, which hold on all of the extended reals.
-/
import Idealize.ShloMosaic.PureOps.Ideal
import Idealize.ShloMosaic.PureOps.Ideal.Laws
import Idealize.ShloMosaic.Lib.ValueIdx

noncomputable section

namespace Cert.Net

open Idealize.ShloMosaic Idealize.ShloMosaic.ValueIdx

/-- A matrix with `a` rows and `b` columns of extended reals. -/
abbrev Mat (a b : ℕ) : Type := (⟨2, ![a, b]⟩ : Shape).Idx → EReal
/-- A vector of `a` extended reals. -/
abbrev Row (a : ℕ) : Type := (⟨1, ![a]⟩ : Shape).Idx → EReal

/-- Every entry is a real number. -/
def IsReal {ι : Type} (x : ι → EReal) : Prop := ∀ i, ∃ r : ℝ, x i = (r : EReal)

/-- The matrix product: entry (r, c) is the sum over j of x (r, j) · w (j, c). -/
def mm {n k m : ℕ} (x : Mat n k) (w : Mat k m) : Mat n m :=
  fun i => ∑ j : Fin k, x (ix2 (n0 := n) (n1 := k) (i 0) j) * w (ix2 (n0 := k) (n1 := m) j (i 1))

/-- The dense affine map: x · w plus the bias along every row. -/
def affine {n k m : ℕ} (x : Mat n k) (w : Mat k m) (b : Row m) : Mat n m :=
  fun i => mm x w i + b (ix1 (n := m) (i 1))

/-- The one-relation update of a node type: tanh (msg · w + b + x · r). -/
def conv1 {n : ℕ} (msg : Mat n 64) (w : Mat 64 64) (b : Row 64) (x : Mat n 64) (r : Mat 64 64) : Mat n 64 :=
  fun i => Ideal.tanh (affine msg w b i + mm x r i)

/-- The two-relation update, each relation's term grouped by itself. -/
def conv2 {n : ℕ} (msg₁ : Mat n 64) (w₁ : Mat 64 64) (b₁ : Row 64) (r₁ : Mat 64 64)
    (msg₂ : Mat n 64) (w₂ : Mat 64 64) (b₂ : Row 64) (r₂ : Mat 64 64) (x : Mat n 64) : Mat n 64 :=
  fun i => Ideal.tanh ((affine msg₁ w₁ b₁ i + mm x r₁ i) + (affine msg₂ w₂ b₂ i + mm x r₂ i))

/-- The two-relation update with the biases added first and the root weights added first. -/
def conv2Fused {n : ℕ} (msg₁ : Mat n 64) (w₁ : Mat 64 64) (msg₂ : Mat n 64) (w₂ : Mat 64 64)
    (b : Row 64) (x : Mat n 64) (r : Mat 64 64) : Mat n 64 :=
  fun i => Ideal.tanh (((mm msg₁ w₁ i + mm msg₂ w₂ i) + b (ix1 (n := 64) (i 1))) + mm x r i)

/-- The head before it is split: tanh (h · w + b), sixteen columns. -/
def head {n : ℕ} (h : Mat n 64) (w : Mat 64 16) (b : Row 16) : Mat n 16 :=
  fun i => Ideal.tanh (affine h w b i)

/-- The location: the head's first eight columns. -/
def headLoc {n : ℕ} (h : Mat n 64) (w : Mat 64 16) (b : Row 16) : Mat n 8 :=
  fun i => head h w b (ix2 (n0 := n) (n1 := 16) (i 0) ⟨(i 1).val, Nat.lt_of_lt_of_le (idx2_lt1 i) (by norm_num)⟩)

/-- softplus of a shifted argument, max (s, 0) + log (1 + exp (-|s|)), with the shift and the zero the
    32-bit constants both programs carry. -/
def softplusShift (t : EReal) : EReal :=
  max (t + Ideal.ofBits .f32 0x3F0A9444#32) (Ideal.ofBits .f32 0x00000000#32)
    + Ideal.log1p (Ideal.exp (Ideal.ofBits .f32 0x00000000#32
        - max (t + Ideal.ofBits .f32 0x3F0A9444#32 - Ideal.ofBits .f32 0x00000000#32)
            (-(t + Ideal.ofBits .f32 0x3F0A9444#32 - Ideal.ofBits .f32 0x00000000#32))))

/-- The scale: softplus of the head's last eight columns, shifted. -/
def headScale {n : ℕ} (h : Mat n 64) (w : Mat 64 16) (b : Row 16) : Mat n 8 :=
  fun i => softplusShift (head h w b (ix2 (n0 := n) (n1 := 16) (i 0) ⟨(i 1).val + 8, by have := idx2_lt1 i; omega⟩))

/-! ## Real entries stay real -/

theorem isReal_sum {ι : Type} (s : Finset ι) (f : ι → EReal) (h : ∀ j, ∃ r : ℝ, f j = (r : EReal)) :
    ∃ r : ℝ, ∑ j ∈ s, f j = (r : EReal) :=
  Finset.sum_induction f (fun e => ∃ r : ℝ, e = (r : EReal))
    (by rintro _ _ ⟨a, rfl⟩ ⟨b, rfl⟩; exact ⟨a + b, (EReal.coe_add a b).symm⟩) ⟨0, rfl⟩ (fun j _ => h j)

theorem isReal_mm {n k m : ℕ} {x : Mat n k} {w : Mat k m} (hx : IsReal x) (hw : IsReal w) : IsReal (mm x w) := fun i =>
  isReal_sum _ _ fun j => by
    obtain ⟨a, ha⟩ := hx (ix2 (i 0) j); obtain ⟨b, hb⟩ := hw (ix2 j (i 1))
    exact ⟨a * b, by rw [ha, hb, EReal.coe_mul]⟩

theorem isReal_affine {n k m : ℕ} {x : Mat n k} {w : Mat k m} {b : Row m} (hx : IsReal x) (hw : IsReal w) (hb : IsReal b) :
    IsReal (affine x w b) := fun i => by
  obtain ⟨a, ha⟩ := isReal_mm hx hw i; obtain ⟨c, hc⟩ := hb (ix1 (i 1))
  exact ⟨a + c, by unfold affine; rw [ha, hc, EReal.coe_add]⟩

/-- tanh of an extended real is a real number: ±1 at the infinities. -/
theorem tanh_real (x : EReal) : ∃ r : ℝ, Ideal.tanh x = (r : EReal) := by
  induction x using EReal.rec with
  | bot => exact ⟨-1, by simp⟩
  | coe r => exact ⟨Real.tanh r, rfl⟩
  | top => exact ⟨1, by simp⟩

theorem isReal_conv1 {n : ℕ} (msg : Mat n 64) (w : Mat 64 64) (b : Row 64) (x : Mat n 64) (r : Mat 64 64) :
    IsReal (conv1 msg w b x r) := fun _ => tanh_real _

theorem isReal_conv2 {n : ℕ} (msg₁ : Mat n 64) (w₁ : Mat 64 64) (b₁ : Row 64) (r₁ : Mat 64 64)
    (msg₂ : Mat n 64) (w₂ : Mat 64 64) (b₂ : Row 64) (r₂ : Mat 64 64) (x : Mat n 64) :
    IsReal (conv2 msg₁ w₁ b₁ r₁ msg₂ w₂ b₂ r₂ x) := fun _ => tanh_real _

/-! ## The fused update is the unfused one -/

/-- A product with a sum of weights splits when every factor is real. -/
theorem mm_add_right {n k m : ℕ} (x : Mat n k) (a b : Mat k m) (hx : IsReal x) (ha : IsReal a) (hb : IsReal b) (i) :
    mm x (fun j => a j + b j) i = mm x a i + mm x b i := by
  unfold mm
  rw [← Finset.sum_add_distrib]
  refine Finset.sum_congr rfl fun j _ => ?_
  obtain ⟨r, hr⟩ := hx (ix2 (i 0) j); obtain ⟨p, hp⟩ := ha (ix2 j (i 1)); obtain ⟨q, hq⟩ := hb (ix2 j (i 1))
  show x (ix2 (i 0) j) * (a (ix2 j (i 1)) + b (ix2 j (i 1))) = x (ix2 (i 0) j) * a (ix2 j (i 1)) + x (ix2 (i 0) j) * b (ix2 j (i 1))
  rw [hr, hp, hq, ← EReal.coe_add, ← EReal.coe_mul, ← EReal.coe_mul, ← EReal.coe_mul, ← EReal.coe_add, mul_add]

theorem conv2Fused_eq {n : ℕ} (msg₁ : Mat n 64) (w₁ : Mat 64 64) (b₁ : Row 64) (r₁ : Mat 64 64)
    (msg₂ : Mat n 64) (w₂ : Mat 64 64) (b₂ : Row 64) (r₂ : Mat 64 64) (x : Mat n 64)
    (hx : IsReal x) (h₁ : IsReal r₁) (h₂ : IsReal r₂) :
    conv2Fused msg₁ w₁ msg₂ w₂ (fun j => b₁ j + b₂ j) x (fun j => r₁ j + r₂ j) = conv2 msg₁ w₁ b₁ r₁ msg₂ w₂ b₂ r₂ x := by
  funext i
  unfold conv2Fused conv2 affine
  rw [mm_add_right x r₁ r₂ hx h₁ h₂ i]
  refine congrArg Ideal.tanh ?_
  show ((mm msg₁ w₁ i + mm msg₂ w₂ i) + (b₁ (ix1 (i 1)) + b₂ (ix1 (i 1)))) + (mm x r₁ i + mm x r₂ i)
    = ((mm msg₁ w₁ i + b₁ (ix1 (i 1))) + mm x r₁ i) + ((mm msg₂ w₂ i + b₂ (ix1 (i 1))) + mm x r₂ i)
  ac_rfl

end Cert.Net

end
-- ==== Proof.Whole.lean ====
/-
  The whole network as one composition of the stages, over a bundle of weights and three neighbour-sum maps
  (joint → torso, torso → joint, joint → joint) taken as given functions: what a neighbour sum computes is never
  opened, only that both programs apply the same one to equal features.

      hT = xT · w₀ᵀ + b₀ᵀ                      hJ = xJ · w₀ᴶ + b₀ᴶ
      t₁ = conv1 (Σjt hJ) … hT                  j₁ = conv2 (Σtj hT) … (Σjj hJ) … hJ
      t₂ = conv1 (Σjt j₁) … t₁                  j₂ = conv2 (Σtj t₁) … (Σjj j₁) … j₁
      (loc, scale) of t₂ and of j₂ by the two heads.

  The fused chain replaces each conv2 by conv2Fused on the summed biases and summed root weights.  The two chains
  agree when the joint inputs, the joint input weights and bias, and the four root weights that are summed are
  real: hJ is then real (a finite sum of products of reals), j₁ is a tanh and so always real, and the fused update
  equals the unfused one at each layer.
-/
import proofs.«157873_j19705309954765_1_alg».proof.Proof.Spec

noncomputable section

namespace Cert.Net

open Idealize.ShloMosaic Idealize.ShloMosaic.ValueIdx

/-- The weights: the input maps of the two node types, per layer and per relation (tj, jt, jj) the neighbour
    weight W, the bias B and the root weight R, and the two heads. -/
structure Params where
  w0t : Mat 32 64
  b0t : Row 64
  w0j : Mat 32 64
  b0j : Row 64
  tjW1 : Mat 64 64
  tjB1 : Row 64
  tjR1 : Mat 64 64
  jtW1 : Mat 64 64
  jtB1 : Row 64
  jtR1 : Mat 64 64
  jjW1 : Mat 64 64
  jjB1 : Row 64
  jjR1 : Mat 64 64
  tjW2 : Mat 64 64
  tjB2 : Row 64
  tjR2 : Mat 64 64
  jtW2 : Mat 64 64
  jtB2 : Row 64
  jtR2 : Mat 64 64
  jjW2 : Mat 64 64
  jjB2 : Row 64
  jjR2 : Mat 64 64
  w3t : Mat 64 16
  b3t : Row 16
  w3j : Mat 64 16
  b3j : Row 16

/-- The three neighbour sums. -/
structure Aggs where
  jt : Mat 300000 64 → Mat 100000 64
  tj : Mat 100000 64 → Mat 300000 64
  jj : Mat 300000 64 → Mat 300000 64

variable (P : Params) (A : Aggs) (xt : Mat 100000 32) (xj : Mat 300000 32)

def hT : Mat 100000 64 := affine xt P.w0t P.b0t
def hJ : Mat 300000 64 := affine xj P.w0j P.b0j

def t1 : Mat 100000 64 := conv1 (A.jt (hJ P xj)) P.jtW1 P.jtB1 (hT P xt) P.jtR1
def j1 : Mat 300000 64 :=
  conv2 (A.tj (hT P xt)) P.tjW1 P.tjB1 P.tjR1 (A.jj (hJ P xj)) P.jjW1 P.jjB1 P.jjR1 (hJ P xj)
def t2 : Mat 100000 64 := conv1 (A.jt (j1 P A xt xj)) P.jtW2 P.jtB2 (t1 P A xt xj) P.jtR2
def j2 : Mat 300000 64 :=
  conv2 (A.tj (t1 P A xt xj)) P.tjW2 P.tjB2 P.tjR2 (A.jj (j1 P A xt xj)) P.jjW2 P.jjB2 P.jjR2 (j1 P A xt xj)

/-- The fused chain. -/
def j1F : Mat 300000 64 :=
  conv2Fused (A.tj (hT P xt)) P.tjW1 (A.jj (hJ P xj)) P.jjW1 (fun i => P.tjB1 i + P.jjB1 i) (hJ P xj)
    (fun i => P.tjR1 i + P.jjR1 i)
def t2F : Mat 100000 64 := conv1 (A.jt (j1F P A xt xj)) P.jtW2 P.jtB2 (t1 P A xt xj) P.jtR2
def j2F : Mat 300000 64 :=
  conv2Fused (A.tj (t1 P A xt xj)) P.tjW2 (A.jj (j1F P A xt xj)) P.jjW2 (fun i => P.tjB2 i + P.jjB2 i) (j1F P A xt xj)
    (fun i => P.tjR2 i + P.jjR2 i)

/-- What the fused chain needs to be the unfused one. -/
structure RealInputs : Prop where
  xj : IsReal xj
  w0j : IsReal P.w0j
  b0j : IsReal P.b0j
  tjR1 : IsReal P.tjR1
  jjR1 : IsReal P.jjR1
  tjR2 : IsReal P.tjR2
  jjR2 : IsReal P.jjR2

variable {P xj}

theorem j1F_eq (h : RealInputs P xj) : j1F P A xt xj = j1 P A xt xj :=
  conv2Fused_eq _ _ _ _ _ _ _ _ _ (isReal_affine h.xj h.w0j h.b0j) h.tjR1 h.jjR1

theorem t2F_eq (h : RealInputs P xj) : t2F P A xt xj = t2 P A xt xj := by
  unfold t2F t2; rw [j1F_eq A xt h]

theorem j2F_eq (h : RealInputs P xj) : j2F P A xt xj = j2 P A xt xj := by
  unfold j2F j2; rw [j1F_eq A xt h]
  exact conv2Fused_eq _ _ _ _ _ _ _ _ _ (isReal_conv2 _ _ _ _ _ _ _ _ _) h.tjR2 h.jjR2

end Cert.Net

end
-- ==== Proof.Keep.lean ====
/-
  A buffer keeps its contents across every part of the program that does not write it.  The program is eight regions
  among stretches of host operations, and the contents at each boundary are a fold from the launch memory: a region
  leaves a buffer it only reads (an input window) or does not touch as it found it, and a stretch of host operations
  leaves every buffer it does not write.  Each lemma walks one buffer back from a boundary where it is read to the
  boundary right after the part that wrote it, or to the launch memory for an argument.
-/
import proofs.«157873_j19705309954765_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem keep_arg1_1_0 (c : Dev nD) : W1 m ρ c (Proc.devRef .tc main_arg1) = m ((c : Thread nD τ).loc main_arg1) :=
  calc W1 m ρ c (Proc.devRef .tc main_arg1)
    _ = W0 m ρ c (Proc.devRef .tc main_arg1) := W1_of_ne m ρ c main_arg1 (by decide)
    _ = m ((c : Thread nD τ).loc main_arg1) := rfl

theorem keep_arg7_1_0 (c : Dev nD) : W1 m ρ c (Proc.devRef .tc main_arg7) = m ((c : Thread nD τ).loc main_arg7) :=
  calc W1 m ρ c (Proc.devRef .tc main_arg7)
    _ = W0 m ρ c (Proc.devRef .tc main_arg7) := W1_of_ne m ρ c main_arg7 (by decide)
    _ = m ((c : Thread nD τ).loc main_arg7) := rfl

theorem keep_arg8_1_0 (c : Dev nD) : W1 m ρ c (Proc.devRef .tc main_arg8) = m ((c : Thread nD τ).loc main_arg8) :=
  calc W1 m ρ c (Proc.devRef .tc main_arg8)
    _ = W0 m ρ c (Proc.devRef .tc main_arg8) := W1_of_ne m ρ c main_arg8 (by decide)
    _ = m ((c : Thread nD τ).loc main_arg8) := rfl

theorem keep_arg2_2_0 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem keep_arg3_2_0 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem keep_arg4_2_0 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

theorem keep_arg12_3_0 (c : Dev nD) : W3 m ρ c (Proc.devRef .tc main_arg12) = m ((c : Thread nD τ).loc main_arg12) :=
  calc W3 m ρ c (Proc.devRef .tc main_arg12)
    _ = W2 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := W1_of_ne m ρ c main_arg12 (by decide)
    _ = m ((c : Thread nD τ).loc main_arg12) := rfl

theorem keep_arg13_3_0 (c : Dev nD) : W3 m ρ c (Proc.devRef .tc main_arg13) = m ((c : Thread nD τ).loc main_arg13) :=
  calc W3 m ρ c (Proc.devRef .tc main_arg13)
    _ = W2 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := W1_of_ne m ρ c main_arg13 (by decide)
    _ = m ((c : Thread nD τ).loc main_arg13) := rfl

theorem keep_arg14_3_0 (c : Dev nD) : W3 m ρ c (Proc.devRef .tc main_arg14) = m ((c : Thread nD τ).loc main_arg14) :=
  calc W3 m ρ c (Proc.devRef .tc main_arg14)
    _ = W2 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := W1_of_ne m ρ c main_arg14 (by decide)
    _ = m ((c : Thread nD τ).loc main_arg14) := rfl

theorem keep_arg2_4_0 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem keep_arg3_4_0 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem keep_arg4_4_0 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

theorem keep_arg10_4_0 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

theorem keep_arg16_4_0 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := W1_of_ne m ρ c main_arg16 (by decide)
    _ = m ((c : Thread nD τ).loc main_arg16) := rfl

theorem keep_arg11_4_0 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := W1_of_ne m ρ c main_arg11 (by decide)
    _ = m ((c : Thread nD τ).loc main_arg11) := rfl

theorem keep_arg17_4_0 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := W1_of_ne m ρ c main_arg17 (by decide)
    _ = m ((c : Thread nD τ).loc main_arg17) := rfl

theorem keep_arg9_5_0 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := W1_of_ne m ρ c main_arg9 (by decide)
    _ = m ((c : Thread nD τ).loc main_arg9) := rfl

theorem keep_arg15_5_0 (c : Dev nD) : W5 m ρ c (Proc.devRef .tc main_arg15) = m ((c : Thread nD τ).loc main_arg15) :=
  calc W5 m ρ c (Proc.devRef .tc main_arg15)
    _ = W4 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := W1_of_ne m ρ c main_arg15 (by decide)
    _ = m ((c : Thread nD τ).loc main_arg15) := rfl

theorem keep_arg2_6_0 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem keep_arg3_6_0 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem keep_arg4_6_0 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

theorem keep_arg21_7_0 (c : Dev nD) : W7 m ρ c (Proc.devRef .tc main_arg21) = m ((c : Thread nD τ).loc main_arg21) :=
  calc W7 m ρ c (Proc.devRef .tc main_arg21)
    _ = W6 m ρ c (Proc.devRef .tc main_arg21) := StableHlo.after_of_forall_not_mem (b := Proc.devRef .tc main_arg21) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg21) := W6_of_ne m ρ c main_arg21 (by decide)
    _ = W4 m ρ c (Proc.devRef .tc main_arg21) := StableHlo.after_of_forall_not_mem (b := Proc.devRef .tc main_arg21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := W1_of_ne m ρ c main_arg21 (by decide)
    _ = m ((c : Thread nD τ).loc main_arg21) := rfl

theorem keep_arg22_7_0 (c : Dev nD) : W7 m ρ c (Proc.devRef .tc main_arg22) = m ((c : Thread nD τ).loc main_arg22) :=
  calc W7 m ρ c (Proc.devRef .tc main_arg22)
    _ = W6 m ρ c (Proc.devRef .tc main_arg22) := StableHlo.after_of_forall_not_mem (b := Proc.devRef .tc main_arg22) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg22) := W6_of_ne m ρ c main_arg22 (by decide)
    _ = W4 m ρ c (Proc.devRef .tc main_arg22) := StableHlo.after_of_forall_not_mem (b := Proc.devRef .tc main_arg22) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := W1_of_ne m ρ c main_arg22 (by decide)
    _ = m ((c : Thread nD τ).loc main_arg22) := rfl

theorem keep_arg23_7_0 (c : Dev nD) : W7 m ρ c (Proc.devRef .tc main_arg23) = m ((c : Thread nD τ).loc main_arg23) :=
  calc W7 m ρ c (Proc.devRef .tc main_arg23)
    _ = W6 m ρ c (Proc.devRef .tc main_arg23) := StableHlo.after_of_forall_not_mem (b := Proc.devRef .tc main_arg23) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg23) := W6_of_ne m ρ c main_arg23 (by decide)
    _ = W4 m ρ c (Proc.devRef .tc main_arg23) := StableHlo.after_of_forall_not_mem (b := Proc.devRef .tc main_arg23) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg23) := W4_of_ne m ρ c main_arg23 (by decide)
    _ = W2 m ρ c (Proc.devRef .tc main_arg23) := StableHlo.after_of_forall_not_mem (b := Proc.devRef .tc main_arg23) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := W1_of_ne m ρ c main_arg23 (by decide)
    _ = m ((c : Thread nD τ).loc main_arg23) := rfl

theorem keep_arg2_8_0 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem keep_arg3_8_0 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem keep_arg4_8_0 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

theorem keep_arg19_8_0 (c : Dev nD) : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := W1_of_ne m ρ c main_arg19 (by decide)
    _ = m ((c : Thread nD τ).loc main_arg19) := rfl

theorem keep_arg25_8_0 (c : Dev nD) : W8 m ρ c (Proc.devRef .tc main_arg25) = m ((c : Thread nD τ).loc main_arg25) :=
  calc W8 m ρ c (Proc.devRef .tc main_arg25)
    _ = W7 m ρ c (Proc.devRef .tc main_arg25) := W8_of_ne m ρ c main_arg25 (by decide)
    _ = W6 m ρ c (Proc.devRef .tc main_arg25) := StableHlo.after_of_forall_not_mem (b := Proc.devRef .tc main_arg25) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg25) := W6_of_ne m ρ c main_arg25 (by decide)
    _ = W4 m ρ c (Proc.devRef .tc main_arg25) := StableHlo.after_of_forall_not_mem (b := Proc.devRef .tc main_arg25) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg25) := W4_of_ne m ρ c main_arg25 (by decide)
    _ = W2 m ρ c (Proc.devRef .tc main_arg25) := StableHlo.after_of_forall_not_mem (b := Proc.devRef .tc main_arg25) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg25) := W2_of_ne m ρ c main_arg25 (by decide)
    _ = W0 m ρ c (Proc.devRef .tc main_arg25) := W1_of_ne m ρ c main_arg25 (by decide)
    _ = m ((c : Thread nD τ).loc main_arg25) := rfl

theorem keep_arg20_8_0 (c : Dev nD) : W8 m ρ c (Proc.devRef .tc main_arg20) = m ((c : Thread nD τ).loc main_arg20) :=
  calc W8 m ρ c (Proc.devRef .tc main_arg20)
    _ = W7 m ρ c (Proc.devRef .tc main_arg20) := W8_of_ne m ρ c main_arg20 (by decide)
    _ = W6 m ρ c (Proc.devRef .tc main_arg20) := StableHlo.after_of_forall_not_mem (b := Proc.devRef .tc main_arg20) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := W1_of_ne m ρ c main_arg20 (by decide)
    _ = m ((c : Thread nD τ).loc main_arg20) := rfl

theorem keep_arg26_8_0 (c : Dev nD) : W8 m ρ c (Proc.devRef .tc main_arg26) = m ((c : Thread nD τ).loc main_arg26) :=
  calc W8 m ρ c (Proc.devRef .tc main_arg26)
    _ = W7 m ρ c (Proc.devRef .tc main_arg26) := W8_of_ne m ρ c main_arg26 (by decide)
    _ = W6 m ρ c (Proc.devRef .tc main_arg26) := StableHlo.after_of_forall_not_mem (b := Proc.devRef .tc main_arg26) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg26) := W6_of_ne m ρ c main_arg26 (by decide)
    _ = W4 m ρ c (Proc.devRef .tc main_arg26) := StableHlo.after_of_forall_not_mem (b := Proc.devRef .tc main_arg26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg26) := W4_of_ne m ρ c main_arg26 (by decide)
    _ = W2 m ρ c (Proc.devRef .tc main_arg26) := StableHlo.after_of_forall_not_mem (b := Proc.devRef .tc main_arg26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg26) := W2_of_ne m ρ c main_arg26 (by decide)
    _ = W0 m ρ c (Proc.devRef .tc main_arg26) := W1_of_ne m ρ c main_arg26 (by decide)
    _ = m ((c : Thread nD τ).loc main_arg26) := rfl

theorem keep_arg18_9_0 (c : Dev nD) : W9 m ρ c (Proc.devRef .tc main_arg18) = m ((c : Thread nD τ).loc main_arg18) :=
  calc W9 m ρ c (Proc.devRef .tc main_arg18)
    _ = W8 m ρ c (Proc.devRef .tc main_arg18) := StableHlo.after_of_forall_not_mem (b := Proc.devRef .tc main_arg18) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := W1_of_ne m ρ c main_arg18 (by decide)
    _ = m ((c : Thread nD τ).loc main_arg18) := rfl

theorem keep_arg24_9_0 (c : Dev nD) : W9 m ρ c (Proc.devRef .tc main_arg24) = m ((c : Thread nD τ).loc main_arg24) :=
  calc W9 m ρ c (Proc.devRef .tc main_arg24)
    _ = W8 m ρ c (Proc.devRef .tc main_arg24) := StableHlo.after_of_forall_not_mem (b := Proc.devRef .tc main_arg24) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg24) := W8_of_ne m ρ c main_arg24 (by decide)
    _ = W6 m ρ c (Proc.devRef .tc main_arg24) := StableHlo.after_of_forall_not_mem (b := Proc.devRef .tc main_arg24) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg24) := W6_of_ne m ρ c main_arg24 (by decide)
    _ = W4 m ρ c (Proc.devRef .tc main_arg24) := StableHlo.after_of_forall_not_mem (b := Proc.devRef .tc main_arg24) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg24) := W4_of_ne m ρ c main_arg24 (by decide)
    _ = W2 m ρ c (Proc.devRef .tc main_arg24) := StableHlo.after_of_forall_not_mem (b := Proc.devRef .tc main_arg24) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg24) := W2_of_ne m ρ c main_arg24 (by decide)
    _ = W0 m ρ c (Proc.devRef .tc main_arg24) := W1_of_ne m ρ c main_arg24 (by decide)
    _ = m ((c : Thread nD τ).loc main_arg24) := rfl

theorem keep_arg27_10_0 (c : Dev nD) : W10 m ρ c (Proc.devRef .tc main_arg27) = m ((c : Thread nD τ).loc main_arg27) :=
  calc W10 m ρ c (Proc.devRef .tc main_arg27)
    _ = W9 m ρ c (Proc.devRef .tc main_arg27) := W10_of_ne m ρ c main_arg27 (by decide)
    _ = W8 m ρ c (Proc.devRef .tc main_arg27) := StableHlo.after_of_forall_not_mem (b := Proc.devRef .tc main_arg27) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg27) := W8_of_ne m ρ c main_arg27 (by decide)
    _ = W6 m ρ c (Proc.devRef .tc main_arg27) := StableHlo.after_of_forall_not_mem (b := Proc.devRef .tc main_arg27) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg27) := W6_of_ne m ρ c main_arg27 (by decide)
    _ = W4 m ρ c (Proc.devRef .tc main_arg27) := StableHlo.after_of_forall_not_mem (b := Proc.devRef .tc main_arg27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg27) := W4_of_ne m ρ c main_arg27 (by decide)
    _ = W2 m ρ c (Proc.devRef .tc main_arg27) := StableHlo.after_of_forall_not_mem (b := Proc.devRef .tc main_arg27) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg27) := W2_of_ne m ρ c main_arg27 (by decide)
    _ = W0 m ρ c (Proc.devRef .tc main_arg27) := W1_of_ne m ρ c main_arg27 (by decide)
    _ = m ((c : Thread nD τ).loc main_arg27) := rfl

theorem keep_arg28_10_0 (c : Dev nD) : W10 m ρ c (Proc.devRef .tc main_arg28) = m ((c : Thread nD τ).loc main_arg28) :=
  calc W10 m ρ c (Proc.devRef .tc main_arg28)
    _ = W9 m ρ c (Proc.devRef .tc main_arg28) := W10_of_ne m ρ c main_arg28 (by decide)
    _ = W8 m ρ c (Proc.devRef .tc main_arg28) := StableHlo.after_of_forall_not_mem (b := Proc.devRef .tc main_arg28) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg28) := W8_of_ne m ρ c main_arg28 (by decide)
    _ = W6 m ρ c (Proc.devRef .tc main_arg28) := StableHlo.after_of_forall_not_mem (b := Proc.devRef .tc main_arg28) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg28) := W6_of_ne m ρ c main_arg28 (by decide)
    _ = W4 m ρ c (Proc.devRef .tc main_arg28) := StableHlo.after_of_forall_not_mem (b := Proc.devRef .tc main_arg28) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg28) := W4_of_ne m ρ c main_arg28 (by decide)
    _ = W2 m ρ c (Proc.devRef .tc main_arg28) := StableHlo.after_of_forall_not_mem (b := Proc.devRef .tc main_arg28) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg28) := W2_of_ne m ρ c main_arg28 (by decide)
    _ = W0 m ρ c (Proc.devRef .tc main_arg28) := W1_of_ne m ρ c main_arg28 (by decide)
    _ = m ((c : Thread nD τ).loc main_arg28) := rfl

theorem keep_arg29_11_0 (c : Dev nD) : W11 m ρ c (Proc.devRef .tc main_arg29) = m ((c : Thread nD τ).loc main_arg29) :=
  calc W11 m ρ c (Proc.devRef .tc main_arg29)
    _ = W10 m ρ c (Proc.devRef .tc main_arg29) := W11_of_ne m ρ c main_arg29 (by decide)
    _ = W9 m ρ c (Proc.devRef .tc main_arg29) := W10_of_ne m ρ c main_arg29 (by decide)
    _ = W8 m ρ c (Proc.devRef .tc main_arg29) := StableHlo.after_of_forall_not_mem (b := Proc.devRef .tc main_arg29) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg29) := W8_of_ne m ρ c main_arg29 (by decide)
    _ = W6 m ρ c (Proc.devRef .tc main_arg29) := StableHlo.after_of_forall_not_mem (b := Proc.devRef .tc main_arg29) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg29) := W6_of_ne m ρ c main_arg29 (by decide)
    _ = W4 m ρ c (Proc.devRef .tc main_arg29) := StableHlo.after_of_forall_not_mem (b := Proc.devRef .tc main_arg29) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg29) := W4_of_ne m ρ c main_arg29 (by decide)
    _ = W2 m ρ c (Proc.devRef .tc main_arg29) := StableHlo.after_of_forall_not_mem (b := Proc.devRef .tc main_arg29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg29) := W2_of_ne m ρ c main_arg29 (by decide)
    _ = W0 m ρ c (Proc.devRef .tc main_arg29) := W1_of_ne m ρ c main_arg29 (by decide)
    _ = m ((c : Thread nD τ).loc main_arg29) := rfl

theorem keep_arg30_11_0 (c : Dev nD) : W11 m ρ c (Proc.devRef .tc main_arg30) = m ((c : Thread nD τ).loc main_arg30) :=
  calc W11 m ρ c (Proc.devRef .tc main_arg30)
    _ = W10 m ρ c (Proc.devRef .tc main_arg30) := W11_of_ne m ρ c main_arg30 (by decide)
    _ = W9 m ρ c (Proc.devRef .tc main_arg30) := W10_of_ne m ρ c main_arg30 (by decide)
    _ = W8 m ρ c (Proc.devRef .tc main_arg30) := StableHlo.after_of_forall_not_mem (b := Proc.devRef .tc main_arg30) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg30) := W8_of_ne m ρ c main_arg30 (by decide)
    _ = W6 m ρ c (Proc.devRef .tc main_arg30) := StableHlo.after_of_forall_not_mem (b := Proc.devRef .tc main_arg30) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg30) := W6_of_ne m ρ c main_arg30 (by decide)
    _ = W4 m ρ c (Proc.devRef .tc main_arg30) := StableHlo.after_of_forall_not_mem (b := Proc.devRef .tc main_arg30) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg30) := W4_of_ne m ρ c main_arg30 (by decide)
    _ = W2 m ρ c (Proc.devRef .tc main_arg30) := StableHlo.after_of_forall_not_mem (b := Proc.devRef .tc main_arg30) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg30) := W2_of_ne m ρ c main_arg30 (by decide)
    _ = W0 m ρ c (Proc.devRef .tc main_arg30) := W1_of_ne m ρ c main_arg30 (by decide)
    _ = m ((c : Thread nD τ).loc main_arg30) := rfl

theorem keep_v0_3_1 (c : Dev nD) : W3 m ρ c (Proc.devRef .tc main_v0) = W1 m ρ c (Proc.devRef .tc main_v0) :=
  calc W3 m ρ c (Proc.devRef .tc main_v0)
    _ = W2 m ρ c (Proc.devRef .tc main_v0) := StableHlo.after_of_forall_not_mem (b := Proc.devRef .tc main_v0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0) := W2_of_ne m ρ c main_v0 (by decide)

theorem keep_v0_4_1 (c : Dev nD) : W4 m ρ c (Proc.devRef .tc main_v0) = W1 m ρ c (Proc.devRef .tc main_v0) :=
  calc W4 m ρ c (Proc.devRef .tc main_v0)
    _ = W3 m ρ c (Proc.devRef .tc main_v0) := (W4_arr m ρ c 3).trans (((dat2 (V3 m ρ) c).arrAt_in 3 rfl _).trans (A_eq2 (V3 m ρ) c 3))
    _ = W2 m ρ c (Proc.devRef .tc main_v0) := StableHlo.after_of_forall_not_mem (b := Proc.devRef .tc main_v0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0) := W2_of_ne m ρ c main_v0 (by decide)

theorem keep_v1_4_2 (c : Dev nD) : W4 m ρ c (Proc.devRef .tc main_v1) = W2 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v1_5_2 (c : Dev nD) : W5 m ρ c (Proc.devRef .tc main_v1) = W2 m ρ c (Proc.devRef .tc main_v1) :=
  calc W5 m ρ c (Proc.devRef .tc main_v1)
    _ = W4 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v16_7_4 (c : Dev nD) : W7 m ρ c (Proc.devRef .tc main_v16) = W4 m ρ c (Proc.devRef .tc main_v16) :=
  calc W7 m ρ c (Proc.devRef .tc main_v16)
    _ = W6 m ρ c (Proc.devRef .tc main_v16) := StableHlo.after_of_forall_not_mem (b := Proc.devRef .tc main_v16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v16) := W6_of_ne m ρ c main_v16 (by decide)
    _ = W4 m ρ c (Proc.devRef .tc main_v16) := StableHlo.after_of_forall_not_mem (b := Proc.devRef .tc main_v16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v16_8_4 (c : Dev nD) : W8 m ρ c (Proc.devRef .tc main_v16) = W4 m ρ c (Proc.devRef .tc main_v16) :=
  calc W8 m ρ c (Proc.devRef .tc main_v16)
    _ = W7 m ρ c (Proc.devRef .tc main_v16) := (W8_arr m ρ c 3).trans (((dat4 (V7 m ρ) c).arrAt_in 3 rfl _).trans (A_eq4 (V7 m ρ) c 3))
    _ = W6 m ρ c (Proc.devRef .tc main_v16) := StableHlo.after_of_forall_not_mem (b := Proc.devRef .tc main_v16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v16) := W6_of_ne m ρ c main_v16 (by decide)
    _ = W4 m ρ c (Proc.devRef .tc main_v16) := StableHlo.after_of_forall_not_mem (b := Proc.devRef .tc main_v16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v47_8_6 (c : Dev nD) : W8 m ρ c (Proc.devRef .tc main_v47) = W6 m ρ c (Proc.devRef .tc main_v47) :=
  calc W8 m ρ c (Proc.devRef .tc main_v47)
    _ = W7 m ρ c (Proc.devRef .tc main_v47) := W8_of_ne m ρ c main_v47 (by decide)
    _ = W6 m ρ c (Proc.devRef .tc main_v47) := StableHlo.after_of_forall_not_mem (b := Proc.devRef .tc main_v47) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v47_9_6 (c : Dev nD) : W9 m ρ c (Proc.devRef .tc main_v47) = W6 m ρ c (Proc.devRef .tc main_v47) :=
  calc W9 m ρ c (Proc.devRef .tc main_v47)
    _ = W8 m ρ c (Proc.devRef .tc main_v47) := StableHlo.after_of_forall_not_mem (b := Proc.devRef .tc main_v47) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v47) := W8_of_ne m ρ c main_v47 (by decide)
    _ = W6 m ρ c (Proc.devRef .tc main_v47) := StableHlo.after_of_forall_not_mem (b := Proc.devRef .tc main_v47) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v62_10_8 (c : Dev nD) : W10 m ρ c (Proc.devRef .tc main_v62) = W8 m ρ c (Proc.devRef .tc main_v62) :=
  calc W10 m ρ c (Proc.devRef .tc main_v62)
    _ = W9 m ρ c (Proc.devRef .tc main_v62) := W10_of_ne m ρ c main_v62 (by decide)
    _ = W8 m ρ c (Proc.devRef .tc main_v62) := StableHlo.after_of_forall_not_mem (b := Proc.devRef .tc main_v62) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v93_11_10 (c : Dev nD) : W11 m ρ c (Proc.devRef .tc main_v93) = W10 m ρ c (Proc.devRef .tc main_v93) :=
  calc W11 m ρ c (Proc.devRef .tc main_v93)
    _ = W10 m ρ c (Proc.devRef .tc main_v93) := W11_of_ne m ρ c main_v93 (by decide)

theorem keep_v94_0_12_11 (c : Dev nD) : W12 m ρ c (Proc.devRef .tc main_v94_0) = W11 m ρ c (Proc.devRef .tc main_v94_0) :=
  calc W12 m ρ c (Proc.devRef .tc main_v94_0)
    _ = W11 m ρ c (Proc.devRef .tc main_v94_0) := W12_of_ne m ρ c main_v94_0 (by decide)

theorem keep_v94_1_12_11 (c : Dev nD) : W12 m ρ c (Proc.devRef .tc main_v94_1) = W11 m ρ c (Proc.devRef .tc main_v94_1) :=
  calc W12 m ρ c (Proc.devRef .tc main_v94_1)
    _ = W11 m ρ c (Proc.devRef .tc main_v94_1) := W12_of_ne m ρ c main_v94_1 (by decide)

end Cert.KernelIdeal.Keep

end
-- ==== Proof.KHost.lean ====
/-
  The four stretches of whole-array operations between the kernel's regions, read as functions of the arrays they start
  from.  Each neighbour sum is the same composition at three sizes: row 0 of the edge list names, edge by edge, the
  source row (an index below zero counts from the end: n is added to it), row 1 names the target row, the source rows
  of the feature array are gathered edge by edge, and every gathered row is added into its target row of an array of
  zeros.  What gathering and adding-into compute is never opened here: the three sums are named once, as functions of
  the edge list and of the feature array, and each stretch's result is that function of what the stretch started from.
  The two remaining results of the longer stretches are sums of two weight arrays, entry by entry.
-/
import proofs.«157873_j19705309954765_1_alg».proof.Proof.Gen.KernelIdeal.Launch
import proofs.«157873_j19705309954765_1_alg».proof.Proof.Whole
import Idealize.ShloMosaic.Lib.StableHlo.Run
import Idealize.ShloMosaic.PureOps.Ideal

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo

/-- The joint → torso sum: over a [2, 1000000] edge list, row e[0][k] of the 300000 joint rows is added into row e[1][k] of 100000 rows of zeros. -/
def jt (e : (⟨S2x1000000, .i32⟩ : BufTy).Contents (Elt Ideal)) (h : FVec Ideal S300000x64 .f32) : FVec Ideal S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0
      (shapeCast S1000000 (extractStridedSlice S1x1000000 ![1, 0] e slices_S2x1000000_S1x1000000_1_0) shapeCasts_S1x1000000_S1000000))
    (Host.gather gather_S300000x64_S1000000x1_S1000000x64_1_0_n_n_0_1_164 h
      (broadcastInDim S1000000x1 ![0] bcast_S1000000_S1000000x1_0
        (select
          (cmpi .slt
            (shapeCast S1000000 (extractStridedSlice S1x1000000 ![0, 0] e slices_S2x1000000_S1x1000000_0_0) shapeCasts_S1x1000000_S1000000)
            (broadcastInDim S1000000 ![] bcast_S_S1000000 (constantI S_ 32 0#32)))
          (addi
            (shapeCast S1000000 (extractStridedSlice S1x1000000 ![0, 0] e slices_S2x1000000_S1x1000000_0_0) shapeCasts_S1x1000000_S1000000)
            (broadcastInDim S1000000 ![] bcast_S_S1000000 (constantI S_ 32 300000#32)))
          (shapeCast S1000000 (extractStridedSlice S1x1000000 ![0, 0] e slices_S2x1000000_S1x1000000_0_0) shapeCasts_S1x1000000_S1000000))))

/-- The torso → joint sum: over a [2, 1000000] edge list, row e[0][k] of the 100000 torso rows is added into row e[1][k] of 300000 rows of zeros. -/
def tj (e : (⟨S2x1000000, .i32⟩ : BufTy).Contents (Elt Ideal)) (h : FVec Ideal S100000x64 .f32) : FVec Ideal S300000x64 .f32 :=
  Host.scatterAdd scatter_S300000x64_S1000000x1_S1000000x64_1_0_0_1
    (broadcastInDim S300000x64 ![] bcast_S_S300000x64 (constant S_ .f32 0x00000000#32))
    (broadcastInDim S1000000x1 ![0] bcast_S1000000_S1000000x1_0
      (shapeCast S1000000 (extractStridedSlice S1x1000000 ![1, 0] e slices_S2x1000000_S1x1000000_1_0) shapeCasts_S1x1000000_S1000000))
    (Host.gather gather_S100000x64_S1000000x1_S1000000x64_1_0_n_n_0_1_164 h
      (broadcastInDim S1000000x1 ![0] bcast_S1000000_S1000000x1_0
        (select
          (cmpi .slt
            (shapeCast S1000000 (extractStridedSlice S1x1000000 ![0, 0] e slices_S2x1000000_S1x1000000_0_0) shapeCasts_S1x1000000_S1000000)
            (broadcastInDim S1000000 ![] bcast_S_S1000000 (constantI S_ 32 0#32)))
          (addi
            (shapeCast S1000000 (extractStridedSlice S1x1000000 ![0, 0] e slices_S2x1000000_S1x1000000_0_0) shapeCasts_S1x1000000_S1000000)
            (broadcastInDim S1000000 ![] bcast_S_S1000000 (constantI S_ 32 100000#32)))
          (shapeCast S1000000 (extractStridedSlice S1x1000000 ![0, 0] e slices_S2x1000000_S1x1000000_0_0) shapeCasts_S1x1000000_S1000000))))

/-- The joint → joint sum: over a [2, 2000000] edge list, row e[0][k] of the 300000 joint rows is added into row e[1][k] of 300000 rows of zeros. -/
def jj (e : (⟨S2x2000000, .i32⟩ : BufTy).Contents (Elt Ideal)) (h : FVec Ideal S300000x64 .f32) : FVec Ideal S300000x64 .f32 :=
  Host.scatterAdd scatter_S300000x64_S2000000x1_S2000000x64_1_0_0_1
    (broadcastInDim S300000x64 ![] bcast_S_S300000x64 (constant S_ .f32 0x00000000#32))
    (broadcastInDim S2000000x1 ![0] bcast_S2000000_S2000000x1_0
      (shapeCast S2000000 (extractStridedSlice S1x2000000 ![1, 0] e slices_S2x2000000_S1x2000000_1_0) shapeCasts_S1x2000000_S2000000))
    (Host.gather gather_S300000x64_S2000000x1_S2000000x64_1_0_n_n_0_1_164 h
      (broadcastInDim S2000000x1 ![0] bcast_S2000000_S2000000x1_0
        (select
          (cmpi .slt
            (shapeCast S2000000 (extractStridedSlice S1x2000000 ![0, 0] e slices_S2x2000000_S1x2000000_0_0) shapeCasts_S1x2000000_S2000000)
            (broadcastInDim S2000000 ![] bcast_S_S2000000 (constantI S_ 32 0#32)))
          (addi
            (shapeCast S2000000 (extractStridedSlice S1x2000000 ![0, 0] e slices_S2x2000000_S1x2000000_0_0) shapeCasts_S1x2000000_S2000000)
            (broadcastInDim S2000000 ![] bcast_S_S2000000 (constantI S_ 32 300000#32)))
          (shapeCast S2000000 (extractStridedSlice S1x2000000 ![0, 0] e slices_S2x2000000_S1x2000000_0_0) shapeCasts_S1x2000000_S2000000))))

/-- The three neighbour sums of the network, over the three edge lists. -/
def aggs (e2 e3 : (⟨S2x1000000, .i32⟩ : BufTy).Contents (Elt Ideal)) (e4 : (⟨S2x2000000, .i32⟩ : BufTy).Contents (Elt Ideal)) :
    Cert.Net.Aggs where
  jt := jt e3
  tj := tj e2
  jj := jj e4

/-- The neighbour sums over the edge lists a valuation holds. -/
abbrev E (W : Valuation τ sig (Elt Ideal)) : Cert.Net.Aggs :=
  aggs (W (Proc.devRef .tc main_arg2)) (W (Proc.devRef .tc main_arg3)) (W (Proc.devRef .tc main_arg4))

/-! ## First layer -/

set_option maxHeartbeats 4000000 in
theorem h2_v15 (W : Valuation τ sig (Elt Ideal)) :
    StableHlo.after hostOps2 W (Proc.devRef .tc main_v15) = (E W).jt (W (Proc.devRef .tc main_v1)) := by
  after_results_simp
  rfl

set_option maxHeartbeats 4000000 in
theorem h3_v30 (W : Valuation τ sig (Elt Ideal)) :
    StableHlo.after hostOps3 W (Proc.devRef .tc main_v30) = (E W).tj (W (Proc.devRef .tc main_v0)) := by
  after_results_simp
  rfl

set_option maxHeartbeats 4000000 in
theorem h3_v44 (W : Valuation τ sig (Elt Ideal)) :
    StableHlo.after hostOps3 W (Proc.devRef .tc main_v44) = (E W).jj (W (Proc.devRef .tc main_v1)) := by
  after_results_simp
  rfl

set_option maxHeartbeats 4000000 in
theorem h3_v45 (W : Valuation τ sig (Elt Ideal)) :
    StableHlo.after hostOps3 W (Proc.devRef .tc main_v45) = ((fun i => @HAdd.hAdd EReal EReal EReal _ (W (Proc.devRef .tc main_arg10) i) (W (Proc.devRef .tc main_arg16) i)) : Cert.Net.Row 64) := by
  after_results_simp
  rfl

set_option maxHeartbeats 4000000 in
theorem h3_v46 (W : Valuation τ sig (Elt Ideal)) :
    StableHlo.after hostOps3 W (Proc.devRef .tc main_v46) = ((fun i => @HAdd.hAdd EReal EReal EReal _ (W (Proc.devRef .tc main_arg11) i) (W (Proc.devRef .tc main_arg17) i)) : Cert.Net.Mat 64 64) := by
  after_results_simp
  rfl

/-! ## Second layer -/

set_option maxHeartbeats 4000000 in
theorem h4_v61 (W : Valuation τ sig (Elt Ideal)) :
    StableHlo.after hostOps4 W (Proc.devRef .tc main_v61) = (E W).jt (W (Proc.devRef .tc main_v47)) := by
  after_results_simp
  rfl

set_option maxHeartbeats 4000000 in
theorem h5_v76 (W : Valuation τ sig (Elt Ideal)) :
    StableHlo.after hostOps5 W (Proc.devRef .tc main_v76) = (E W).tj (W (Proc.devRef .tc main_v16)) := by
  after_results_simp
  rfl

set_option maxHeartbeats 4000000 in
theorem h5_v90 (W : Valuation τ sig (Elt Ideal)) :
    StableHlo.after hostOps5 W (Proc.devRef .tc main_v90) = (E W).jj (W (Proc.devRef .tc main_v47)) := by
  after_results_simp
  rfl

set_option maxHeartbeats 4000000 in
theorem h5_v91 (W : Valuation τ sig (Elt Ideal)) :
    StableHlo.after hostOps5 W (Proc.devRef .tc main_v91) = ((fun i => @HAdd.hAdd EReal EReal EReal _ (W (Proc.devRef .tc main_arg19) i) (W (Proc.devRef .tc main_arg25) i)) : Cert.Net.Row 64) := by
  after_results_simp
  rfl

set_option maxHeartbeats 4000000 in
theorem h5_v92 (W : Valuation τ sig (Elt Ideal)) :
    StableHlo.after hostOps5 W (Proc.devRef .tc main_v92) = ((fun i => @HAdd.hAdd EReal EReal EReal _ (W (Proc.devRef .tc main_arg20) i) (W (Proc.devRef .tc main_arg26) i)) : Cert.Net.Mat 64 64) := by
  after_results_simp
  rfl

end Cert.KernelIdeal.KHost

end
-- ==== Proof.Region0.lean ====
/-
  The input map of one node type, region 0 of the kernel: out = x · w + b over 100000 rows.
  The region walks 25 blocks of 4000 rows.  At a block the body multiplies the 4000 × 32 block of x by the whole
  32 × 64 weight into a zero accumulator and adds the bias along every row; on the extended reals the narrowing
  of the operands to a shorter float format is the identity and the product into zero is the plain sum over the
  32 contracted coordinates.  Row p of block t is row 4000 · t + p of the array, so the block written back at t is
  block t of the whole-array affine map, and the 25 row blocks tile the array: the array ends at the affine map
  of the arrays the region found.
-/
import proofs.«157873_j19705309954765_1_alg».proof.Proof.Gen.KernelIdeal.Frame
import proofs.«157873_j19705309954765_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx

/-! ## The block product at an index -/

theorem lhs_row (i : S4000x64.Idx) (q : dot_S4000x32_S32x64_S4000x64_1_0_0_1_n_n.contr.Idx) :
    (dot_S4000x32_S32x64_S4000x64_1_0_0_1_n_n.lhsIdx i q 0).val = (i 0).val := by
  unfold DotDims.lhsIdx
  rw [dif_neg (show ¬(0 : Fin S4000x32.rank) ∈ dot_S4000x32_S32x64_S4000x64_1_0_0_1_n_n.lhsBatch by decide), dif_pos (show (0 : Fin S4000x32.rank) ∈ dot_S4000x32_S32x64_S4000x64_1_0_0_1_n_n.lhsNonContracting by decide)]
  rfl
theorem lhs_col (i : S4000x64.Idx) (q : dot_S4000x32_S32x64_S4000x64_1_0_0_1_n_n.contr.Idx) :
    (dot_S4000x32_S32x64_S4000x64_1_0_0_1_n_n.lhsIdx i q 1).val = (q ⟨0, by decide⟩).val :=
  dot_S4000x32_S32x64_S4000x64_1_0_0_1_n_n.lhsIdx_val_of_single rfl i q
theorem rhs_row (i : S4000x64.Idx) (q : dot_S4000x32_S32x64_S4000x64_1_0_0_1_n_n.contr.Idx) :
    (dot_S4000x32_S32x64_S4000x64_1_0_0_1_n_n.rhsIdx i q 0).val = (q ⟨0, by decide⟩).val :=
  dot_S4000x32_S32x64_S4000x64_1_0_0_1_n_n.rhsIdx_val_of_single rfl i q
theorem rhs_col (i : S4000x64.Idx) (q : dot_S4000x32_S32x64_S4000x64_1_0_0_1_n_n.contr.Idx) :
    (dot_S4000x32_S32x64_S4000x64_1_0_0_1_n_n.rhsIdx i q 1).val = (i 1).val := by
  unfold DotDims.rhsIdx
  rw [dif_neg (show ¬(1 : Fin S32x64.rank) ∈ dot_S4000x32_S32x64_S4000x64_1_0_0_1_n_n.rhsBatch by decide), dif_pos (show (1 : Fin S32x64.rank) ∈ dot_S4000x32_S32x64_S4000x64_1_0_0_1_n_n.rhsNonContracting by decide)]
  rfl

/-- The product of a 4000 × 32 block with the 32 × 64 weight into a zero accumulator, at entry (p, q): the sum over
    the 32 contracted coordinates. -/
theorem matmul_at {φ₁ φ₂ : FTy} (x : FVec Ideal S4000x32 φ₁) (w : FVec Ideal S32x64 φ₂) (p : Fin 4000) (q : Fin 64) :
    matmul dot_S4000x32_S32x64_S4000x64_1_0_0_1_n_n none x w (constant S4000x64 .f32 0x00000000#32) (ix2 p q)
      = ∑ j : Fin 32, x (ix2 p j) * w (ix2 j q) := by
  refine (Ideal.matmul_constant_zero_apply dot_S4000x32_S32x64_S4000x64_1_0_0_1_n_n none x w (ix2 p q)).trans ?_
  rw [← Equiv.sum_comp (ValueIdx.contrEquiv1 dot_S4000x32_S32x64_S4000x64_1_0_0_1_n_n 32 rfl rfl).symm]
  refine Finset.sum_congr rfl fun k _ => ?_
  have hk := ValueIdx.contrEquiv1_symm_val dot_S4000x32_S32x64_S4000x64_1_0_0_1_n_n 32 rfl rfl k
  have el : dot_S4000x32_S32x64_S4000x64_1_0_0_1_n_n.lhsIdx (ix2 p q) ((ValueIdx.contrEquiv1 dot_S4000x32_S32x64_S4000x64_1_0_0_1_n_n 32 rfl rfl).symm k) = ix2 p k := funext fun a => Fin.ext (by
    match a with
    | ⟨0, _⟩ => exact lhs_row _ _
    | ⟨1, _⟩ => exact (lhs_col _ _).trans hk)
  have er : dot_S4000x32_S32x64_S4000x64_1_0_0_1_n_n.rhsIdx (ix2 p q) ((ValueIdx.contrEquiv1 dot_S4000x32_S32x64_S4000x64_1_0_0_1_n_n 32 rfl rfl).symm k) = ix2 k q := funext fun a => Fin.ext (by
    match a with
    | ⟨0, _⟩ => exact (rhs_row _ _).trans hk
    | ⟨1, _⟩ => exact rhs_col _ _)
  rw [el, er]

/-- The bias, made a one-row matrix and repeated along the rows, at entry (p, q) is its q-th entry. -/
theorem bias_at (b : FVec Ideal S64 .f32) (p : Fin 4000) (q : Fin 64) :
    broadcastTo S4000x64 (shapeCast S1x64 b shapeCasts_S64_S1x64) broadcasts_S1x64_S4000x64 (ix2 p q) = b (ix1 q) := by
  refine (broadcastTo_apply (shapeCast S1x64 b shapeCasts_S64_S1x64) broadcasts_S1x64_S4000x64 (ix2 p q) (ix2 (0 : Fin 1) q) (fun a => ?_)).trans ?_
  · match a with
    | ⟨0, _⟩ => show (0 : Nat) = if (1 : Nat) = 1 then 0 else p.val; rw [if_pos rfl]
    | ⟨1, _⟩ => show q.val = if (64 : Nat) = 1 then 0 else q.val; rw [if_neg (by decide)]
  · refine (shapeCast_addUnit_apply ![64] b shapeCasts_S64_S1x64 (ix2 (0 : Fin 1) q)).trans ?_
    exact congrArg b (funext fun a => by match a with | ⟨0, _⟩ => rfl)

/-- The body's stored value at entry (p, q) of the block. -/
theorem pay_at (x : Vec Ideal S4000x32 .f32) (w : Vec Ideal S32x64 .f32) (b : Vec Ideal S64 .f32) (p : Fin 4000) (q : Fin 64) :
    k0_pay1 (F := Ideal) x w b (ix2 p q) = (∑ j : Fin 32, x (ix2 p j) * w (ix2 j q)) + b (ix1 q) := by
  unfold k0_pay1
  exact congrArg₂ (fun u v : EReal => u + v) (matmul_at _ _ p q) (bias_at b p q)

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row windows sit at block row t, the weight and the bias at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- WHAT POINT t WRITES BACK is block t of the affine map of the arrays the region found. -/
theorem flushed_eq (c : Dev nD) (t : Fin cfg0.N) :
    (dat0 (F := Ideal) V c).flushed 3 t
      = ((cfg0.win 3).blk t).view.read (Elt Ideal) (Cert.Net.affine (V c main_arg0) (V c main_arg5) (V c main_arg6)) := by
  show (cfg0.win 3).cut (grid0.coords t) ((dat0 V c).after 3 t) = _
  rw [after0_3]
  unfold out0_3
  rw [View.canon_unit_zero hz2]
  simp only [View.ld_unit_zero (S := S4000x32) hz2, View.ld_unit_zero (S := S32x64) hz2, View.ld_unit_zero (S := S64) hz1]
  obtain ⟨e0, e1, e2, e3, e4, e5, e6⟩ := idx_facts t
  funext y
  obtain ⟨p, q, rfl⟩ : ∃ (p : Fin 4000) (q : Fin 64), y = ix2 p q := ⟨y 0, y 1, eq_ix2 y⟩
  show k0_pay1 (F := Ideal) (iblk0 V c 0 t) (iblk0 V c 1 t) (iblk0 V c 2 t) (ix2 p q)
    = Cert.Net.affine (V c main_arg0) (V c main_arg5) (V c main_arg6) (((cfg0.win 3).blk t).view.emb (ix2 p q))
  refine (pay_at (iblk0 V c 0 t) (iblk0 V c 1 t) (iblk0 V c 2 t) p q).trans ?_
  unfold Cert.Net.affine Cert.Net.mm
  have rx : ∀ j : Fin 32, iblk0 V c 0 t (ix2 p j)
      = V c main_arg0 (ix2 (n0 := 100000) (n1 := 32) ((((cfg0.win 3).blk t).view.emb (ix2 p q)) 0) j) := fun j => by
    show V c main_arg0 (((cfg0.win 0).blk t).view.emb (ix2 p j)) = _
    refine congrArg (V c main_arg0) (funext fun a => Fin.ext ?_)
    match a with
    | ⟨0, _⟩ => show win0_0.index t (0 : Fin 2) * 4000 + 1 * p.val = win0_3.index t (0 : Fin 2) * 4000 + 1 * p.val; omega
    | ⟨1, _⟩ => show win0_0.index t (1 : Fin 2) * 32 + 1 * j.val = j.val; omega
  have rw' : ∀ j : Fin 32, iblk0 V c 1 t (ix2 j q)
      = V c main_arg5 (ix2 (n0 := 32) (n1 := 64) j ((((cfg0.win 3).blk t).view.emb (ix2 p q)) 1)) := fun j => by
    show V c main_arg5 (((cfg0.win 1).blk t).view.emb (ix2 j q)) = _
    refine congrArg (V c main_arg5) (funext fun a => Fin.ext ?_)
    match a with
    | ⟨0, _⟩ => show win0_1.index t (0 : Fin 2) * 32 + 1 * j.val = j.val; omega
    | ⟨1, _⟩ => show win0_1.index t (1 : Fin 2) * 64 + 1 * q.val = win0_3.index t (1 : Fin 2) * 64 + 1 * q.val; omega
  have rb : iblk0 V c 2 t (ix1 q) = V c main_arg6 (ix1 (n := 64) ((((cfg0.win 3).blk t).view.emb (ix2 p q)) 1)) := by
    show V c main_arg6 (((cfg0.win 2).blk t).view.emb (ix1 q)) = _
    refine congrArg (V c main_arg6) (funext fun a => Fin.ext ?_)
    match a with
    | ⟨0, _⟩ => show win0_2.index t (0 : Fin 1) * 64 + 1 * q.val = win0_3.index t (1 : Fin 2) * 64 + 1 * q.val; omega
  exact congrArg₂ (fun u v : EReal => u + v) (Finset.sum_congr rfl fun j _ => by rw [rx j, rw' j]) rb

/-- An index of the array is in point t's block iff each coordinate is in the block's range on its axis. -/
theorem mem_blk (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v0).slice (win0_3.rect t)).set ↔ _
  rw [View.set_slice_whole, Rect.mem_set_unit]
  exact Iff.rfl

/-- The 25 row blocks tile the array: row r lies in the block of point r / 4000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 25 := N_0
  refine ⟨⟨(i 0).val / 4000, by rw [hN]; omega⟩, flush0_3 _, ?_⟩
  rw [mem_blk]
  obtain ⟨e0, e1, e2, e3, e4, e5, e6⟩ := idx_facts ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e5]; show (i 0).val / 4000 * 4000 ≤ (i 0).val ∧ (i 0).val < (i 0).val / 4000 * 4000 + 4000; omega
  | ⟨1, _⟩ =>
    show win0_3.index _ (1 : Fin 2) * 64 ≤ (i 1).val ∧ (i 1).val < win0_3.index _ (1 : Fin 2) * 64 + 64
    rw [e6]; omega

/-- THE ARRAY after the region: the affine map of the arrays the region found. -/
theorem final (c : Dev nD) :
    (dat0 (F := Ideal) V c).arrAt 3 cfg0.N = Cert.Net.affine (V c main_arg0) (V c main_arg5) (V c main_arg6) :=
  (dat0 (F := Ideal) V c).arrAt_eq_of_cover 3 _ (fun t _ => flushed_eq V c t) cover

end Cert.KernelIdeal.Region0

end
-- ==== Proof.Region1.lean ====
/-
  The input map of one node type, region 1 of the kernel: out = x · w + b over 300000 rows.
  The region walks 75 blocks of 4000 rows.  At a block the body multiplies the 4000 × 32 block of x by the whole
  32 × 64 weight into a zero accumulator and adds the bias along every row; on the extended reals the narrowing
  of the operands to a shorter float format is the identity and the product into zero is the plain sum over the
  32 contracted coordinates.  Row p of block t is row 4000 · t + p of the array, so the block written back at t is
  block t of the whole-array affine map, and the 75 row blocks tile the array: the array ends at the affine map
  of the arrays the region found.
-/
import proofs.«157873_j19705309954765_1_alg».proof.Proof.Gen.KernelIdeal.Frame
import proofs.«157873_j19705309954765_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx

/-! ## The block product at an index -/

theorem lhs_row (i : S4000x64.Idx) (q : dot_S4000x32_S32x64_S4000x64_1_0_0_1_n_n.contr.Idx) :
    (dot_S4000x32_S32x64_S4000x64_1_0_0_1_n_n.lhsIdx i q 0).val = (i 0).val := by
  unfold DotDims.lhsIdx
  rw [dif_neg (show ¬(0 : Fin S4000x32.rank) ∈ dot_S4000x32_S32x64_S4000x64_1_0_0_1_n_n.lhsBatch by decide), dif_pos (show (0 : Fin S4000x32.rank) ∈ dot_S4000x32_S32x64_S4000x64_1_0_0_1_n_n.lhsNonContracting by decide)]
  rfl
theorem lhs_col (i : S4000x64.Idx) (q : dot_S4000x32_S32x64_S4000x64_1_0_0_1_n_n.contr.Idx) :
    (dot_S4000x32_S32x64_S4000x64_1_0_0_1_n_n.lhsIdx i q 1).val = (q ⟨0, by decide⟩).val :=
  dot_S4000x32_S32x64_S4000x64_1_0_0_1_n_n.lhsIdx_val_of_single rfl i q
theorem rhs_row (i : S4000x64.Idx) (q : dot_S4000x32_S32x64_S4000x64_1_0_0_1_n_n.contr.Idx) :
    (dot_S4000x32_S32x64_S4000x64_1_0_0_1_n_n.rhsIdx i q 0).val = (q ⟨0, by decide⟩).val :=
  dot_S4000x32_S32x64_S4000x64_1_0_0_1_n_n.rhsIdx_val_of_single rfl i q
theorem rhs_col (i : S4000x64.Idx) (q : dot_S4000x32_S32x64_S4000x64_1_0_0_1_n_n.contr.Idx) :
    (dot_S4000x32_S32x64_S4000x64_1_0_0_1_n_n.rhsIdx i q 1).val = (i 1).val := by
  unfold DotDims.rhsIdx
  rw [dif_neg (show ¬(1 : Fin S32x64.rank) ∈ dot_S4000x32_S32x64_S4000x64_1_0_0_1_n_n.rhsBatch by decide), dif_pos (show (1 : Fin S32x64.rank) ∈ dot_S4000x32_S32x64_S4000x64_1_0_0_1_n_n.rhsNonContracting by decide)]
  rfl

/-- The product of a 4000 × 32 block with the 32 × 64 weight into a zero accumulator, at entry (p, q): the sum over
    the 32 contracted coordinates. -/
theorem matmul_at {φ₁ φ₂ : FTy} (x : FVec Ideal S4000x32 φ₁) (w : FVec Ideal S32x64 φ₂) (p : Fin 4000) (q : Fin 64) :
    matmul dot_S4000x32_S32x64_S4000x64_1_0_0_1_n_n none x w (constant S4000x64 .f32 0x00000000#32) (ix2 p q)
      = ∑ j : Fin 32, x (ix2 p j) * w (ix2 j q) := by
  refine (Ideal.matmul_constant_zero_apply dot_S4000x32_S32x64_S4000x64_1_0_0_1_n_n none x w (ix2 p q)).trans ?_
  rw [← Equiv.sum_comp (ValueIdx.contrEquiv1 dot_S4000x32_S32x64_S4000x64_1_0_0_1_n_n 32 rfl rfl).symm]
  refine Finset.sum_congr rfl fun k _ => ?_
  have hk := ValueIdx.contrEquiv1_symm_val dot_S4000x32_S32x64_S4000x64_1_0_0_1_n_n 32 rfl rfl k
  have el : dot_S4000x32_S32x64_S4000x64_1_0_0_1_n_n.lhsIdx (ix2 p q) ((ValueIdx.contrEquiv1 dot_S4000x32_S32x64_S4000x64_1_0_0_1_n_n 32 rfl rfl).symm k) = ix2 p k := funext fun a => Fin.ext (by
    match a with
    | ⟨0, _⟩ => exact lhs_row _ _
    | ⟨1, _⟩ => exact (lhs_col _ _).trans hk)
  have er : dot_S4000x32_S32x64_S4000x64_1_0_0_1_n_n.rhsIdx (ix2 p q) ((ValueIdx.contrEquiv1 dot_S4000x32_S32x64_S4000x64_1_0_0_1_n_n 32 rfl rfl).symm k) = ix2 k q := funext fun a => Fin.ext (by
    match a with
    | ⟨0, _⟩ => exact (rhs_row _ _).trans hk
    | ⟨1, _⟩ => exact rhs_col _ _)
  rw [el, er]

/-- The bias, made a one-row matrix and repeated along the rows, at entry (p, q) is its q-th entry. -/
theorem bias_at (b : FVec Ideal S64 .f32) (p : Fin 4000) (q : Fin 64) :
    broadcastTo S4000x64 (shapeCast S1x64 b shapeCasts_S64_S1x64) broadcasts_S1x64_S4000x64 (ix2 p q) = b (ix1 q) := by
  refine (broadcastTo_apply (shapeCast S1x64 b shapeCasts_S64_S1x64) broadcasts_S1x64_S4000x64 (ix2 p q) (ix2 (0 : Fin 1) q) (fun a => ?_)).trans ?_
  · match a with
    | ⟨0, _⟩ => show (0 : Nat) = if (1 : Nat) = 1 then 0 else p.val; rw [if_pos rfl]
    | ⟨1, _⟩ => show q.val = if (64 : Nat) = 1 then 0 else q.val; rw [if_neg (by decide)]
  · refine (shapeCast_addUnit_apply ![64] b shapeCasts_S64_S1x64 (ix2 (0 : Fin 1) q)).trans ?_
    exact congrArg b (funext fun a => by match a with | ⟨0, _⟩ => rfl)

/-- The body's stored value at entry (p, q) of the block. -/
theorem pay_at (x : Vec Ideal S4000x32 .f32) (w : Vec Ideal S32x64 .f32) (b : Vec Ideal S64 .f32) (p : Fin 4000) (q : Fin 64) :
    k1_pay1 (F := Ideal) x w b (ix2 p q) = (∑ j : Fin 32, x (ix2 p j) * w (ix2 j q)) + b (ix1 q) := by
  unfold k1_pay1
  exact congrArg₂ (fun u v : EReal => u + v) (matmul_at _ _ p q) (bias_at b p q)

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row windows sit at block row t, the weight and the bias at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- WHAT POINT t WRITES BACK is block t of the affine map of the arrays the region found. -/
theorem flushed_eq (c : Dev nD) (t : Fin cfg1.N) :
    (dat1 (F := Ideal) V c).flushed 3 t
      = ((cfg1.win 3).blk t).view.read (Elt Ideal) (Cert.Net.affine (V c main_arg1) (V c main_arg7) (V c main_arg8)) := by
  show (cfg1.win 3).cut (grid1.coords t) ((dat1 V c).after 3 t) = _
  rw [after1_3]
  unfold out1_3
  rw [View.canon_unit_zero hz2]
  simp only [View.ld_unit_zero (S := S4000x32) hz2, View.ld_unit_zero (S := S32x64) hz2, View.ld_unit_zero (S := S64) hz1]
  obtain ⟨e0, e1, e2, e3, e4, e5, e6⟩ := idx_facts t
  funext y
  obtain ⟨p, q, rfl⟩ : ∃ (p : Fin 4000) (q : Fin 64), y = ix2 p q := ⟨y 0, y 1, eq_ix2 y⟩
  show k1_pay1 (F := Ideal) (iblk1 V c 0 t) (iblk1 V c 1 t) (iblk1 V c 2 t) (ix2 p q)
    = Cert.Net.affine (V c main_arg1) (V c main_arg7) (V c main_arg8) (((cfg1.win 3).blk t).view.emb (ix2 p q))
  refine (pay_at (iblk1 V c 0 t) (iblk1 V c 1 t) (iblk1 V c 2 t) p q).trans ?_
  unfold Cert.Net.affine Cert.Net.mm
  have rx : ∀ j : Fin 32, iblk1 V c 0 t (ix2 p j)
      = V c main_arg1 (ix2 (n0 := 300000) (n1 := 32) ((((cfg1.win 3).blk t).view.emb (ix2 p q)) 0) j) := fun j => by
    show V c main_arg1 (((cfg1.win 0).blk t).view.emb (ix2 p j)) = _
    refine congrArg (V c main_arg1) (funext fun a => Fin.ext ?_)
    match a with
    | ⟨0, _⟩ => show win1_0.index t (0 : Fin 2) * 4000 + 1 * p.val = win1_3.index t (0 : Fin 2) * 4000 + 1 * p.val; omega
    | ⟨1, _⟩ => show win1_0.index t (1 : Fin 2) * 32 + 1 * j.val = j.val; omega
  have rw' : ∀ j : Fin 32, iblk1 V c 1 t (ix2 j q)
      = V c main_arg7 (ix2 (n0 := 32) (n1 := 64) j ((((cfg1.win 3).blk t).view.emb (ix2 p q)) 1)) := fun j => by
    show V c main_arg7 (((cfg1.win 1).blk t).view.emb (ix2 j q)) = _
    refine congrArg (V c main_arg7) (funext fun a => Fin.ext ?_)
    match a with
    | ⟨0, _⟩ => show win1_1.index t (0 : Fin 2) * 32 + 1 * j.val = j.val; omega
    | ⟨1, _⟩ => show win1_1.index t (1 : Fin 2) * 64 + 1 * q.val = win1_3.index t (1 : Fin 2) * 64 + 1 * q.val; omega
  have rb : iblk1 V c 2 t (ix1 q) = V c main_arg8 (ix1 (n := 64) ((((cfg1.win 3).blk t).view.emb (ix2 p q)) 1)) := by
    show V c main_arg8 (((cfg1.win 2).blk t).view.emb (ix1 q)) = _
    refine congrArg (V c main_arg8) (funext fun a => Fin.ext ?_)
    match a with
    | ⟨0, _⟩ => show win1_2.index t (0 : Fin 1) * 64 + 1 * q.val = win1_3.index t (1 : Fin 2) * 64 + 1 * q.val; omega
  exact congrArg₂ (fun u v : EReal => u + v) (Finset.sum_congr rfl fun j _ => by rw [rx j, rw' j]) rb

/-- An index of the array is in point t's block iff each coordinate is in the block's range on its axis. -/
theorem mem_blk (t : Fin cfg1.N) (i : S300000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v1).slice (win1_3.rect t)).set ↔ _
  rw [View.set_slice_whole, Rect.mem_set_unit]
  exact Iff.rfl

/-- The 75 row blocks tile the array: row r lies in the block of point r / 4000. -/
theorem cover (i : S300000x64.Idx) :
    ∃ t : Fin cfg1.N, (cfg1.win 3).flush t = true ∧ i ∈ ((cfg1.win 3).blk t).view.set := by
  have hi0 : (i 0).val < 300000 := (i 0).isLt
  have hi1 : (i 1).val < 64 := (i 1).isLt
  have hN : cfg1.N = 75 := N_1
  refine ⟨⟨(i 0).val / 4000, by rw [hN]; omega⟩, flush1_3 _, ?_⟩
  rw [mem_blk]
  obtain ⟨e0, e1, e2, e3, e4, e5, e6⟩ := idx_facts ⟨(i 0).val / 4000, by rw [hN]; omega⟩
  intro a
  match a with
  | ⟨0, _⟩ =>
    show win1_3.index _ (0 : Fin 2) * 4000 ≤ (i 0).val ∧ (i 0).val < win1_3.index _ (0 : Fin 2) * 4000 + 4000
    rw [e5]; show (i 0).val / 4000 * 4000 ≤ (i 0).val ∧ (i 0).val < (i 0).val / 4000 * 4000 + 4000; omega
  | ⟨1, _⟩ =>
    show win1_3.index _ (1 : Fin 2) * 64 ≤ (i 1).val ∧ (i 1).val < win1_3.index _ (1 : Fin 2) * 64 + 64
    rw [e6]; omega

/-- THE ARRAY after the region: the affine map of the arrays the region found. -/
theorem final (c : Dev nD) :
    (dat1 (F := Ideal) V c).arrAt 3 cfg1.N = Cert.Net.affine (V c main_arg1) (V c main_arg7) (V c main_arg8) :=
  (dat1 (F := Ideal) V c).arrAt_eq_of_cover 3 _ (fun t _ => flushed_eq V c t) cover

end Cert.KernelIdeal.Region1

end
-- ==== Proof.Region2.lean ====
/-
  The first layer's one-relation update, read off the kernel's region index by index.

  The region walks the node array in blocks of 4000 rows.  At a block it holds 4000 rows of the message array and of the
  node features, both 64 x 64 weight matrices and the bias, and it stores

      tanh ((msg_block · w + b) + x_block · r)

  over the block.  Entry (p, q) of that block depends on row p of the two row blocks only; row p of block t is row
  4000 t + p of the whole array, the weights and the bias are the same at every block, and the 25 blocks tile the
  100000 rows.  So the array the region leaves is Cert.Net.conv1 of the five arrays the region found.
-/
import proofs.«157873_j19705309954765_1_alg».proof.Proof.Gen.KernelIdeal.Frame
import proofs.«157873_j19705309954765_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)
open Cert.Net (Mat Row)

/-! ## One entry of a block of rows times a weight matrix -/

/-- The left operand's row is the output's row … -/
theorem lhs_row (i : S4000x64.Idx) (k : dot_S4000x64_S64x64_S4000x64_1_0_0_1_n_n.contr.Idx) :
    (dot_S4000x64_S64x64_S4000x64_1_0_0_1_n_n.lhsIdx i k 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- … its column the summation index … -/
theorem lhs_col (i : S4000x64.Idx) (k : dot_S4000x64_S64x64_S4000x64_1_0_0_1_n_n.contr.Idx) :
    (dot_S4000x64_S64x64_S4000x64_1_0_0_1_n_n.lhsIdx i k 1).val = (k ⟨0, by decide⟩).val :=
  dot_S4000x64_S64x64_S4000x64_1_0_0_1_n_n.lhsIdx_val_of_single rfl i k
/-- … the right operand's row the summation index … -/
theorem rhs_row (i : S4000x64.Idx) (k : dot_S4000x64_S64x64_S4000x64_1_0_0_1_n_n.contr.Idx) :
    (dot_S4000x64_S64x64_S4000x64_1_0_0_1_n_n.rhsIdx i k 0).val = (k ⟨0, by decide⟩).val :=
  dot_S4000x64_S64x64_S4000x64_1_0_0_1_n_n.rhsIdx_val_of_single rfl i k
/-- … and its column the output's column. -/
theorem rhs_col (i : S4000x64.Idx) (k : dot_S4000x64_S64x64_S4000x64_1_0_0_1_n_n.contr.Idx) :
    (dot_S4000x64_S64x64_S4000x64_1_0_0_1_n_n.rhsIdx i k 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- Entry (p, q) of a 4000 x 64 block times a 64 x 64 matrix, accumulated into zero: the sum over k of l (p, k) · r (k, q). -/
theorem product_entry (l : FVec Ideal S4000x64 .bf16) (r : FVec Ideal S64x64 .bf16) (p : Fin 4000) (q : Fin 64) :
    matmul dot_S4000x64_S64x64_S4000x64_1_0_0_1_n_n none l r (constant (F := Ideal) S4000x64 .f32 0x00000000#32) (ix2 p q)
      = ∑ k : Fin 64, l (ix2 p k) * r (ix2 k q) := by
  show FloatOps.matmul dot_S4000x64_S64x64_S4000x64_1_0_0_1_n_n none l r (constant (F := Ideal) S4000x64 .f32 0x00000000#32) (ix2 p q) = _
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_row _ _
    | ⟨1, _⟩ => exact (lhs_col _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The bias laid along every row: entry (p, q) is b q. -/
theorem bias_entry (b : FVec Ideal S64 .f32) (h1 : S64.ShapeCasts S1x64) (h2 : S1x64.Broadcasts S4000x64) (p : Fin 4000) (q : Fin 64) :
    broadcastTo S4000x64 (shapeCast S1x64 b h1) h2 (ix2 p q) = b (ix1 q) :=
  (broadcastTo_1b_ab_apply (shapeCast S1x64 b h1) h2 p q).trans (shapeCast_a_1a_apply b h1 0 q)

/-! ## What the body stores, at an entry -/

/-- Entry (p, q) of the stored block: tanh of row p of the message block times column q of its weight, plus the bias at q,
    plus row p of the feature block times column q of the root weight. -/
theorem stored_entry (x0 : FVec Ideal S4000x64 .f32) (x1 : FVec Ideal S64x64 .f32) (x3 : FVec Ideal S4000x64 .f32) (x4 : FVec Ideal S64x64 .f32)
    (x2 : FVec Ideal S64 .f32) (p : Fin 4000) (q : Fin 64) :
    k2_pay1 (F := Ideal) x0 x1 x3 x4 x2 (ix2 p q)
      = Ideal.tanh (((∑ k : Fin 64, x0 (ix2 p k) * x1 (ix2 k q)) + x2 (ix1 q)) + ∑ k : Fin 64, x3 (ix2 p k) * x4 (ix2 k q)) := by
  unfold k2_pay1
  simp only [shapeCast_self]
  show Ideal.tanh ((matmul dot_S4000x64_S64x64_S4000x64_1_0_0_1_n_n none (truncf (φ := .f32) .bf16 x0 _) (truncf (φ := .f32) .bf16 x1 _) (constant (F := Ideal) S4000x64 .f32 0x00000000#32) (ix2 p q)
        + broadcastTo S4000x64 (shapeCast S1x64 x2 _) _ (ix2 p q))
      + matmul dot_S4000x64_S64x64_S4000x64_1_0_0_1_n_n none (truncf (φ := .f32) .bf16 x3 _) (truncf (φ := .f32) .bf16 x4 _) (constant (F := Ideal) S4000x64 .f32 0x00000000#32) (ix2 p q)) = _
  rw [product_entry, product_entry, bias_entry]
  rfl

/-- So the stored block's entry (p, q) is the update's entry i, whenever row p of each row block is row i 0 of its array,
    the weights are the whole weight arrays, the bias the whole bias, and q is i 1. -/
theorem stored_eq_update (x0 : FVec Ideal S4000x64 .f32) (x1 : FVec Ideal S64x64 .f32) (x3 : FVec Ideal S4000x64 .f32) (x4 : FVec Ideal S64x64 .f32)
    (x2 : FVec Ideal S64 .f32) (msg : Mat 100000 64) (w : Mat 64 64) (b : Row 64) (x : Mat 100000 64) (r : Mat 64 64)
    (p : Fin 4000) (q : Fin 64) (i : (⟨2, ![100000, 64]⟩ : Shape).Idx)
    (h0 : ∀ k : Fin 64, x0 (ix2 p k) = msg (ix2 (n0 := 100000) (n1 := 64) (i 0) k))
    (h1 : ∀ k : Fin 64, x1 (ix2 k q) = w (ix2 (n0 := 64) (n1 := 64) k (i 1)))
    (h2 : x2 (ix1 q) = b (ix1 (n := 64) (i 1)))
    (h3 : ∀ k : Fin 64, x3 (ix2 p k) = x (ix2 (n0 := 100000) (n1 := 64) (i 0) k))
    (h4 : ∀ k : Fin 64, x4 (ix2 k q) = r (ix2 (n0 := 64) (n1 := 64) k (i 1))) :
    k2_pay1 (F := Ideal) x0 x1 x3 x4 x2 (ix2 p q) = Cert.Net.conv1 msg w b x r i := by
  rw [stored_entry]
  show Ideal.tanh _ = Ideal.tanh (((∑ k : Fin 64, msg (ix2 (n0 := 100000) (n1 := 64) (i 0) k) * w (ix2 (n0 := 64) (n1 := 64) k (i 1))) + b (ix1 (n := 64) (i 1)))
      + ∑ k : Fin 64, x (ix2 (n0 := 100000) (n1 := 64) (i 0) k) * r (ix2 (n0 := 64) (n1 := 64) k (i 1)))
  exact congrArg Ideal.tanh (congrArg₂ (· + ·)
    (congrArg₂ (· + ·) (Finset.sum_congr rfl fun k _ => congrArg₂ (· * ·) (h0 k) (h1 k)) h2)
    (Finset.sum_congr rfl fun k _ => congrArg₂ (· * ·) (h3 k) (h4 k)))

/-! ## From blocks to the array -/

theorem hz : (![0, 0] : Fin 2 → Nat) = fun _ => 0 := funext fun a => by fin_cases a <;> rfl
theorem hz1 : (![0] : Fin 1 → Nat) = fun _ => 0 := funext fun a => by fin_cases a; rfl

/-- The block indices over the grid: the three row-blocked windows (messages, features, result) are at row block t and
    column block 0 at point t; the weights and the bias are at block 0 everywhere. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Row p of the message block at point t is the row of the message array that the result's block has at p: row 4000 t + p. -/
theorem read0 (c : Dev nD) (t : Fin cfg2.N) (p : Fin 4000) (q k : Fin 64) :
    iblk2 V c 0 t (ix2 p k) = V c main_v15 (ix2 ((((cfg2.win 5).blk t).view.emb (ix2 p q)) 0) k) := by
  obtain ⟨e00, e01, e10, e11, e20, e30, e31, e40, e41, e50, e51⟩ := block_indices t
  show V c main_v15 (((cfg2.win 0).blk t).view.emb (ix2 p k)) = _
  refine congrArg _ (funext fun a => Fin.ext ?_)
  match a with
  | ⟨0, _⟩ => show win2_0.index t (0 : Fin 2) * 4000 + 1 * p.val = win2_5.index t (0 : Fin 2) * 4000 + 1 * p.val; rw [e00, e50]
  | ⟨1, _⟩ => show win2_0.index t (1 : Fin 2) * 64 + 1 * k.val = k.val; rw [e01]; omega

/-- The weight block at every point is the weight array; the result's block keeps the column. -/
theorem read1 (c : Dev nD) (t : Fin cfg2.N) (p : Fin 4000) (q k : Fin 64) :
    iblk2 V c 1 t (ix2 k q) = V c main_arg12 (ix2 k ((((cfg2.win 5).blk t).view.emb (ix2 p q)) 1)) := by
  obtain ⟨e00, e01, e10, e11, e20, e30, e31, e40, e41, e50, e51⟩ := block_indices t
  show V c main_arg12 (((cfg2.win 1).blk t).view.emb (ix2 k q)) = _
  refine congrArg _ (funext fun a => Fin.ext ?_)
  match a with
  | ⟨0, _⟩ => show win2_1.index t (0 : Fin 2) * 64 + 1 * k.val = k.val; rw [e10]; omega
  | ⟨1, _⟩ => show win2_1.index t (1 : Fin 2) * 64 + 1 * q.val = win2_5.index t (1 : Fin 2) * 64 + 1 * q.val; rw [e11, e51]

/-- The bias block at every point is the bias array; the result's block keeps the column. -/
theorem read2 (c : Dev nD) (t : Fin cfg2.N) (p : Fin 4000) (q : Fin 64) :
    iblk2 V c 2 t (ix1 q) = V c main_arg13 (ix1 ((((cfg2.win 5).blk t).view.emb (ix2 p q)) 1)) := by
  obtain ⟨e00, e01, e10, e11, e20, e30, e31, e40, e41, e50, e51⟩ := block_indices t
  show V c main_arg13 (((cfg2.win 2).blk t).view.emb (ix1 q)) = _
  refine congrArg _ (funext fun a => Fin.ext ?_)
  match a with
  | ⟨0, _⟩ => show win2_2.index t (0 : Fin 1) * 64 + 1 * q.val = win2_5.index t (1 : Fin 2) * 64 + 1 * q.val; rw [e20, e51]

/-- Row p of the feature block at point t is the row of the feature array that the result's block has at p: row 4000 t + p. -/
theorem read3 (c : Dev nD) (t : Fin cfg2.N) (p : Fin 4000) (q k : Fin 64) :
    iblk2 V c 3 t (ix2 p k) = V c main_v0 (ix2 ((((cfg2.win 5).blk t).view.emb (ix2 p q)) 0) k) := by
  obtain ⟨e00, e01, e10, e11, e20, e30, e31, e40, e41, e50, e51⟩ := block_indices t
  show V c main_v0 (((cfg2.win 3).blk t).view.emb (ix2 p k)) = _
  refine congrArg _ (funext fun a => Fin.ext ?_)
  match a with
  | ⟨0, _⟩ => show win2_3.index t (0 : Fin 2) * 4000 + 1 * p.val = win2_5.index t (0 : Fin 2) * 4000 + 1 * p.val; rw [e30, e50]
  | ⟨1, _⟩ => show win2_3.index t (1 : Fin 2) * 64 + 1 * k.val = k.val; rw [e31]; omega

/-- The root weight block at every point is the root weight array; the result's block keeps the column. -/
theorem read4 (c : Dev nD) (t : Fin cfg2.N) (p : Fin 4000) (q k : Fin 64) :
    iblk2 V c 4 t (ix2 k q) = V c main_arg14 (ix2 k ((((cfg2.win 5).blk t).view.emb (ix2 p q)) 1)) := by
  obtain ⟨e00, e01, e10, e11, e20, e30, e31, e40, e41, e50, e51⟩ := block_indices t
  show V c main_arg14 (((cfg2.win 4).blk t).view.emb (ix2 k q)) = _
  refine congrArg _ (funext fun a => Fin.ext ?_)
  match a with
  | ⟨0, _⟩ => show win2_4.index t (0 : Fin 2) * 64 + 1 * k.val = k.val; rw [e40]; omega
  | ⟨1, _⟩ => show win2_4.index t (1 : Fin 2) * 64 + 1 * q.val = win2_5.index t (1 : Fin 2) * 64 + 1 * q.val; rw [e41, e51]

/-- What point t writes back is block t of the update of the five arrays as the region finds them. -/
theorem flushed_eq (c : Dev nD) (t : Fin cfg2.N) :
    (dat2 (F := Ideal) V c).flushed 5 t = ((cfg2.win 5).blk t).view.read (Elt Ideal)
      (Cert.Net.conv1 (V c main_v15) (V c main_arg12) (V c main_arg13) (V c main_v0) (V c main_arg14)) := by
  show (cfg2.win 5).cut (grid2.coords t) ((dat2 V c).after 5 t) = _
  rw [after2_5]
  unfold out2_5
  rw [View.canon_unit_zero hz]
  simp only [View.ld_unit_zero (S := S4000x64) hz, View.ld_unit_zero (S := S64x64) hz, View.ld_unit_zero (S := S64) hz1]
  funext j
  obtain ⟨p, q, rfl⟩ : ∃ (p : Fin 4000) (q : Fin 64), j = ix2 p q := ⟨j 0, j 1, eq_ix2 j⟩
  show k2_pay1 (F := Ideal) (iblk2 V c 0 t) (iblk2 V c 1 t) (iblk2 V c 3 t) (iblk2 V c 4 t) (iblk2 V c 2 t) (ix2 p q)
    = Cert.Net.conv1 (V c main_v15) (V c main_arg12) (V c main_arg13) (V c main_v0) (V c main_arg14) (((cfg2.win 5).blk t).view.emb (ix2 p q))
  exact stored_eq_update _ _ _ _ _ _ _ _ _ _ p q _ (fun k => read0 V c t p q k) (fun k => read1 V c t p q k) (read2 V c t p q)
    (fun k => read3 V c t p q k) (fun k => read4 V c t p q k)

/-- An index of the result array is in point t's block iff each coordinate is in the block's range on its axis. -/
theorem mem_blk (t : Fin cfg2.N) (i : S100000x64.Idx) :
    i ∈ ((cfg2.win 5).blk t).view.set ↔ ∀ a : Fin 2, win2_5.index t a * S4000x64.size a ≤ (i a).val ∧ (i a).val < win2_5.index t a * S4000x64.size a + S4000x64.size a := by
  show i ∈ ((View.whole main_v16).slice (win2_5.rect t)).set ↔ _
  rw [View.set_slice_whole, Rect.mem_set_unit]
  exact Iff.rfl

/-- The 25 row blocks tile the 100000 rows: row r is in the block of point r / 4000. -/
theorem covered (i : S100000x64.Idx) : ∃ t : Fin cfg2.N, (cfg2.win 5).flush t = true ∧ i ∈ ((cfg2.win 5).blk t).view.set := by
  have hN : cfg2.N = 25 := N_2
  have hi0 : (i 0).val < 100000 := idx2_lt0 i
  have hi1 : (i 1).val < 64 := idx2_lt1 i
  obtain ⟨t, ht⟩ : ∃ t : Fin cfg2.N, t.val = (i 0).val / 4000 := ⟨⟨(i 0).val / 4000, Nat.lt_of_lt_of_eq (by omega) hN.symm⟩, rfl⟩
  obtain ⟨-, -, -, -, -, -, -, -, -, e50, e51⟩ := block_indices t
  refine ⟨t, flush2_5 t, ?_⟩
  rw [mem_blk]
  intro a
  match a with
  | ⟨0, _⟩ => show win2_5.index t (0 : Fin 2) * 4000 ≤ (i 0).val ∧ (i 0).val < win2_5.index t (0 : Fin 2) * 4000 + 4000; rw [e50, ht]; omega
  | ⟨1, _⟩ => show win2_5.index t (1 : Fin 2) * 64 ≤ (i 1).val ∧ (i 1).val < win2_5.index t (1 : Fin 2) * 64 + 64; rw [e51]; omega

/-- The array the region leaves: the one-relation update of the five arrays it found. -/
theorem final (c : Dev nD) :
    (dat2 (F := Ideal) V c).arrAt 5 cfg2.N
      = Cert.Net.conv1 (V c main_v15) (V c main_arg12) (V c main_arg13) (V c main_v0) (V c main_arg14) :=
  (dat2 (F := Ideal) V c).arrAt_eq_of_cover 5 _ (fun t _ => flushed_eq V c t) covered

end Cert.KernelIdeal.Region2

end
-- ==== Proof.Region3.lean ====
/-
  The first layer's two-relation update, read off the kernel's region index by index.

  The region walks the node array in blocks of 4000 rows.  At a block it holds 4000 rows of each of the two message arrays
  and of the node features, the three 64 x 64 weight matrices and the bias, and it stores

      tanh (((msg₁_block · w₁ + msg₂_block · w₂) + b) + x_block · r)

  over the block.  Entry (p, q) of that block depends on row p of the three row blocks only; row p of block t is row
  4000 t + p of the whole array, the weights and the bias are the same at every block, and the 75 blocks tile the
  300000 rows.  So the array the region leaves is Cert.Net.conv2Fused of the seven arrays the region found.
-/
import proofs.«157873_j19705309954765_1_alg».proof.Proof.Gen.KernelIdeal.Frame
import proofs.«157873_j19705309954765_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)
open Cert.Net (Mat Row)

/-! ## One entry of a block of rows times a weight matrix -/

/-- The left operand's row is the output's row … -/
theorem lhs_row (i : S4000x64.Idx) (k : dot_S4000x64_S64x64_S4000x64_1_0_0_1_n_n.contr.Idx) :
    (dot_S4000x64_S64x64_S4000x64_1_0_0_1_n_n.lhsIdx i k 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- … its column the summation index … -/
theorem lhs_col (i : S4000x64.Idx) (k : dot_S4000x64_S64x64_S4000x64_1_0_0_1_n_n.contr.Idx) :
    (dot_S4000x64_S64x64_S4000x64_1_0_0_1_n_n.lhsIdx i k 1).val = (k ⟨0, by decide⟩).val :=
  dot_S4000x64_S64x64_S4000x64_1_0_0_1_n_n.lhsIdx_val_of_single rfl i k
/-- … the right operand's row the summation index … -/
theorem rhs_row (i : S4000x64.Idx) (k : dot_S4000x64_S64x64_S4000x64_1_0_0_1_n_n.contr.Idx) :
    (dot_S4000x64_S64x64_S4000x64_1_0_0_1_n_n.rhsIdx i k 0).val = (k ⟨0, by decide⟩).val :=
  dot_S4000x64_S64x64_S4000x64_1_0_0_1_n_n.rhsIdx_val_of_single rfl i k
/-- … and its column the output's column. -/
theorem rhs_col (i : S4000x64.Idx) (k : dot_S4000x64_S64x64_S4000x64_1_0_0_1_n_n.contr.Idx) :
    (dot_S4000x64_S64x64_S4000x64_1_0_0_1_n_n.rhsIdx i k 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- Entry (p, q) of a 4000 x 64 block times a 64 x 64 matrix, accumulated into zero: the sum over k of l (p, k) · r (k, q). -/
theorem product_entry (l : FVec Ideal S4000x64 .bf16) (r : FVec Ideal S64x64 .bf16) (p : Fin 4000) (q : Fin 64) :
    matmul dot_S4000x64_S64x64_S4000x64_1_0_0_1_n_n none l r (constant (F := Ideal) S4000x64 .f32 0x00000000#32) (ix2 p q)
      = ∑ k : Fin 64, l (ix2 p k) * r (ix2 k q) := by
  show FloatOps.matmul dot_S4000x64_S64x64_S4000x64_1_0_0_1_n_n none l r (constant (F := Ideal) S4000x64 .f32 0x00000000#32) (ix2 p q) = _
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_row _ _
    | ⟨1, _⟩ => exact (lhs_col _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The bias laid along every row: entry (p, q) is b q. -/
theorem bias_entry (b : FVec Ideal S64 .f32) (h1 : S64.ShapeCasts S1x64) (h2 : S1x64.Broadcasts S4000x64) (p : Fin 4000) (q : Fin 64) :
    broadcastTo S4000x64 (shapeCast S1x64 b h1) h2 (ix2 p q) = b (ix1 q) :=
  (broadcastTo_1b_ab_apply (shapeCast S1x64 b h1) h2 p q).trans (shapeCast_a_1a_apply b h1 0 q)

/-! ## What the body stores, at an entry -/

/-- Entry (p, q) of the stored block: tanh of row p of each message block times column q of its weight, plus the bias at q,
    plus row p of the feature block times column q of the root weight.  The blocks are named by their windows,
    x0 … x6: messages, weight, messages, weight, bias, features, root weight. -/
theorem stored_entry (x0 : FVec Ideal S4000x64 .f32) (x1 : FVec Ideal S64x64 .f32) (x2 : FVec Ideal S4000x64 .f32) (x3 : FVec Ideal S64x64 .f32)
    (x5 : FVec Ideal S4000x64 .f32) (x6 : FVec Ideal S64x64 .f32) (x4 : FVec Ideal S64 .f32) (p : Fin 4000) (q : Fin 64) :
    k3_pay1 (F := Ideal) x0 x1 x2 x3 x5 x6 x4 (ix2 p q)
      = Ideal.tanh ((((∑ k : Fin 64, x0 (ix2 p k) * x1 (ix2 k q)) + ∑ k : Fin 64, x2 (ix2 p k) * x3 (ix2 k q)) + x4 (ix1 q))
          + ∑ k : Fin 64, x5 (ix2 p k) * x6 (ix2 k q)) := by
  unfold k3_pay1
  simp only [shapeCast_self]
  show Ideal.tanh (((matmul dot_S4000x64_S64x64_S4000x64_1_0_0_1_n_n none (truncf (φ := .f32) .bf16 x0 _) (truncf (φ := .f32) .bf16 x1 _) (constant (F := Ideal) S4000x64 .f32 0x00000000#32) (ix2 p q)
          + matmul dot_S4000x64_S64x64_S4000x64_1_0_0_1_n_n none (truncf (φ := .f32) .bf16 x2 _) (truncf (φ := .f32) .bf16 x3 _) (constant (F := Ideal) S4000x64 .f32 0x00000000#32) (ix2 p q))
        + broadcastTo S4000x64 (shapeCast S1x64 x4 _) _ (ix2 p q))
      + matmul dot_S4000x64_S64x64_S4000x64_1_0_0_1_n_n none (truncf (φ := .f32) .bf16 x5 _) (truncf (φ := .f32) .bf16 x6 _) (constant (F := Ideal) S4000x64 .f32 0x00000000#32) (ix2 p q)) = _
  rw [product_entry, product_entry, product_entry, bias_entry]
  rfl

/-- So the stored block's entry (p, q) is the update's entry i, whenever row p of each row block is row i 0 of its array,
    the weights are the whole weight arrays, the bias the whole bias, and q is i 1. -/
theorem stored_eq_update (x0 : FVec Ideal S4000x64 .f32) (x1 : FVec Ideal S64x64 .f32) (x2 : FVec Ideal S4000x64 .f32) (x3 : FVec Ideal S64x64 .f32)
    (x5 : FVec Ideal S4000x64 .f32) (x6 : FVec Ideal S64x64 .f32) (x4 : FVec Ideal S64 .f32)
    (msg₁ : Mat 300000 64) (w₁ : Mat 64 64) (msg₂ : Mat 300000 64) (w₂ : Mat 64 64) (b : Row 64) (x : Mat 300000 64) (r : Mat 64 64)
    (p : Fin 4000) (q : Fin 64) (i : (⟨2, ![300000, 64]⟩ : Shape).Idx)
    (h0 : ∀ k : Fin 64, x0 (ix2 p k) = msg₁ (ix2 (n0 := 300000) (n1 := 64) (i 0) k))
    (h1 : ∀ k : Fin 64, x1 (ix2 k q) = w₁ (ix2 (n0 := 64) (n1 := 64) k (i 1)))
    (h2 : ∀ k : Fin 64, x2 (ix2 p k) = msg₂ (ix2 (n0 := 300000) (n1 := 64) (i 0) k))
    (h3 : ∀ k : Fin 64, x3 (ix2 k q) = w₂ (ix2 (n0 := 64) (n1 := 64) k (i 1)))
    (h4 : x4 (ix1 q) = b (ix1 (n := 64) (i 1)))
    (h5 : ∀ k : Fin 64, x5 (ix2 p k) = x (ix2 (n0 := 300000) (n1 := 64) (i 0) k))
    (h6 : ∀ k : Fin 64, x6 (ix2 k q) = r (ix2 (n0 := 64) (n1 := 64) k (i 1))) :
    k3_pay1 (F := Ideal) x0 x1 x2 x3 x5 x6 x4 (ix2 p q) = Cert.Net.conv2Fused msg₁ w₁ msg₂ w₂ b x r i := by
  rw [stored_entry]
  show Ideal.tanh _ = Ideal.tanh ((((∑ k : Fin 64, msg₁ (ix2 (n0 := 300000) (n1 := 64) (i 0) k) * w₁ (ix2 (n0 := 64) (n1 := 64) k (i 1)))
        + ∑ k : Fin 64, msg₂ (ix2 (n0 := 300000) (n1 := 64) (i 0) k) * w₂ (ix2 (n0 := 64) (n1 := 64) k (i 1))) + b (ix1 (n := 64) (i 1)))
      + ∑ k : Fin 64, x (ix2 (n0 := 300000) (n1 := 64) (i 0) k) * r (ix2 (n0 := 64) (n1 := 64) k (i 1)))
  exact congrArg Ideal.tanh (congrArg₂ (· + ·)
    (congrArg₂ (· + ·)
      (congrArg₂ (· + ·) (Finset.sum_congr rfl fun k _ => congrArg₂ (· * ·) (h0 k) (h1 k))
        (Finset.sum_congr rfl fun k _ => congrArg₂ (· * ·) (h2 k) (h3 k))) h4)
    (Finset.sum_congr rfl fun k _ => congrArg₂ (· * ·) (h5 k) (h6 k)))

/-! ## From blocks to the array -/

theorem hz : (![0, 0] : Fin 2 → Nat) = fun _ => 0 := funext fun a => by fin_cases a <;> rfl
theorem hz1 : (![0] : Fin 1 → Nat) = fun _ => 0 := funext fun a => by fin_cases a; rfl

/-- The block indices over the grid: the four row-blocked windows (both message arrays, features, result) are at row
    block t and column block 0 at point t; the weights and the bias are at block 0 everywhere. -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

variable (V : (c : Dev nD) → (b : Ref sig .tc) → Buf (Elt Ideal) ((c : Thread nD τ).loc b))

/-- Row p of the first message block at point t is the row of the first message array that the result's block has at p: row 4000 t + p. -/
theorem read0 (c : Dev nD) (t : Fin cfg3.N) (p : Fin 4000) (q k : Fin 64) :
    iblk3 V c 0 t (ix2 p k) = V c main_v30 (ix2 ((((cfg3.win 7).blk t).view.emb (ix2 p q)) 0) k) := by
  obtain ⟨e00, e01, e10, e11, e20, e21, e30, e31, e40, e50, e51, e60, e61, e70, e71⟩ := block_indices t
  show V c main_v30 (((cfg3.win 0).blk t).view.emb (ix2 p k)) = _
  refine congrArg _ (funext fun a => Fin.ext ?_)
  match a with
  | ⟨0, _⟩ => show win3_0.index t (0 : Fin 2) * 4000 + 1 * p.val = win3_7.index t (0 : Fin 2) * 4000 + 1 * p.val; rw [e00, e70]
  | ⟨1, _⟩ => show win3_0.index t (1 : Fin 2) * 64 + 1 * k.val = k.val; rw [e01]; omega

/-- The first weight block at every point is the first weight array; the result's block keeps the column. -/
theorem read1 (c : Dev nD) (t : Fin cfg3.N) (p : Fin 4000) (q k : Fin 64) :
    iblk3 V c 1 t (ix2 k q) = V c main_arg9 (ix2 k ((((cfg3.win 7).blk t).view.emb (ix2 p q)) 1)) := by
  obtain ⟨e00, e01, e10, e11, e20, e21, e30, e31, e40, e50, e51, e60, e61, e70, e71⟩ := block_indices t
  show V c main_arg9 (((cfg3.win 1).blk t).view.emb (ix2 k q)) = _
  refine congrArg _ (funext fun a => Fin.ext ?_)
  match a with
  | ⟨0, _⟩ => show win3_1.index t (0 : Fin 2) * 64 + 1 * k.val = k.val; rw [e10]; omega
  | ⟨1, _⟩ => show win3_1.index t (1 : Fin 2) * 64 + 1 * q.val = win3_7.index t (1 : Fin 2) * 64 + 1 * q.val; rw [e11, e71]

/-- Row p of the second message block at point t is the row of the second message array that the result's block has at p: row 4000 t + p. -/
theorem read2 (c : Dev nD) (t : Fin cfg3.N) (p : Fin 4000) (q k : Fin 64) :
    iblk3 V c 2 t (ix2 p k) = V c main_v44 (ix2 ((((cfg3.win 7).blk t).view.emb (ix2 p q)) 0) k) := by
  obtain ⟨e00, e01, e10, e11, e20, e21, e30, e31, e40, e50, e51, e60, e61, e70, e71⟩ := block_indices t
  show V c main_v44 (((cfg3.win 2).blk t).view.emb (ix2 p k)) = _
  refine congrArg _ (funext fun a => Fin.ext ?_)
  match a with
  | ⟨0, _⟩ => show win3_2.index t (0 : Fin 2) * 4000 + 1 * p.val = win3_7.index t (0 : Fin 2) * 4000 + 1 * p.val; rw [e20, e70]
  | ⟨1, _⟩ => show win3_2.index t (1 : Fin 2) * 64 + 1 * k.val = k.val; rw [e21]; omega

/-- The second weight block at every point is the second weight array; the result's block keeps the column. -/
theorem read3 (c : Dev nD) (t : Fin cfg3.N) (p : Fin 4000) (q k : Fin 64) :
    iblk3 V c 3 t (ix2 k q) = V c main_arg15 (ix2 k ((((cfg3.win 7).blk t).view.emb (ix2 p q)) 1)) := by
  obtain ⟨e00, e01, e10, e11, e20, e21, e30, e31, e40, e50, e51, e60, e61, e70, e71⟩ := block_indices t
  show V c main_arg15 (((cfg3.win 3).blk t).view.emb (ix2 k q)) = _
  refine congrArg _ (funext fun a => Fin.ext ?_)
  match a with
  | ⟨0, _⟩ => show win3_3.index t (0 : Fin 2) * 64 + 1 * k.val = k.val; rw [e30]; omega
  | ⟨1, _⟩ => show win3_3.index t (1 : Fin 2) * 64 + 1 * q.val = win3_7.index t (1 : Fin 2) * 64 + 1 * q.val; rw [e31, e71]

/-- The bias block at every point is the bias array; the result's block keeps the column. -/
theorem read4 (c : Dev nD) (t : Fin cfg3.N) (p : Fin 4000) (q : Fin 64) :
    iblk3 V c 4 t (ix1 q) = V c main_v45 (ix1 ((((cfg3.win 7).blk t).view.emb (ix2 p q)) 1)) := by
  obtain ⟨e00, e01, e10, e11, e20, e21, e30, e31, e40, e50, e51, e60, e61, e70, e71⟩ := block_indices t
  show V c main_v45 (((cfg3.win 4).blk t).view.emb (ix1 q)) = _
  refine congrArg _ (funext fun a => Fin.ext ?_)
  match a with
  | ⟨0, _⟩ => show win3_4.index t (0 : Fin 1) * 64 + 1 * q.val = win3_7.index t (1 : Fin 2) * 64 + 1 * q.val; rw [e40, e71]

/-- Row p of the feature block at point t is the row of the feature array that the result's block has at p: row 4000 t + p. -/
theorem read5 (c : Dev nD) (t : Fin cfg3.N) (p : Fin 4000) (q k : Fin 64) :
    iblk3 V c 5 t (ix2 p k) = V c main_v1 (ix2 ((((cfg3.win 7).blk t).view.emb (ix2 p q)) 0) k) := by
  obtain ⟨e00, e01, e10, e11, e20, e21, e30, e31, e40, e50, e51, e60, e61, e70, e71⟩ := block_indices t
  show V c main_v1 (((cfg3.win 5).blk t).view.emb (ix2 p k)) = _
  refine congrArg _ (funext fun a => Fin.ext ?_)
  match a with
  | ⟨0, _⟩ => show win3_5.index t (0 : Fin 2) * 4000 + 1 * p.val = win3_7.index t (0 : Fin 2) * 4000 + 1 * p.val; rw [e50, e70]
  | ⟨1, _⟩ => show win3_5.index t (1 : Fin 2) * 64 + 1 * k.val = k.val; rw [e51]; omega

/-- The root weight block at every point is the root weight array; the result's block keeps the column. -/
theorem read6 (c : Dev nD) (t : Fin cfg3.N) (p : Fin 4000) (q k : Fin 64) :
    iblk3 V c 6 t (ix2 k q) = V c main_v46 (ix2 k ((((cfg3.win 7).blk t).view.emb (ix2 p q)) 1)) := by
  obtain ⟨e00, e01, e10, e11, e20, e21, e30, e31, e40, e50, e51, e60, e61, e70, e71⟩ := block_indices t
  show V c main_v46 (((cfg3.win 6).blk t).view.emb (ix2 k q)) = _
  refine congrArg _ (funext fun a => Fin.ext ?_)
  match a with
  | ⟨0, _⟩ => show win3_6.index t (0 : Fin 2) * 64 + 1 * k.val = k.val; rw [e60]; omega
  | ⟨1, _⟩ => show win3_6.index t (1 : Fin 2) * 64 + 1 * q.val = win3_7.index t (1 : Fin 2) * 64 + 1 * q.val; rw [e61, e71]

/-- What point t writes back is block t of the update of the seven arrays as the region finds them. -/
theorem flushed_eq (c : Dev nD) (t : Fin cfg3.N) :
    (dat3 (F := Ideal) V c).flushed 7 t = ((cfg3.win 7).blk t).view.read (Elt Ideal)
      (Cert.Net.conv2Fused (V c main_v30) (V c main_arg9) (V c main_v44) (V c main_arg15) (V c main_v45) (V c main_v1) (V c main_v46)) := by
  show (cfg3.win 7).cut (grid3.coords t) ((dat3 V c).after 7 t) = _
  rw [after3_7]
  unfold out3_7
  rw [View.canon_unit_zero hz]
  simp only [View.ld_unit_zero (S := S4000x64) hz, View.ld_unit_zero (S := S64x64) hz, View.ld_unit_zero (S := S64) hz1]
  funext j
  obtain ⟨p, q, rfl⟩ : ∃ (p : Fin 4000) (q : Fin 64), j = ix2 p q := ⟨j 0, j 1, eq_ix2 j⟩
  show k3_pay1 (F := Ideal) (iblk3 V c 0 t) (iblk3 V c 1 t) (iblk3 V c 2 t) (iblk3 V c 3 t) (iblk3 V c 5 t) (iblk3 V c 6 t) (iblk3 V c 4 t) (ix2 p q)
    = Cert.Net.conv2Fused (V c main_v30) (V c main_arg9) (V c main_v44) (V c main_arg15) (V c main_v45) (V c main_v1) (V c main_v46) (((cfg3.win 7).blk t).view.emb (ix2 p q))
  exact stored_eq_update _ _ _ _ _ _ _ _ _ _ _ _ _ _ p q _ (fun k => read0 V c t p q k) (fun k => read1 V c t p q k) (fun k => read2 V c t p q k)
    (fun k => read3 V c t p q k) (read4 V c t p q) (fun k => read5 V c t p q k) (fun k => read6 V c t p q k)

/-- An index of the result array is in point t's block iff each coordinate is in the block's range on its axis. -/
theorem mem_blk (t : Fin cfg3.N) (i : S300000x64.Idx) :
    i ∈ ((cfg3.win 7).blk t).view.set ↔ ∀ a : Fin 2, win3_7.index t a * S4000x64.size a ≤ (i a).val ∧ (i a).val < win3_7.index t a * S4000x64.size a + S4000x64.size a := by
  show i ∈ ((View.whole main_v47).slice (win3_7.rect t)).set ↔ _
  rw [View.set_slice_whole, Rect.mem_set_unit]
  exact Iff.rfl

/-- The 75 row blocks tile the 300000 rows: row r is in the block of point r / 4000. -/
theorem covered (i : S300000x64.Idx) : ∃ t : Fin cfg3.N, (cfg3.win 7).flush t = true ∧ i ∈ ((cfg3.win 7).blk t).view.set := by
  have hN : cfg3.N = 75 := N_3
  have hi0 : (i 0).val < 300000 := idx2_lt0 i
  have hi1 : (i 1).val < 64 := idx2_lt1 i
  obtain ⟨t, ht⟩ : ∃ t : Fin cfg3.N, t.val = (i 0).val / 4000 := ⟨⟨(i 0).val / 4000, Nat.lt_of_lt_of_eq (by omega) hN.symm⟩, rfl⟩
  obtain ⟨-, -, -, -, -, -, -, -, -, -, -, -, -, e70, e71⟩ := block_indices t
  refine ⟨t, flush3_7 t, ?_⟩
  rw [mem_blk]
  intro a
  match a with
  | ⟨0, _⟩ => show win3_7.index t (0 : Fin 2) * 4000 ≤ (i 0).val ∧ (i 0).val < win3_7.index t (0 : Fin 2) * 4000 + 4000; rw [e70, ht]; omega
  | ⟨1, _⟩ => show win3_7.index t (1 : Fin 2) * 64 ≤ (i 1).val ∧ (i 1).val < win3_7.index t (1 : Fin 2) * 64 + 64; rw [e71]; omega

/-- The array the region leaves: the two-relation update, in its fused form, of the seven arrays it found. -/
theorem final (c : Dev nD) :
    (dat3 (F := Ideal) V c).arrAt 7 cfg3.N
      = Cert.Net.conv2Fused (V c main_v30) (V c main_arg9) (V c main_v44) (V c main_arg15) (V c main_v45) (V c main_v1) (V c main_v46) :=
  (dat3 (F := Ideal) V c).arrAt_eq_of_cover 7 _ (fun t _ => flushed_eq V c t) covered

end Cert.KernelIdeal.Region3

end
-- ==== Proof.Region4.lean ====
/-
  The second layer's one-relation update, read off the kernel's region index by index.

  The region walks the node array in blocks of 4000 rows.  At a block it holds 4000 rows of the message array and of the
  node features, both 64 x 64 weight matrices and the bias, and it stores

      tanh ((msg_block · w + b) + x_block · r)

  over the block.  Entry (p, q) of that block depends on row p of the two row blocks only; row p of block t is row
  4000 t + p of the whole array, the weights and the bias are the same at every block, and the 25 blocks tile the
  100000 rows.  So the array the region leaves is Cert.Net.conv1 of the five arrays the region found.
-/
import proofs.«157873_j19705309954765_1_alg».proof.Proof.Gen.KernelIdeal.Frame
import proofs.«157873_j19705309954765_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region4

open Cert.KernelIdeal Cert.KernelIdeal.Gen Idealize.ShloMosaic Idealize.ShloMosaic.TcCoe Idealize.SL.Sem Idealize.ShloMosaic.ValueIdx
open Idealize.ShloMosaic.Pipeline (Dat)
open Cert.Net (Mat Row)

/-! ## One entry of a block of rows times a weight matrix -/

/-- The left operand's row is the output's row … -/
theorem lhs_row (i : S4000x64.Idx) (k : dot_S4000x64_S64x64_S4000x64_1_0_0_1_n_n.contr.Idx) :
    (dot_S4000x64_S64x64_S4000x64_1_0_0_1_n_n.lhsIdx i k 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- … its column the summation index … -/
theorem lhs_col (i : S4000x64.Idx) (k : dot_S4000x64_S64x64_S4000x64_1_0_0_1_n_n.contr.Idx) :
    (dot_S4000x64_S64x64_S4000x64_1_0_0_1_n_n.lhsIdx i k 1).val = (k ⟨0, by decide⟩).val :=
  dot_S4000x64_S64x64_S4000x64_1_0_0_1_n_n.lhsIdx_val_of_single rfl i k
/-- … the right operand's row the summation index … -/
theorem rhs_row (i : S4000x64.Idx) (k : dot_S4000x64_S64x64_S4000x64_1_0_0_1_n_n.contr.Idx) :
    (dot_S4000x64_S64x64_S4000x64_1_0_0_1_n_n.rhsIdx i k 0).val = (k ⟨0, by decide⟩).val :=
  dot_S4000x64_S64x64_S4000x64_1_0_0_1_n_n.rhsIdx_val_of_single rfl i k
/-- … and its column the output's column. -/
theorem rhs_col (i : S4000x64.Idx) (k : dot_S4000x64_S64x64_S4000x64_1_0_0_1_n_n.contr.Idx) :
    (dot_S4000x64_S64x64_S4000x64_1_0_0_1_n_n.rhsIdx i k 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- Entry (p, q) of a 4000 x 64 block times a 64 x 64 matrix, accumulated into zero: the sum over k of l (p, k) · r (k, q). -/
theorem product_entry (l : FVec Ideal S4000x64 .bf16) (r : FVec Ideal S64x64 .bf16) (p : Fin 4000) (q : Fin 64) :
    matmul dot_S4000x64_S64x64_S4000x64_1_0_0_1_n_n none l r (constant (F := Ideal) S4000x64 .f32 0x00000000#32) (ix2 p q)
      = ∑ k : Fin 64, l (ix2 p k) * r (ix2 k q) := by
  show FloatOps.matmul dot_S4000x64_S64x64_S4000x64_1_0_0_1_n_n none l r (constant (F := Ideal) S4000x64 .f32 0x00000000#32) (ix2 p q) = _
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_row _ _
    | ⟨1, _⟩ => exact (lhs_col _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The bias laid along every row: entry (p, q) is b q. -/
theorem bias_entry (b : FVec Ideal S64 .f32) (h1 : S64.ShapeCasts S1x64) (h2 : S1x64.Broadcasts S4000x64) (p : Fin 4000) (q : Fin 64) :
    broadcastTo S4000x64 (shapeCast S1x64 b h1) h2 (ix2 p q) = b (ix1 q) :=
  (broadcastTo_1b_ab_apply (shapeCast S1x64 b h1) h2 p q).trans (shapeCast_a_1a_apply b h1 0 q)

/-! ## What the body stores, at an entry -/

/-- Entry (p, q) of the stored block: tanh of row p of the message block times column q of its weight, plus the bias at q,
    plus row p of the feature block times column q of the root weight. -/
theorem stored_entry (x0 : FVec Ideal S4000x64 .f32) (x1 : FVec Ideal S64x64 .f32) (x3 : FVec Ideal S4000x64 .f32) (x4 : FVec Ideal S64x64 .f32)
    (x2 : FVec Ideal S64 .f32) (p : Fin 4000) (q : Fin 64) :
    k4_pay1 (F := Ideal) x0 x1 x3 x4 x2 (ix2 p q)
      = Ideal.tanh (((∑ k : Fin 64, x0 (ix2 p k) * x1 (ix2 k q)) + x2 (ix1 q)) + ∑ k : Fin 64, x3 (ix2 p k) * x4 (ix2 k q)) := by
  unfold k4_pay1
  simp only [shapeCast_self]
  show Ideal.tanh ((matmul dot_S4000x64_S64x64_S4000x64_1_0_0_1_n_n none (truncf (φ := .f32) .bf16 x0 _) (truncf (φ := .f32) .bf16 x1 _) (constant (F := Ideal) S4000x64 .f32 0x00000000#32) (ix2 p q)
        + broadcastTo S4000x64 (shapeCast S1x64 x2 _) _ (ix2 p q))
      + matmul dot_S4000x64_S64x64_S4000x64_1_0_0_1_n_n none (truncf (φ := .f32) .bf16 x3 _) (truncf (φ := .f32) .bf16 x4 _) (constant (F := Ideal) S4000x64 .f32 0x00000000#32) (ix2 p q)) = _
  rw [product_entry, product_entry, bias_entry]
  rfl

/-- So the stored block's entry (p, q) is the update's entry i, whenever row p of each row block is row i 0 of its array,
    the weights are the whole weight arrays, the bias the whole bias, and q is i 1. -/
theorem stored_eq_update (x0 : FVec Ideal S4000x64 .f32) (x1 : FVec Ideal S64x64 .f32) (x3 : FVec Ideal S4000x64 .f32) (x4 : FVec Ideal S64x64 .f32)
    (x2 : FVec Ideal S64 .f32) (msg : Mat 100000 64) (w : Mat 64 64) (b : Row 64) (x : Mat 100000 64) (r : Mat 64 64)
    (p : Fin 4000) (q : Fin 64) (i : (⟨2, ![100000, 64]⟩ : Shape).Idx)
    (h0 : ∀ k : Fin 64, x0 (ix2 p k) = msg (ix2 (n0 := 100000) (n1 := 64) (i 0) k))
    (h1 : ∀ k : Fin 64, x1 (ix2 k q) = w (ix2 (n0 := 64) (n1 := 64) k (i 1)))
    (h2 : x2 (ix1 q) = b (ix1 (n := 64) (i 1)))
    (h3 : ∀ k : Fin 64, x3 (ix2 p k) = x (ix2 (n0 := 100000) (n1 := 64) (i 0) k))
    (h4 : ∀ k : Fin 64, x4 (ix2 k q) = r (ix2 (n0 := 64) (n1 := 64) k (i 1))) :
    k4_pay1 (F := Ideal) x0 x1 x3 x4 x2 (ix2 p q) = Cert.Net.conv1 msg w b x r i := by
  rw [stored_entry]
  show Ideal.tanh _ = Ideal.tanh (((∑ k : Fin 64, msg (ix2 (n0 := 100000) (n1 := 64) (i 0) k) * w (ix2 (n0 := 64) (n1 := 64) k (i 1))) + b (ix1 (n := 64) (i 1)))
      + ∑ k : Fin 64, x (ix2 (n0 := 100000) (n1 := 64) (i 0) k) * r (ix2 (n0 := 64) (n1 := 64) k (i 1)))
  exact congrArg Ideal.tanh (congrArg₂ (· + ·)
    (congrArg₂ (· + ·) (Finset.sum_congr rfl fun k _ => congrArg₂ (· * ·) (h0 k) (h1 k)) h2)
    (Finset.sum_congr rfl fun k _ => congrArg₂ (· * ·) (h3 k) (h4 k)))

/-! ## From blocks to the array -/

theorem hz : (![0, 0] : Fin 2 → Nat) = fun _ => 0 := funext fun a => by fin_cases a <;> rfl
theorem hz1 : (![0] : Fin 1 → Nat) = fun _ => 0 := funext fun a => by fin_cases a; rfl

/-- The block indices over the grid: the three row-blocked windows (messages, features, result) are at row block t and
    column block 0 at point t; the weights and the bias are at block 0 everywhere. -/
theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b))

/-- Row p of the message block at point t is the row of the message array that the result's block has at p: row 4000 t + p. -/
theorem read0 (c : Dev nD) (t : Fin cfg4.N) (p : Fin 4000) (q k : Fin 64) :
    iblk4 V c 0 t (ix2 p k) = V c main_v61 (ix2 ((((cfg4.win 5).blk t).view.emb (ix2 p q)) 0) k) := by
  obtain ⟨e00, e01, e10, e11, e20, e30, e31, e40, e41, e50, e51⟩ := block_indices t
  show V c main_v61 (((cfg4.win 0).blk t).view.emb (ix2 p k)) = _
  refine congrArg _ (funext fun a => Fin.ext ?_)
  match a with
  | ⟨0, _⟩ => show win4_0.index t (0 : Fin 2) * 4000 + 1 * p.val = win4_5.index t (0 : Fin 2) * 4000 + 1 * p.val; rw [e00, e50]
  | ⟨1, _⟩ => show win4_0.index t (1 : Fin 2) * 64 + 1 * k.val = k.val; rw [e01]; omega

/-- The weight block at every point is the weight array; the result's block keeps the column. -/
theorem read1 (c : Dev nD) (t : Fin cfg4.N) (p : Fin 4000) (q k : Fin 64) :
    iblk4 V c 1 t (ix2 k q) = V c main_arg21 (ix2 k ((((cfg4.win 5).blk t).view.emb (ix2 p q)) 1)) := by
  obtain ⟨e00, e01, e10, e11, e20, e30, e31, e40, e41, e50, e51⟩ := block_indices t
  show V c main_arg21 (((cfg4.win 1).blk t).view.emb (ix2 k q)) = _
  refine congrArg _ (funext fun a => Fin.ext ?_)
  match a with
  | ⟨0, _⟩ => show win4_1.index t (0 : Fin 2) * 64 + 1 * k.val = k.val; rw [e10]; omega
  | ⟨1, _⟩ => show win4_1.index t (1 : Fin 2) * 64 + 1 * q.val = win4_5.index t (1 : Fin 2) * 64 + 1 * q.val; rw [e11, e51]

/-- The bias block at every point is the bias array; the result's block keeps the column. -/
theorem read2 (c : Dev nD) (t : Fin cfg4.N) (p : Fin 4000) (q : Fin 64) :
    iblk4 V c 2 t (ix1 q) = V c main_arg22 (ix1 ((((cfg4.win 5).blk t).view.emb (ix2 p q)) 1)) := by
  obtain ⟨e00, e01, e10, e11, e20, e30, e31, e40, e41, e50, e51⟩ := block_indices t
  show V c main_arg22 (((cfg4.win 2).blk t).view.emb (ix1 q)) = _
  refine congrArg _ (funext fun a => Fin.ext ?_)
  match a with
  | ⟨0, _⟩ => show win4_2.index t (0 : Fin 1) * 64 + 1 * q.val = win4_5.index t (1 : Fin 2) * 64 + 1 * q.val; rw [e20, e51]

/-- Row p of the feature block at point t is the row of the feature array that the result's block has at p: row 4000 t + p. -/
theorem read3 (c : Dev nD) (t : Fin cfg4.N) (p : Fin 4000) (q k : Fin 64) :
    iblk4 V c 3 t (ix2 p k) = V c main_v16 (ix2 ((((cfg4.win 5).blk t).view.emb (ix2 p q)) 0) k) := by
  obtain ⟨e00, e01, e10, e11, e20, e30, e31, e40, e41, e50, e51⟩ := block_indices t
  show V c main_v16 (((cfg4.win 3).blk t).view.emb (ix2 p k)) = _
  refine congrArg _ (funext fun a => Fin.ext ?_)
  match a with
  | ⟨0, _⟩ => show win4_3.index t (0 : Fin 2) * 4000 + 1 * p.val = win4_5.index t (0 : Fin 2) * 4000 + 1 * p.val; rw [e30, e50]
  | ⟨1, _⟩ => show win4_3.index t (1 : Fin 2) * 64 + 1 * k.val = k.val; rw [e31]; omega

/-- The root weight block at every point is the root weight array; the result's block keeps the column. -/
theorem read4 (c : Dev nD) (t : Fin cfg4.N) (p : Fin 4000) (q k : Fin 64) :
    iblk4 V c 4 t (ix2 k q) = V c main_arg23 (ix2 k ((((cfg4.win 5).blk t).view.emb (ix2 p q)) 1)) := by
  obtain ⟨e00, e01, e10, e11, e20, e30, e31, e40, e41, e50, e51⟩ := block_indices t
  show V c main_arg23 (((cfg4.win 4).blk t).view.emb (ix2 k q)) = _
  refine congrArg _ (funext fun a => Fin.ext ?_)
  match a with
  | ⟨0, _⟩ => show win4_4.index t (0 : Fin 2) * 64 + 1 * k.val = k.val; rw [e40]; omega
  | ⟨1, _⟩ => show win4_4.index t (1 : Fin 2) * 64 + 1 * q.val = win4_5.index t (1 : Fin 2) * 64 + 1 * q.val; rw [e41, e51]

/-- What point t writes back is block t of the update of the five arrays as the region finds them. -/
theorem flushed_eq (c : Dev nD) (t : Fin cfg4.N) :
    (dat4 (F := Ideal) V c).flushed 5 t = ((cfg4.win 5).blk t).view.read (Elt Ideal)
      (Cert.Net.conv1 (V c main_v61) (V c main_arg21) (V c main_arg22) (V c main_v16) (V c main_arg23)) := by
  show (cfg4.win 5).cut (grid4.coords t) ((dat4 V c).after 5 t) = _
  rw [after4_5]
  unfold out4_5
  rw [View.canon_unit_zero hz]
  simp only [View.ld_unit_zero (S := S4000x64) hz, View.ld_unit_zero (S := S64x64) hz, View.ld_unit_zero (S := S64) hz1]
  funext j
  obtain ⟨p, q, rfl⟩ : ∃ (p : Fin 4000) (q : Fin 64), j = ix2 p q := ⟨j 0, j 1, eq_ix2 j⟩
  show k4_pay1 (F := Ideal) (iblk4 V c 0 t) (iblk4 V c 1 t) (iblk4 V c 3 t) (iblk4 V c 4 t) (iblk4 V c 2 t) (ix2 p q)
    = Cert.Net.conv1 (V c main_v61) (V c main_arg21) (V c main_arg22) (V c main_v16) (V c main_arg23) (((cfg4.win 5).blk t).view.emb (ix2 p q))
  exact stored_eq_update _ _ _ _ _ _ _ _ _ _ p q _ (fun k => read0 V c t p q k) (fun k => read1 V c t p q k) (read2 V c t p q)
    (fun k => read3 V c t p q k) (fun k => read4 V c t p q k)

/-- An index of the result array is in point t's block iff each coordinate is in the block's range on its axis. -/
theorem mem_blk (t : Fin cfg4.N) (i : S100000x64.Idx) :
    i ∈ ((cfg4.win 5).blk t).view.set ↔ ∀ a : Fin 2, win4_5.index t a * S4000x64.size a ≤ (i a).val ∧ (i a).val < win4_5.index t a * S4000x64.size a + S4000x64.size a := by
  show i ∈ ((View.whole main_v62).slice (win4_5.rect t)).set ↔ _
  rw [View.set_slice_whole, Rect.mem_set_unit]
  exact Iff.rfl

/-- The 25 row blocks tile the 100000 rows: row r is in the block of point r / 4000. -/
theorem covered (i : S100000x64.Idx) : ∃ t : Fin cfg4.N, (cfg4.win 5).flush t = true ∧ i ∈ ((cfg4.win 5).blk t).view.set := by
  have hN : cfg4.N = 25 := N_4
  have hi0 : (i 0).val < 100000 := idx2_lt0 i
  have hi1 : (i 1).val < 64 := idx2_lt1 i
  obtain ⟨t, ht⟩ : ∃ t : Fin cfg4.N, t.val = (i 0).val / 4000 := ⟨⟨(i 0).val / 4000, Nat.lt_of_lt_of_eq (by omega) hN.symm⟩, rfl⟩
  obtain ⟨-, -, -, -, -, -, -, -, -, e50, e51⟩ := block_indices t
  refine ⟨t, flush4_5 t, ?_⟩
  rw [mem_blk]
  intro a
  match a with
  | ⟨0, _⟩ => show win4_5.index t (0 : Fin 2) * 4000 ≤ (i 0).val ∧ (i 0).val < win4_5.index t (0 : Fin 2) * 4000 + 4000; rw [e50, ht]; omega
  | ⟨1, _⟩ => show win4_5.index t (1 : Fin 2) * 64 ≤ (i 1).val ∧ (i 1).val < win4_5.index t (1 : Fin 2) * 64 + 64; rw [e51]; omega

/-- The array the region leaves: the one-relation update of the five arrays it found. -/
theorem final (c : Dev nD) :
    (dat4 (F := Ideal) V c).arrAt 5 cfg4.N
      = Cert.Net.conv1 (V c main_v61) (V c main_arg21) (V c main_arg22) (V c main_v16) (V c main_arg23) :=
  (dat4 (F := Ideal) V c).arrAt_eq_of_cover 5 _ (fun t _ => flushed_eq V c t) covered

end Cert.KernelIdeal.Region4

end
-- ==== Proof.Region5.lean ====
/-
  The second layer's two-relation update, read off the kernel's region index by index.

  The region walks the node array in blocks of 4000 rows.  At a block it holds 4000 rows of each of the two message arrays
  and of the node features, the three 64 x 64 weight matrices and the bias, and it stores

      tanh (((msg₁_block · w₁ + msg₂_block · w₂) + b) + x_block · r)

  over the block.  Entry (p, q) of that block depends on row p of the three row blocks only; row p of block t is row
  4000 t + p of the whole array, the weights and the bias are the same at every block, and the 75 blocks tile the
  300000 rows.  So the array the region leaves is Cert.Net.conv2Fused of the seven arrays the region found.
-/
import proofs.«157873_j19705309954765_1_alg».proof.Proof.Gen.KernelIdeal.Frame
import proofs.«157873_j19705309954765_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region5

open Cert.KernelIdeal Cert.KernelIdeal.Gen Idealize.ShloMosaic Idealize.ShloMosaic.TcCoe Idealize.SL.Sem Idealize.ShloMosaic.ValueIdx
open Idealize.ShloMosaic.Pipeline (Dat)
open Cert.Net (Mat Row)

/-! ## One entry of a block of rows times a weight matrix -/

/-- The left operand's row is the output's row … -/
theorem lhs_row (i : S4000x64.Idx) (k : dot_S4000x64_S64x64_S4000x64_1_0_0_1_n_n.contr.Idx) :
    (dot_S4000x64_S64x64_S4000x64_1_0_0_1_n_n.lhsIdx i k 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- … its column the summation index … -/
theorem lhs_col (i : S4000x64.Idx) (k : dot_S4000x64_S64x64_S4000x64_1_0_0_1_n_n.contr.Idx) :
    (dot_S4000x64_S64x64_S4000x64_1_0_0_1_n_n.lhsIdx i k 1).val = (k ⟨0, by decide⟩).val :=
  dot_S4000x64_S64x64_S4000x64_1_0_0_1_n_n.lhsIdx_val_of_single rfl i k
/-- … the right operand's row the summation index … -/
theorem rhs_row (i : S4000x64.Idx) (k : dot_S4000x64_S64x64_S4000x64_1_0_0_1_n_n.contr.Idx) :
    (dot_S4000x64_S64x64_S4000x64_1_0_0_1_n_n.rhsIdx i k 0).val = (k ⟨0, by decide⟩).val :=
  dot_S4000x64_S64x64_S4000x64_1_0_0_1_n_n.rhsIdx_val_of_single rfl i k
/-- … and its column the output's column. -/
theorem rhs_col (i : S4000x64.Idx) (k : dot_S4000x64_S64x64_S4000x64_1_0_0_1_n_n.contr.Idx) :
    (dot_S4000x64_S64x64_S4000x64_1_0_0_1_n_n.rhsIdx i k 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- Entry (p, q) of a 4000 x 64 block times a 64 x 64 matrix, accumulated into zero: the sum over k of l (p, k) · r (k, q). -/
theorem product_entry (l : FVec Ideal S4000x64 .bf16) (r : FVec Ideal S64x64 .bf16) (p : Fin 4000) (q : Fin 64) :
    matmul dot_S4000x64_S64x64_S4000x64_1_0_0_1_n_n none l r (constant (F := Ideal) S4000x64 .f32 0x00000000#32) (ix2 p q)
      = ∑ k : Fin 64, l (ix2 p k) * r (ix2 k q) := by
  show FloatOps.matmul dot_S4000x64_S64x64_S4000x64_1_0_0_1_n_n none l r (constant (F := Ideal) S4000x64 .f32 0x00000000#32) (ix2 p q) = _
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_row _ _
    | ⟨1, _⟩ => exact (lhs_col _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The bias laid along every row: entry (p, q) is b q. -/
theorem bias_entry (b : FVec Ideal S64 .f32) (h1 : S64.ShapeCasts S1x64) (h2 : S1x64.Broadcasts S4000x64) (p : Fin 4000) (q : Fin 64) :
    broadcastTo S4000x64 (shapeCast S1x64 b h1) h2 (ix2 p q) = b (ix1 q) :=
  (broadcastTo_1b_ab_apply (shapeCast S1x64 b h1) h2 p q).trans (shapeCast_a_1a_apply b h1 0 q)

/-! ## What the body stores, at an entry -/

/-- Entry (p, q) of the stored block: tanh of row p of each message block times column q of its weight, plus the bias at q,
    plus row p of the feature block times column q of the root weight.  The blocks are named by their windows,
    x0 … x6: messages, weight, messages, weight, bias, features, root weight. -/
theorem stored_entry (x0 : FVec Ideal S4000x64 .f32) (x1 : FVec Ideal S64x64 .f32) (x2 : FVec Ideal S4000x64 .f32) (x3 : FVec Ideal S64x64 .f32)
    (x5 : FVec Ideal S4000x64 .f32) (x6 : FVec Ideal S64x64 .f32) (x4 : FVec Ideal S64 .f32) (p : Fin 4000) (q : Fin 64) :
    k5_pay1 (F := Ideal) x0 x1 x2 x3 x5 x6 x4 (ix2 p q)
      = Ideal.tanh ((((∑ k : Fin 64, x0 (ix2 p k) * x1 (ix2 k q)) + ∑ k : Fin 64, x2 (ix2 p k) * x3 (ix2 k q)) + x4 (ix1 q))
          + ∑ k : Fin 64, x5 (ix2 p k) * x6 (ix2 k q)) := by
  unfold k5_pay1
  simp only [shapeCast_self]
  show Ideal.tanh (((matmul dot_S4000x64_S64x64_S4000x64_1_0_0_1_n_n none (truncf (φ := .f32) .bf16 x0 _) (truncf (φ := .f32) .bf16 x1 _) (constant (F := Ideal) S4000x64 .f32 0x00000000#32) (ix2 p q)
          + matmul dot_S4000x64_S64x64_S4000x64_1_0_0_1_n_n none (truncf (φ := .f32) .bf16 x2 _) (truncf (φ := .f32) .bf16 x3 _) (constant (F := Ideal) S4000x64 .f32 0x00000000#32) (ix2 p q))
        + broadcastTo S4000x64 (shapeCast S1x64 x4 _) _ (ix2 p q))
      + matmul dot_S4000x64_S64x64_S4000x64_1_0_0_1_n_n none (truncf (φ := .f32) .bf16 x5 _) (truncf (φ := .f32) .bf16 x6 _) (constant (F := Ideal) S4000x64 .f32 0x00000000#32) (ix2 p q)) = _
  rw [product_entry, product_entry, product_entry, bias_entry]
  rfl

/-- So the stored block's entry (p, q) is the update's entry i, whenever row p of each row block is row i 0 of its array,
    the weights are the whole weight arrays, the bias the whole bias, and q is i 1. -/
theorem stored_eq_update (x0 : FVec Ideal S4000x64 .f32) (x1 : FVec Ideal S64x64 .f32) (x2 : FVec Ideal S4000x64 .f32) (x3 : FVec Ideal S64x64 .f32)
    (x5 : FVec Ideal S4000x64 .f32) (x6 : FVec Ideal S64x64 .f32) (x4 : FVec Ideal S64 .f32)
    (msg₁ : Mat 300000 64) (w₁ : Mat 64 64) (msg₂ : Mat 300000 64) (w₂ : Mat 64 64) (b : Row 64) (x : Mat 300000 64) (r : Mat 64 64)
    (p : Fin 4000) (q : Fin 64) (i : (⟨2, ![300000, 64]⟩ : Shape).Idx)
    (h0 : ∀ k : Fin 64, x0 (ix2 p k) = msg₁ (ix2 (n0 := 300000) (n1 := 64) (i 0) k))
    (h1 : ∀ k : Fin 64, x1 (ix2 k q) = w₁ (ix2 (n0 := 64) (n1 := 64) k (i 1)))
    (h2 : ∀ k : Fin 64, x2 (ix2 p k) = msg₂ (ix2 (n0 := 300000) (n1 := 64) (i 0) k))
    (h3 : ∀ k : Fin 64, x3 (ix2 k q) = w₂ (ix2 (n0 := 64) (n1 := 64) k (i 1)))
    (h4 : x4 (ix1 q) = b (ix1 (n := 64) (i 1)))
    (h5 : ∀ k : Fin 64, x5 (ix2 p k) = x (ix2 (n0 := 300000) (n1 := 64) (i 0) k))
    (h6 : ∀ k : Fin 64, x6 (ix2 k q) = r (ix2 (n0 := 64) (n1 := 64) k (i 1))) :
    k5_pay1 (F := Ideal) x0 x1 x2 x3 x5 x6 x4 (ix2 p q) = Cert.Net.conv2Fused msg₁ w₁ msg₂ w₂ b x r i := by
  rw [stored_entry]
  show Ideal.tanh _ = Ideal.tanh ((((∑ k : Fin 64, msg₁ (ix2 (n0 := 300000) (n1 := 64) (i 0) k) * w₁ (ix2 (n0 := 64) (n1 := 64) k (i 1)))
        + ∑ k : Fin 64, msg₂ (ix2 (n0 := 300000) (n1 := 64) (i 0) k) * w₂ (ix2 (n0 := 64) (n1 := 64) k (i 1))) + b (ix1 (n := 64) (i 1)))
      + ∑ k : Fin 64, x (ix2 (n0 := 300000) (n1 := 64) (i 0) k) * r (ix2 (n0 := 64) (n1 := 64) k (i 1)))
  exact congrArg Ideal.tanh (congrArg₂ (· + ·)
    (congrArg₂ (· + ·)
      (congrArg₂ (· + ·) (Finset.sum_congr rfl fun k _ => congrArg₂ (· * ·) (h0 k) (h1 k))
        (Finset.sum_congr rfl fun k _ => congrArg₂ (· * ·) (h2 k) (h3 k))) h4)
    (Finset.sum_congr rfl fun k _ => congrArg₂ (· * ·) (h5 k) (h6 k)))

/-! ## From blocks to the array -/

theorem hz : (![0, 0] : Fin 2 → Nat) = fun _ => 0 := funext fun a => by fin_cases a <;> rfl
theorem hz1 : (![0] : Fin 1 → Nat) = fun _ => 0 := funext fun a => by fin_cases a; rfl

/-- The block indices over the grid: the four row-blocked windows (both message arrays, features, result) are at row
    block t and column block 0 at point t; the weights and the bias are at block 0 everywhere. -/
theorem block_indices : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

variable (V : (c : Dev nD) → (b : Ref sig .tc) → Buf (Elt Ideal) ((c : Thread nD τ).loc b))

/-- Row p of the first message block at point t is the row of the first message array that the result's block has at p: row 4000 t + p. -/
theorem read0 (c : Dev nD) (t : Fin cfg5.N) (p : Fin 4000) (q k : Fin 64) :
    iblk5 V c 0 t (ix2 p k) = V c main_v76 (ix2 ((((cfg5.win 7).blk t).view.emb (ix2 p q)) 0) k) := by
  obtain ⟨e00, e01, e10, e11, e20, e21, e30, e31, e40, e50, e51, e60, e61, e70, e71⟩ := block_indices t
  show V c main_v76 (((cfg5.win 0).blk t).view.emb (ix2 p k)) = _
  refine congrArg _ (funext fun a => Fin.ext ?_)
  match a with
  | ⟨0, _⟩ => show win5_0.index t (0 : Fin 2) * 4000 + 1 * p.val = win5_7.index t (0 : Fin 2) * 4000 + 1 * p.val; rw [e00, e70]
  | ⟨1, _⟩ => show win5_0.index t (1 : Fin 2) * 64 + 1 * k.val = k.val; rw [e01]; omega

/-- The first weight block at every point is the first weight array; the result's block keeps the column. -/
theorem read1 (c : Dev nD) (t : Fin cfg5.N) (p : Fin 4000) (q k : Fin 64) :
    iblk5 V c 1 t (ix2 k q) = V c main_arg18 (ix2 k ((((cfg5.win 7).blk t).view.emb (ix2 p q)) 1)) := by
  obtain ⟨e00, e01, e10, e11, e20, e21, e30, e31, e40, e50, e51, e60, e61, e70, e71⟩ := block_indices t
  show V c main_arg18 (((cfg5.win 1).blk t).view.emb (ix2 k q)) = _
  refine congrArg _ (funext fun a => Fin.ext ?_)
  match a with
  | ⟨0, _⟩ => show win5_1.index t (0 : Fin 2) * 64 + 1 * k.val = k.val; rw [e10]; omega
  | ⟨1, _⟩ => show win5_1.index t (1 : Fin 2) * 64 + 1 * q.val = win5_7.index t (1 : Fin 2) * 64 + 1 * q.val; rw [e11, e71]

/-- Row p of the second message block at point t is the row of the second message array that the result's block has at p: row 4000 t + p. -/
theorem read2 (c : Dev nD) (t : Fin cfg5.N) (p : Fin 4000) (q k : Fin 64) :
    iblk5 V c 2 t (ix2 p k) = V c main_v90 (ix2 ((((cfg5.win 7).blk t).view.emb (ix2 p q)) 0) k) := by
  obtain ⟨e00, e01, e10, e11, e20, e21, e30, e31, e40, e50, e51, e60, e61, e70, e71⟩ := block_indices t
  show V c main_v90 (((cfg5.win 2).blk t).view.emb (ix2 p k)) = _
  refine congrArg _ (funext fun a => Fin.ext ?_)
  match a with
  | ⟨0, _⟩ => show win5_2.index t (0 : Fin 2) * 4000 + 1 * p.val = win5_7.index t (0 : Fin 2) * 4000 + 1 * p.val; rw [e20, e70]
  | ⟨1, _⟩ => show win5_2.index t (1 : Fin 2) * 64 + 1 * k.val = k.val; rw [e21]; omega

/-- The second weight block at every point is the second weight array; the result's block keeps the column. -/
theorem read3 (c : Dev nD) (t : Fin cfg5.N) (p : Fin 4000) (q k : Fin 64) :
    iblk5 V c 3 t (ix2 k q) = V c main_arg24 (ix2 k ((((cfg5.win 7).blk t).view.emb (ix2 p q)) 1)) := by
  obtain ⟨e00, e01, e10, e11, e20, e21, e30, e31, e40, e50, e51, e60, e61, e70, e71⟩ := block_indices t
  show V c main_arg24 (((cfg5.win 3).blk t).view.emb (ix2 k q)) = _
  refine congrArg _ (funext fun a => Fin.ext ?_)
  match a with
  | ⟨0, _⟩ => show win5_3.index t (0 : Fin 2) * 64 + 1 * k.val = k.val; rw [e30]; omega
  | ⟨1, _⟩ => show win5_3.index t (1 : Fin 2) * 64 + 1 * q.val = win5_7.index t (1 : Fin 2) * 64 + 1 * q.val; rw [e31, e71]

/-- The bias block at every point is the bias array; the result's block keeps the column. -/
theorem read4 (c : Dev nD) (t : Fin cfg5.N) (p : Fin 4000) (q : Fin 64) :
    iblk5 V c 4 t (ix1 q) = V c main_v91 (ix1 ((((cfg5.win 7).blk t).view.emb (ix2 p q)) 1)) := by
  obtain ⟨e00, e01, e10, e11, e20, e21, e30, e31, e40, e50, e51, e60, e61, e70, e71⟩ := block_indices t
  show V c main_v91 (((cfg5.win 4).blk t).view.emb (ix1 q)) = _
  refine congrArg _ (funext fun a => Fin.ext ?_)
  match a with
  | ⟨0, _⟩ => show win5_4.index t (0 : Fin 1) * 64 + 1 * q.val = win5_7.index t (1 : Fin 2) * 64 + 1 * q.val; rw [e40, e71]

/-- Row p of the feature block at point t is the row of the feature array that the result's block has at p: row 4000 t + p. -/
theorem read5 (c : Dev nD) (t : Fin cfg5.N) (p : Fin 4000) (q k : Fin 64) :
    iblk5 V c 5 t (ix2 p k) = V c main_v47 (ix2 ((((cfg5.win 7).blk t).view.emb (ix2 p q)) 0) k) := by
  obtain ⟨e00, e01, e10, e11, e20, e21, e30, e31, e40, e50, e51, e60, e61, e70, e71⟩ := block_indices t
  show V c main_v47 (((cfg5.win 5).blk t).view.emb (ix2 p k)) = _
  refine congrArg _ (funext fun a => Fin.ext ?_)
  match a with
  | ⟨0, _⟩ => show win5_5.index t (0 : Fin 2) * 4000 + 1 * p.val = win5_7.index t (0 : Fin 2) * 4000 + 1 * p.val; rw [e50, e70]
  | ⟨1, _⟩ => show win5_5.index t (1 : Fin 2) * 64 + 1 * k.val = k.val; rw [e51]; omega

/-- The root weight block at every point is the root weight array; the result's block keeps the column. -/
theorem read6 (c : Dev nD) (t : Fin cfg5.N) (p : Fin 4000) (q k : Fin 64) :
    iblk5 V c 6 t (ix2 k q) = V c main_v92 (ix2 k ((((cfg5.win 7).blk t).view.emb (ix2 p q)) 1)) := by
  obtain ⟨e00, e01, e10, e11, e20, e21, e30, e31, e40, e50, e51, e60, e61, e70, e71⟩ := block_indices t
  show V c main_v92 (((cfg5.win 6).blk t).view.emb (ix2 k q)) = _
  refine congrArg _ (funext fun a => Fin.ext ?_)
  match a with
  | ⟨0, _⟩ => show win5_6.index t (0 : Fin 2) * 64 + 1 * k.val = k.val; rw [e60]; omega
  | ⟨1, _⟩ => show win5_6.index t (1 : Fin 2) * 64 + 1 * q.val = win5_7.index t (1 : Fin 2) * 64 + 1 * q.val; rw [e61, e71]

/-- What point t writes back is block t of the update of the seven arrays as the region finds them. -/
theorem flushed_eq (c : Dev nD) (t : Fin cfg5.N) :
    (dat5 (F := Ideal) V c).flushed 7 t = ((cfg5.win 7).blk t).view.read (Elt Ideal)
      (Cert.Net.conv2Fused (V c main_v76) (V c main_arg18) (V c main_v90) (V c main_arg24) (V c main_v91) (V c main_v47) (V c main_v92)) := by
  show (cfg5.win 7).cut (grid5.coords t) ((dat5 V c).after 7 t) = _
  rw [after5_7]
  unfold out5_7
  rw [View.canon_unit_zero hz]
  simp only [View.ld_unit_zero (S := S4000x64) hz, View.ld_unit_zero (S := S64x64) hz, View.ld_unit_zero (S := S64) hz1]
  funext j
  obtain ⟨p, q, rfl⟩ : ∃ (p : Fin 4000) (q : Fin 64), j = ix2 p q := ⟨j 0, j 1, eq_ix2 j⟩
  show k5_pay1 (F := Ideal) (iblk5 V c 0 t) (iblk5 V c 1 t) (iblk5 V c 2 t) (iblk5 V c 3 t) (iblk5 V c 5 t) (iblk5 V c 6 t) (iblk5 V c 4 t) (ix2 p q)
    = Cert.Net.conv2Fused (V c main_v76) (V c main_arg18) (V c main_v90) (V c main_arg24) (V c main_v91) (V c main_v47) (V c main_v92) (((cfg5.win 7).blk t).view.emb (ix2 p q))
  exact stored_eq_update _ _ _ _ _ _ _ _ _ _ _ _ _ _ p q _ (fun k => read0 V c t p q k) (fun k => read1 V c t p q k) (fun k => read2 V c t p q k)
    (fun k => read3 V c t p q k) (read4 V c t p q) (fun k => read5 V c t p q k) (fun k => read6 V c t p q k)

/-- An index of the result array is in point t's block iff each coordinate is in the block's range on its axis. -/
theorem mem_blk (t : Fin cfg5.N) (i : S300000x64.Idx) :
    i ∈ ((cfg5.win 7).blk t).view.set ↔ ∀ a : Fin 2, win5_7.index t a * S4000x64.size a ≤ (i a).val ∧ (i a).val < win5_7.index t a * S4000x64.size a + S4000x64.size a := by
  show i ∈ ((View.whole main_v93).slice (win5_7.rect t)).set ↔ _
  rw [View.set_slice_whole, Rect.mem_set_unit]
  exact Iff.rfl

/-- The 75 row blocks tile the 300000 rows: row r is in the block of point r / 4000. -/
theorem covered (i : S300000x64.Idx) : ∃ t : Fin cfg5.N, (cfg5.win 7).flush t = true ∧ i ∈ ((cfg5.win 7).blk t).view.set := by
  have hN : cfg5.N = 75 := N_5
  have hi0 : (i 0).val < 300000 := idx2_lt0 i
  have hi1 : (i 1).val < 64 := idx2_lt1 i
  obtain ⟨t, ht⟩ : ∃ t : Fin cfg5.N, t.val = (i 0).val / 4000 := ⟨⟨(i 0).val / 4000, Nat.lt_of_lt_of_eq (by omega) hN.symm⟩, rfl⟩
  obtain ⟨-, -, -, -, -, -, -, -, -, -, -, -, -, e70, e71⟩ := block_indices t
  refine ⟨t, flush5_7 t, ?_⟩
  rw [mem_blk]
  intro a
  match a with
  | ⟨0, _⟩ => show win5_7.index t (0 : Fin 2) * 4000 ≤ (i 0).val ∧ (i 0).val < win5_7.index t (0 : Fin 2) * 4000 + 4000; rw [e70, ht]; omega
  | ⟨1, _⟩ => show win5_7.index t (1 : Fin 2) * 64 ≤ (i 1).val ∧ (i 1).val < win5_7.index t (1 : Fin 2) * 64 + 64; rw [e71]; omega

/-- The array the region leaves: the two-relation update, in its fused form, of the seven arrays it found. -/
theorem final (c : Dev nD) :
    (dat5 (F := Ideal) V c).arrAt 7 cfg5.N
      = Cert.Net.conv2Fused (V c main_v76) (V c main_arg18) (V c main_v90) (V c main_arg24) (V c main_v91) (V c main_v47) (V c main_v92) :=
  (dat5 (F := Ideal) V c).arrAt_eq_of_cover 7 _ (fun t _ => flushed_eq V c t) covered

end Cert.KernelIdeal.Region5

end
-- ==== Proof.Region6.lean ====
/-
  The output head of the idealized kernel, as one function of the arrays it reads.

  The head reads the node features h (100000 rows of 64), a weight w (64 × 16) and a bias b (16).  Its hidden value is
  tanh (h · w + b), sixteen columns: entry (r, q) is tanh (∑ j, h (r, j) · w (j, q) + b q).  The first eight columns
  are the location; the last eight, shifted by a constant and passed through softplus, are the scale.

  The rows are handled in 25 blocks of 4000: point t of the grid reads rows 4000 t … 4000 t + 3999 of the features
  together with the whole weight and the whole bias, and writes back rows 4000 t … 4000 t + 3999 of each output.  An
  entry of an output depends on one row of the features only, so each block written back is a block of ONE function of
  the whole arrays, and the blocks tile the outputs: row r lies in the block of point r / 4000.

  On the extended reals the narrowing of the operands before the product is the identity, the product into a zero
  accumulator is the plain sum, and the body's softplus — a selection between the shifted value s itself, taken where
  s compares "ordered and different" from itself, and max (s, 0) + log1p (exp (-|s|)) — always takes the second
  form, since no extended real differs from itself.
-/
import proofs.«157873_j19705309954765_1_alg».proof.Proof.Gen.KernelIdeal.Frame
import proofs.«157873_j19705309954765_1_alg».proof.Proof.Spec
import Idealize.ShloMosaic.Lib.Pipeline.Value
import Idealize.ShloMosaic.Lib.ValueIdx
import Idealize.ShloMosaic.PureOps.Ideal.Laws

noncomputable section

namespace Cert.KernelIdeal.Region6

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at an index

A block of the head is 4000 rows.  Over a block `x` of node features (4000 × 64), the weight `w` (64 × 16) and the
bias `b` (16), the body's hidden value at row `p`, column `q` is `tanh (∑ j, x (p, j) · w (j, q) + b q)`: the
contraction runs over the features' 64 columns, the bias is laid along every row. -/

/-- The product's left operand is read at the output's row … -/
theorem dot_lhs_row (i : S4000x16.Idx) (k : dot_S4000x64_S64x16_S4000x16_1_0_0_1_n_n.contr.Idx) :
    (dot_S4000x64_S64x16_S4000x16_1_0_0_1_n_n.lhsIdx i k 0).val = (i 0).val := by
  unfold DotDims.lhsIdx
  rw [dif_neg (show ¬(0 : Fin S4000x64.rank) ∈ dot_S4000x64_S64x16_S4000x16_1_0_0_1_n_n.lhsBatch by decide), dif_pos (show (0 : Fin S4000x64.rank) ∈ dot_S4000x64_S64x16_S4000x16_1_0_0_1_n_n.lhsNonContracting by decide)]
  rfl
/-- … and the contraction's position, -/
theorem dot_lhs_col (i : S4000x16.Idx) (k : dot_S4000x64_S64x16_S4000x16_1_0_0_1_n_n.contr.Idx) :
    (dot_S4000x64_S64x16_S4000x16_1_0_0_1_n_n.lhsIdx i k 1).val = (k ⟨0, by decide⟩).val :=
  dot_S4000x64_S64x16_S4000x16_1_0_0_1_n_n.lhsIdx_val_of_single rfl i k
/-- the right operand at the contraction's position … -/
theorem dot_rhs_row (i : S4000x16.Idx) (k : dot_S4000x64_S64x16_S4000x16_1_0_0_1_n_n.contr.Idx) :
    (dot_S4000x64_S64x16_S4000x16_1_0_0_1_n_n.rhsIdx i k 0).val = (k ⟨0, by decide⟩).val :=
  dot_S4000x64_S64x16_S4000x16_1_0_0_1_n_n.rhsIdx_val_of_single rfl i k
/-- … and the output's column. -/
theorem dot_rhs_col (i : S4000x16.Idx) (k : dot_S4000x64_S64x16_S4000x16_1_0_0_1_n_n.contr.Idx) :
    (dot_S4000x64_S64x16_S4000x16_1_0_0_1_n_n.rhsIdx i k 1).val = (i 1).val := by
  unfold DotDims.rhsIdx
  rw [dif_neg (show ¬(1 : Fin S64x16.rank) ∈ dot_S4000x64_S64x16_S4000x16_1_0_0_1_n_n.rhsBatch by decide), dif_pos (show (1 : Fin S64x16.rank) ∈ dot_S4000x64_S64x16_S4000x16_1_0_0_1_n_n.rhsNonContracting by decide)]
  rfl

/-- The product into a zero accumulator, at row `p` and column `q`: the sum over the 64 features. -/
theorem product_apply {φ₁ φ₂ : FTy} (a : FVec Ideal S4000x64 φ₁) (b : FVec Ideal S64x16 φ₂) (p : Fin 4000) (q : Fin 16) :
    FloatOps.matmul dot_S4000x64_S64x16_S4000x16_1_0_0_1_n_n none a b (constant (F := Ideal) S4000x16 .f32 0x00000000#32) (ix2 p q)
      = ∑ j : Fin 64, a (ix2 p j) * b (ix2 j q) := by
  rw [Ideal.matmul_constant_zero_apply, ← Equiv.sum_comp (ValueIdx.contrEquiv1 dot_S4000x64_S64x16_S4000x16_1_0_0_1_n_n 64 rfl rfl).symm]
  refine Finset.sum_congr rfl fun k _ => ?_
  have hk := ValueIdx.contrEquiv1_symm_val dot_S4000x64_S64x16_S4000x16_1_0_0_1_n_n 64 rfl rfl k
  have el : dot_S4000x64_S64x16_S4000x16_1_0_0_1_n_n.lhsIdx (ix2 p q) ((ValueIdx.contrEquiv1 dot_S4000x64_S64x16_S4000x16_1_0_0_1_n_n 64 rfl rfl).symm k) = ix2 p k := funext fun d => Fin.ext (by
    match d with
    | ⟨0, _⟩ => exact dot_lhs_row _ _
    | ⟨1, _⟩ => exact (dot_lhs_col _ _).trans hk)
  have er : dot_S4000x64_S64x16_S4000x16_1_0_0_1_n_n.rhsIdx (ix2 p q) ((ValueIdx.contrEquiv1 dot_S4000x64_S64x16_S4000x16_1_0_0_1_n_n 64 rfl rfl).symm k) = ix2 k q := funext fun d => Fin.ext (by
    match d with
    | ⟨0, _⟩ => exact (dot_rhs_row _ _).trans hk
    | ⟨1, _⟩ => exact dot_rhs_col _ _)
  rw [el, er]

/-- The bias, viewed as one row and laid along every row of the block, reads its column's entry. -/
theorem bias_apply (b : Vec Ideal S16 .f32) (p : Fin 4000) (q : Fin 16) :
    broadcastTo S4000x16 (shapeCast S1x16 b shapeCasts_S16_S1x16) broadcasts_S1x16_S4000x16 (ix2 p q) = b (ix1 q) := by
  refine (broadcastTo_apply _ broadcasts_S1x16_S4000x16 (ix2 p q) (ix2 (0 : Fin 1) q) fun a => ?_).trans ?_
  · match a with
    | ⟨0, _⟩ => rfl
    | ⟨1, _⟩ => show q.val = if (16 : Nat) = 1 then 0 else q.val; rw [if_neg (by decide)]
  · refine (shapeCast_addUnit_apply ![16] b shapeCasts_S16_S1x16 (ix2 (0 : Fin 1) q)).trans ?_
    exact congrArg b (funext fun d => by match d with | ⟨0, _⟩ => rfl)

/-- The hidden value of the head at row `p`, column `q` of a block. -/
theorem hidden_apply (x : Vec Ideal S4000x64 .f32) (w : Vec Ideal S64x16 .f32) (b : Vec Ideal S16 .f32) (p : Fin 4000) (q : Fin 16) :
    k6_pay1 (F := Ideal) x w b (ix2 p q) = Ideal.tanh ((∑ j : Fin 64, x (ix2 p j) * w (ix2 j q)) + b (ix1 q)) := by
  unfold k6_pay1
  rw [shapeCast_self]
  show Ideal.tanh (FloatOps.matmul dot_S4000x64_S64x16_S4000x16_1_0_0_1_n_n none (truncf .bf16 x bitsLt_bf16_f32) (truncf .bf16 w bitsLt_bf16_f32) (constant (F := Ideal) S4000x16 .f32 0x00000000#32) (ix2 p q)
      + broadcastTo S4000x16 (shapeCast S1x16 b shapeCasts_S16_S1x16) broadcasts_S1x16_S4000x16 (ix2 p q)) = _
  rw [product_apply, bias_apply]
  rfl

/-- The location is the hidden value's first eight columns … -/
theorem loc_apply (x : Vec Ideal S4000x64 .f32) (w : Vec Ideal S64x16 .f32) (b : Vec Ideal S16 .f32) (p : Fin 4000) (q : Fin 8) :
    k6_pay2 (F := Ideal) x w b (ix2 p q) = k6_pay1 (F := Ideal) x w b (ix2 p ⟨q.val, by have := q.isLt; omega⟩) := by
  unfold k6_pay2
  refine extractStridedSlice_apply _ _ slices_S4000x16_o0_0_S4000x8 (ix2 p q) (ix2 p ⟨q.val, by have := q.isLt; omega⟩) fun a => ?_
  match a with
  | ⟨0, _⟩ => show p.val = 0 + p.val; omega
  | ⟨1, _⟩ => show q.val = 0 + q.val; omega

/-- On the extended reals no value is "ordered and different" from itself. -/
theorem cmp_one_self (d : EReal) : Ideal.cmp .one d d = 0#1 := by
  unfold Ideal.cmp
  simp

/-- … and the scale is softplus of the shifted last eight: the body selects between the shifted value itself, where
    it compares different from itself, and `max (s, 0) + log1p (exp (-|s|))`; the comparison never holds. -/
theorem scale_apply (x : Vec Ideal S4000x64 .f32) (w : Vec Ideal S64x16 .f32) (b : Vec Ideal S16 .f32) (p : Fin 4000) (q : Fin 8) :
    k6_pay3 (F := Ideal) x w b (ix2 p q)
      = Cert.Net.softplusShift (k6_pay1 (F := Ideal) x w b (ix2 p ⟨q.val + 8, by have := q.isLt; omega⟩)) := by
  have hs : extractStridedSlice S4000x8 ![0, 8] (k6_pay1 (F := Ideal) x w b) slices_S4000x16_o0_8_S4000x8 (ix2 p q)
      = k6_pay1 (F := Ideal) x w b (ix2 p ⟨q.val + 8, by have := q.isLt; omega⟩) := by
    refine extractStridedSlice_apply _ _ slices_S4000x16_o0_8_S4000x8 (ix2 p q) (ix2 p ⟨q.val + 8, by have := q.isLt; omega⟩) fun a => ?_
    match a with
    | ⟨0, _⟩ => show p.val = 0 + p.val; omega
    | ⟨1, _⟩ => show q.val + 8 = 8 + q.val; omega
  rw [← hs]
  unfold k6_pay3
  refine (select_apply _ _ _ _).trans ?_
  rw [cmpf_apply]
  refine (congrArg (fun c => Scalar.select c _ _) (cmp_one_self _)).trans ?_
  rw [select_zero]
  rfl

/-! ## A block of each output, from blocks of the inputs

With the feature block's row `p` being row `r` of the feature array, and the weight and the bias blocks being the
whole weight and bias, row `p` of the block of each output is row `r` of the head's location or scale. -/

/-- The location block, entry by entry. -/
theorem loc_of_blocks (x : Vec Ideal S4000x64 .f32) (w : Vec Ideal S64x16 .f32) (b : Vec Ideal S16 .f32)
    (H : Cert.Net.Mat 100000 64) (Wt : Cert.Net.Mat 64 16) (Bs : Cert.Net.Row 16) (p : Fin 4000) (q : Fin 8) (r : Fin 100000)
    (hx : ∀ j : Fin 64, x (ix2 p j) = H (ix2 r j)) (hw : ∀ (j : Fin 64) (k : Fin 16), w (ix2 j k) = Wt (ix2 j k))
    (hb : ∀ k : Fin 16, b (ix1 k) = Bs (ix1 k)) :
    k6_pay2 (F := Ideal) x w b (ix2 p q) = Cert.Net.headLoc H Wt Bs (ix2 r q) := by
  rw [loc_apply, hidden_apply]
  unfold Cert.Net.headLoc Cert.Net.head Cert.Net.affine Cert.Net.mm
  refine congrArg Ideal.tanh ?_
  show _ = (∑ j : Fin 64, H (ix2 r j) * Wt (ix2 j ⟨q.val, by have := q.isLt; omega⟩)) + Bs (ix1 ⟨q.val, by have := q.isLt; omega⟩)
  rw [hb]
  exact congrArg (· + _) (Finset.sum_congr rfl fun j _ => by rw [hx, hw])

/-- The scale block, entry by entry. -/
theorem scale_of_blocks (x : Vec Ideal S4000x64 .f32) (w : Vec Ideal S64x16 .f32) (b : Vec Ideal S16 .f32)
    (H : Cert.Net.Mat 100000 64) (Wt : Cert.Net.Mat 64 16) (Bs : Cert.Net.Row 16) (p : Fin 4000) (q : Fin 8) (r : Fin 100000)
    (hx : ∀ j : Fin 64, x (ix2 p j) = H (ix2 r j)) (hw : ∀ (j : Fin 64) (k : Fin 16), w (ix2 j k) = Wt (ix2 j k))
    (hb : ∀ k : Fin 16, b (ix1 k) = Bs (ix1 k)) :
    k6_pay3 (F := Ideal) x w b (ix2 p q) = Cert.Net.headScale H Wt Bs (ix2 r q) := by
  rw [scale_apply, hidden_apply]
  unfold Cert.Net.headScale Cert.Net.head Cert.Net.affine Cert.Net.mm
  refine congrArg Cert.Net.softplusShift (congrArg Ideal.tanh ?_)
  show _ = (∑ j : Fin 64, H (ix2 r j) * Wt (ix2 j ⟨q.val + 8, by have := q.isLt; omega⟩)) + Bs (ix1 ⟨q.val + 8, by have := q.isLt; omega⟩)
  rw [hb]
  exact congrArg (· + _) (Finset.sum_congr rfl fun j _ => by rw [hx, hw])

/-! ## The windows

The grid has 25 points; point `t` handles rows `4000 t … 4000 t + 3999`: its feature block and both of its output
blocks are block `t` along the rows, its weight and bias blocks the whole weight and bias. -/

section Windows

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The block indices of the five windows at every point of the grid, decided over its 25 points. -/
theorem block_index : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- Row `p` of the feature block at point `t` is row `4000 t + p` of the features. -/
theorem features_block (c : Dev nD) (t : Fin cfg6.N) (p : Fin 4000) (j : Fin 64) (r : Fin 100000) (hr : r.val = 4000 * t.val + p.val) :
    (iblk6 V c 0 t : Vec Ideal S4000x64 .f32) (ix2 p j) = (V c main_v62 : Vec Ideal S100000x64 .f32) (ix2 r j) := by
  obtain ⟨e0, e1, -⟩ := block_index t
  unfold iblk6
  rw [View.read_apply]
  show V c main_v62 _ = V c main_v62 _
  congr 1
  funext a
  apply Fin.ext
  match a with
  | ⟨0, _⟩ => show win6_0.index t 0 * 4000 + 1 * p.val = r.val; rw [e0, hr]; omega
  | ⟨1, _⟩ => show win6_0.index t 1 * 64 + 1 * j.val = j.val; rw [e1]; omega

/-- The weight block at every point is the weight. -/
theorem weight_block (c : Dev nD) (t : Fin cfg6.N) (j : Fin 64) (k : Fin 16) :
    (iblk6 V c 1 t : Vec Ideal S64x16 .f32) (ix2 j k) = (V c main_arg27 : Vec Ideal S64x16 .f32) (ix2 j k) := by
  obtain ⟨-, -, e2, e3, -⟩ := block_index t
  unfold iblk6
  rw [View.read_apply]
  show V c main_arg27 _ = V c main_arg27 _
  congr 1
  funext a
  apply Fin.ext
  match a with
  | ⟨0, _⟩ => show win6_1.index t 0 * 64 + 1 * j.val = j.val; rw [e2]; omega
  | ⟨1, _⟩ => show win6_1.index t 1 * 16 + 1 * k.val = k.val; rw [e3]; omega

/-- The bias block at every point is the bias. -/
theorem bias_block (c : Dev nD) (t : Fin cfg6.N) (k : Fin 16) :
    (iblk6 V c 2 t : Vec Ideal S16 .f32) (ix1 k) = (V c main_arg28 : Vec Ideal S16 .f32) (ix1 k) := by
  obtain ⟨-, -, -, -, e4, -⟩ := block_index t
  unfold iblk6
  rw [View.read_apply]
  show V c main_arg28 _ = V c main_arg28 _
  congr 1
  funext a
  apply Fin.ext
  match a with
  | ⟨0, _⟩ => show win6_2.index t 0 * 16 + 1 * k.val = k.val; rw [e4]; omega

end Windows

section Arrays

variable (V : (c : Dev nD) → (b : Ref sig .tc) → Buf (Elt Ideal) ((c : Thread nD τ).loc b))

/-! ## What each point writes back, and the arrays after the region -/

/-- Point `t` writes back block `t` of the head's location of the arrays the region found. -/
theorem flushed_loc (c : Dev nD) (t : Fin cfg6.N) :
    (dat6 (F := Ideal) V c).flushed 3 t
      = ((cfg6.win 3).blk t).view.read (Elt Ideal) (Cert.Net.headLoc (V c main_v62) (V c main_arg27) (V c main_arg28)) := by
  show (cfg6.win 3).cut (grid6.coords t) ((dat6 V c).after 3 t) = _
  rw [after6_3]
  unfold out6_3
  rw [View.canon_unit_zero zeros2]
  simp only [View.ld_unit_zero (S := S4000x64) zeros2, View.ld_unit_zero (S := S64x16) zeros2, View.ld_unit_zero (S := S16) zeros1]
  obtain ⟨-, -, -, -, -, e5, e6, -, -⟩ := block_index t
  funext y
  obtain ⟨p, q, rfl⟩ : ∃ (p : Fin 4000) (q : Fin 8), y = ix2 p q := ⟨y 0, y 1, eq_ix2 y⟩
  have hr : 4000 * t.val + p.val < 100000 := by
    have hN : cfg6.N = 25 := N_6
    have := t.isLt; have := p.isLt; omega
  have hi : ((cfg6.win 3).blk t).view.emb (ix2 p q) = ix2 (n0 := 100000) (n1 := 8) ⟨4000 * t.val + p.val, hr⟩ q := by
    funext a
    apply Fin.ext
    match a with
    | ⟨0, _⟩ => show win6_3.index t (0 : Fin 2) * 4000 + 1 * p.val = 4000 * t.val + p.val; rw [e5]; omega
    | ⟨1, _⟩ => show win6_3.index t (1 : Fin 2) * 8 + 1 * q.val = q.val; rw [e6]; omega
  show k6_pay2 (F := Ideal) (iblk6 V c 0 t) (iblk6 V c 1 t) (iblk6 V c 2 t) (ix2 p q)
    = Cert.Net.headLoc (V c main_v62) (V c main_arg27) (V c main_arg28) (((cfg6.win 3).blk t).view.emb (ix2 p q))
  rw [hi]
  exact loc_of_blocks (iblk6 V c 0 t) (iblk6 V c 1 t) (iblk6 V c 2 t) (V c main_v62) (V c main_arg27) (V c main_arg28) p q
    ⟨4000 * t.val + p.val, hr⟩ (fun j => features_block V c t p j _ rfl) (fun j k => weight_block V c t j k) (fun k => bias_block V c t k)

/-- Point `t` writes back block `t` of the head's scale of the arrays the region found. -/
theorem flushed_scale (c : Dev nD) (t : Fin cfg6.N) :
    (dat6 (F := Ideal) V c).flushed 4 t
      = ((cfg6.win 4).blk t).view.read (Elt Ideal) (Cert.Net.headScale (V c main_v62) (V c main_arg27) (V c main_arg28)) := by
  show (cfg6.win 4).cut (grid6.coords t) ((dat6 V c).after 4 t) = _
  rw [after6_4]
  unfold out6_4
  rw [View.canon_unit_zero zeros2]
  simp only [View.ld_unit_zero (S := S4000x64) zeros2, View.ld_unit_zero (S := S64x16) zeros2, View.ld_unit_zero (S := S16) zeros1]
  obtain ⟨-, -, -, -, -, -, -, e7, e8⟩ := block_index t
  funext y
  obtain ⟨p, q, rfl⟩ : ∃ (p : Fin 4000) (q : Fin 8), y = ix2 p q := ⟨y 0, y 1, eq_ix2 y⟩
  have hr : 4000 * t.val + p.val < 100000 := by
    have hN : cfg6.N = 25 := N_6
    have := t.isLt; have := p.isLt; omega
  have hi : ((cfg6.win 4).blk t).view.emb (ix2 p q) = ix2 (n0 := 100000) (n1 := 8) ⟨4000 * t.val + p.val, hr⟩ q := by
    funext a
    apply Fin.ext
    match a with
    | ⟨0, _⟩ => show win6_4.index t (0 : Fin 2) * 4000 + 1 * p.val = 4000 * t.val + p.val; rw [e7]; omega
    | ⟨1, _⟩ => show win6_4.index t (1 : Fin 2) * 8 + 1 * q.val = q.val; rw [e8]; omega
  show k6_pay3 (F := Ideal) (iblk6 V c 0 t) (iblk6 V c 1 t) (iblk6 V c 2 t) (ix2 p q)
    = Cert.Net.headScale (V c main_v62) (V c main_arg27) (V c main_arg28) (((cfg6.win 4).blk t).view.emb (ix2 p q))
  rw [hi]
  exact scale_of_blocks (iblk6 V c 0 t) (iblk6 V c 1 t) (iblk6 V c 2 t) (V c main_v62) (V c main_arg27) (V c main_arg28) p q
    ⟨4000 * t.val + p.val, hr⟩ (fun j => features_block V c t p j _ rfl) (fun j k => weight_block V c t j k) (fun k => bias_block V c t k)

/-- An index of the location array is in point `t`'s block iff each coordinate is in the block's range on its axis. -/
theorem mem_block_loc (t : Fin cfg6.N) (i : S100000x8.Idx) :
    i ∈ ((cfg6.win 3).blk t).view.set ↔ ∀ a : Fin 2, win6_3.index t a * S4000x8.size a ≤ (i a).val ∧ (i a).val < win6_3.index t a * S4000x8.size a + S4000x8.size a := by
  show i ∈ ((View.whole main_v94_0).slice (win6_3.rect t)).set ↔ _
  rw [View.set_slice_whole, Rect.mem_set_unit]
  exact Iff.rfl

/-- The same for the scale array. -/
theorem mem_block_scale (t : Fin cfg6.N) (i : S100000x8.Idx) :
    i ∈ ((cfg6.win 4).blk t).view.set ↔ ∀ a : Fin 2, win6_4.index t a * S4000x8.size a ≤ (i a).val ∧ (i a).val < win6_4.index t a * S4000x8.size a + S4000x8.size a := by
  show i ∈ ((View.whole main_v94_1).slice (win6_4.rect t)).set ↔ _
  rw [View.set_slice_whole, Rect.mem_set_unit]
  exact Iff.rfl

/-- The 25 row blocks tile the location array: row `r` lies in the block of point `r / 4000`. -/
theorem cover_loc (i : S100000x8.Idx) :
    ∃ t : Fin cfg6.N, (cfg6.win 3).flush t = true ∧ i ∈ ((cfg6.win 3).blk t).view.set := by
  have hi0 : (i 0).val < 100000 := (i 0).isLt
  have hi1 : (i 1).val < 8 := (i 1).isLt
  have hN : cfg6.N = 25 := N_6
  refine ⟨⟨(i 0).val / 4000, by rw [hN]; omega⟩, flush6_3 _, ?_⟩
  rw [mem_block_loc]
  obtain ⟨-, -, -, -, -, e5, e6, -, -⟩ := block_index ⟨(i 0).val / 4000, by rw [hN]; omega⟩
  intro a
  match a with
  | ⟨0, _⟩ =>
    show win6_3.index _ (0 : Fin 2) * 4000 ≤ (i 0).val ∧ (i 0).val < win6_3.index _ (0 : Fin 2) * 4000 + 4000
    rw [e5]; show (i 0).val / 4000 * 4000 ≤ (i 0).val ∧ (i 0).val < (i 0).val / 4000 * 4000 + 4000; omega
  | ⟨1, _⟩ =>
    show win6_3.index _ (1 : Fin 2) * 8 ≤ (i 1).val ∧ (i 1).val < win6_3.index _ (1 : Fin 2) * 8 + 8
    rw [e6]; omega

/-- The 25 row blocks tile the scale array likewise. -/
theorem cover_scale (i : S100000x8.Idx) :
    ∃ t : Fin cfg6.N, (cfg6.win 4).flush t = true ∧ i ∈ ((cfg6.win 4).blk t).view.set := by
  have hi0 : (i 0).val < 100000 := (i 0).isLt
  have hi1 : (i 1).val < 8 := (i 1).isLt
  have hN : cfg6.N = 25 := N_6
  refine ⟨⟨(i 0).val / 4000, by rw [hN]; omega⟩, flush6_4 _, ?_⟩
  rw [mem_block_scale]
  obtain ⟨-, -, -, -, -, -, -, e7, e8⟩ := block_index ⟨(i 0).val / 4000, by rw [hN]; omega⟩
  intro a
  match a with
  | ⟨0, _⟩ =>
    show win6_4.index _ (0 : Fin 2) * 4000 ≤ (i 0).val ∧ (i 0).val < win6_4.index _ (0 : Fin 2) * 4000 + 4000
    rw [e7]; show (i 0).val / 4000 * 4000 ≤ (i 0).val ∧ (i 0).val < (i 0).val / 4000 * 4000 + 4000; omega
  | ⟨1, _⟩ =>
    show win6_4.index _ (1 : Fin 2) * 8 ≤ (i 1).val ∧ (i 1).val < win6_4.index _ (1 : Fin 2) * 8 + 8
    rw [e8]; omega

/-- The location array after the region: the head's location of the arrays the region found. -/
theorem final_loc (c : Dev nD) :
    (dat6 (F := Ideal) V c).arrAt 3 cfg6.N = Cert.Net.headLoc (V c main_v62) (V c main_arg27) (V c main_arg28) :=
  (dat6 (F := Ideal) V c).arrAt_eq_of_cover 3 _ (fun t _ => flushed_loc V c t) cover_loc

/-- The scale array after the region: the head's scale of the arrays the region found. -/
theorem final_scale (c : Dev nD) :
    (dat6 (F := Ideal) V c).arrAt 4 cfg6.N = Cert.Net.headScale (V c main_v62) (V c main_arg27) (V c main_arg28) :=
  (dat6 (F := Ideal) V c).arrAt_eq_of_cover 4 _ (fun t _ => flushed_scale V c t) cover_scale

end Arrays

end Cert.KernelIdeal.Region6

end
-- ==== Proof.Region7.lean ====
/-
  The output head of the idealized kernel, as one function of the arrays it reads.

  The head reads the node features h (300000 rows of 64), a weight w (64 × 16) and a bias b (16).  Its hidden value is
  tanh (h · w + b), sixteen columns: entry (r, q) is tanh (∑ j, h (r, j) · w (j, q) + b q).  The first eight columns
  are the location; the last eight, shifted by a constant and passed through softplus, are the scale.

  The rows are handled in 75 blocks of 4000: point t of the grid reads rows 4000 t … 4000 t + 3999 of the features
  together with the whole weight and the whole bias, and writes back rows 4000 t … 4000 t + 3999 of each output.  An
  entry of an output depends on one row of the features only, so each block written back is a block of ONE function of
  the whole arrays, and the blocks tile the outputs: row r lies in the block of point r / 4000.

  On the extended reals the narrowing of the operands before the product is the identity, the product into a zero
  accumulator is the plain sum, and the body's softplus — a selection between the shifted value s itself, taken where
  s compares "ordered and different" from itself, and max (s, 0) + log1p (exp (-|s|)) — always takes the second
  form, since no extended real differs from itself.
-/
import proofs.«157873_j19705309954765_1_alg».proof.Proof.Gen.KernelIdeal.Frame
import proofs.«157873_j19705309954765_1_alg».proof.Proof.Spec
import Idealize.ShloMosaic.Lib.Pipeline.Value
import Idealize.ShloMosaic.Lib.ValueIdx
import Idealize.ShloMosaic.PureOps.Ideal.Laws

noncomputable section

namespace Cert.KernelIdeal.Region7

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at an index

A block of the head is 4000 rows.  Over a block `x` of node features (4000 × 64), the weight `w` (64 × 16) and the
bias `b` (16), the body's hidden value at row `p`, column `q` is `tanh (∑ j, x (p, j) · w (j, q) + b q)`: the
contraction runs over the features' 64 columns, the bias is laid along every row. -/

/-- The product's left operand is read at the output's row … -/
theorem dot_lhs_row (i : S4000x16.Idx) (k : dot_S4000x64_S64x16_S4000x16_1_0_0_1_n_n.contr.Idx) :
    (dot_S4000x64_S64x16_S4000x16_1_0_0_1_n_n.lhsIdx i k 0).val = (i 0).val := by
  unfold DotDims.lhsIdx
  rw [dif_neg (show ¬(0 : Fin S4000x64.rank) ∈ dot_S4000x64_S64x16_S4000x16_1_0_0_1_n_n.lhsBatch by decide), dif_pos (show (0 : Fin S4000x64.rank) ∈ dot_S4000x64_S64x16_S4000x16_1_0_0_1_n_n.lhsNonContracting by decide)]
  rfl
/-- … and the contraction's position, -/
theorem dot_lhs_col (i : S4000x16.Idx) (k : dot_S4000x64_S64x16_S4000x16_1_0_0_1_n_n.contr.Idx) :
    (dot_S4000x64_S64x16_S4000x16_1_0_0_1_n_n.lhsIdx i k 1).val = (k ⟨0, by decide⟩).val :=
  dot_S4000x64_S64x16_S4000x16_1_0_0_1_n_n.lhsIdx_val_of_single rfl i k
/-- the right operand at the contraction's position … -/
theorem dot_rhs_row (i : S4000x16.Idx) (k : dot_S4000x64_S64x16_S4000x16_1_0_0_1_n_n.contr.Idx) :
    (dot_S4000x64_S64x16_S4000x16_1_0_0_1_n_n.rhsIdx i k 0).val = (k ⟨0, by decide⟩).val :=
  dot_S4000x64_S64x16_S4000x16_1_0_0_1_n_n.rhsIdx_val_of_single rfl i k
/-- … and the output's column. -/
theorem dot_rhs_col (i : S4000x16.Idx) (k : dot_S4000x64_S64x16_S4000x16_1_0_0_1_n_n.contr.Idx) :
    (dot_S4000x64_S64x16_S4000x16_1_0_0_1_n_n.rhsIdx i k 1).val = (i 1).val := by
  unfold DotDims.rhsIdx
  rw [dif_neg (show ¬(1 : Fin S64x16.rank) ∈ dot_S4000x64_S64x16_S4000x16_1_0_0_1_n_n.rhsBatch by decide), dif_pos (show (1 : Fin S64x16.rank) ∈ dot_S4000x64_S64x16_S4000x16_1_0_0_1_n_n.rhsNonContracting by decide)]
  rfl

/-- The product into a zero accumulator, at row `p` and column `q`: the sum over the 64 features. -/
theorem product_apply {φ₁ φ₂ : FTy} (a : FVec Ideal S4000x64 φ₁) (b : FVec Ideal S64x16 φ₂) (p : Fin 4000) (q : Fin 16) :
    FloatOps.matmul dot_S4000x64_S64x16_S4000x16_1_0_0_1_n_n none a b (constant (F := Ideal) S4000x16 .f32 0x00000000#32) (ix2 p q)
      = ∑ j : Fin 64, a (ix2 p j) * b (ix2 j q) := by
  rw [Ideal.matmul_constant_zero_apply, ← Equiv.sum_comp (ValueIdx.contrEquiv1 dot_S4000x64_S64x16_S4000x16_1_0_0_1_n_n 64 rfl rfl).symm]
  refine Finset.sum_congr rfl fun k _ => ?_
  have hk := ValueIdx.contrEquiv1_symm_val dot_S4000x64_S64x16_S4000x16_1_0_0_1_n_n 64 rfl rfl k
  have el : dot_S4000x64_S64x16_S4000x16_1_0_0_1_n_n.lhsIdx (ix2 p q) ((ValueIdx.contrEquiv1 dot_S4000x64_S64x16_S4000x16_1_0_0_1_n_n 64 rfl rfl).symm k) = ix2 p k := funext fun d => Fin.ext (by
    match d with
    | ⟨0, _⟩ => exact dot_lhs_row _ _
    | ⟨1, _⟩ => exact (dot_lhs_col _ _).trans hk)
  have er : dot_S4000x64_S64x16_S4000x16_1_0_0_1_n_n.rhsIdx (ix2 p q) ((ValueIdx.contrEquiv1 dot_S4000x64_S64x16_S4000x16_1_0_0_1_n_n 64 rfl rfl).symm k) = ix2 k q := funext fun d => Fin.ext (by
    match d with
    | ⟨0, _⟩ => exact (dot_rhs_row _ _).trans hk
    | ⟨1, _⟩ => exact dot_rhs_col _ _)
  rw [el, er]

/-- The bias, viewed as one row and laid along every row of the block, reads its column's entry. -/
theorem bias_apply (b : Vec Ideal S16 .f32) (p : Fin 4000) (q : Fin 16) :
    broadcastTo S4000x16 (shapeCast S1x16 b shapeCasts_S16_S1x16) broadcasts_S1x16_S4000x16 (ix2 p q) = b (ix1 q) := by
  refine (broadcastTo_apply _ broadcasts_S1x16_S4000x16 (ix2 p q) (ix2 (0 : Fin 1) q) fun a => ?_).trans ?_
  · match a with
    | ⟨0, _⟩ => rfl
    | ⟨1, _⟩ => show q.val = if (16 : Nat) = 1 then 0 else q.val; rw [if_neg (by decide)]
  · refine (shapeCast_addUnit_apply ![16] b shapeCasts_S16_S1x16 (ix2 (0 : Fin 1) q)).trans ?_
    exact congrArg b (funext fun d => by match d with | ⟨0, _⟩ => rfl)

/-- The hidden value of the head at row `p`, column `q` of a block. -/
theorem hidden_apply (x : Vec Ideal S4000x64 .f32) (w : Vec Ideal S64x16 .f32) (b : Vec Ideal S16 .f32) (p : Fin 4000) (q : Fin 16) :
    k7_pay1 (F := Ideal) x w b (ix2 p q) = Ideal.tanh ((∑ j : Fin 64, x (ix2 p j) * w (ix2 j q)) + b (ix1 q)) := by
  unfold k7_pay1
  rw [shapeCast_self]
  show Ideal.tanh (FloatOps.matmul dot_S4000x64_S64x16_S4000x16_1_0_0_1_n_n none (truncf .bf16 x bitsLt_bf16_f32) (truncf .bf16 w bitsLt_bf16_f32) (constant (F := Ideal) S4000x16 .f32 0x00000000#32) (ix2 p q)
      + broadcastTo S4000x16 (shapeCast S1x16 b shapeCasts_S16_S1x16) broadcasts_S1x16_S4000x16 (ix2 p q)) = _
  rw [product_apply, bias_apply]
  rfl

/-- The location is the hidden value's first eight columns … -/
theorem loc_apply (x : Vec Ideal S4000x64 .f32) (w : Vec Ideal S64x16 .f32) (b : Vec Ideal S16 .f32) (p : Fin 4000) (q : Fin 8) :
    k7_pay2 (F := Ideal) x w b (ix2 p q) = k7_pay1 (F := Ideal) x w b (ix2 p ⟨q.val, by have := q.isLt; omega⟩) := by
  unfold k7_pay2
  refine extractStridedSlice_apply _ _ slices_S4000x16_o0_0_S4000x8 (ix2 p q) (ix2 p ⟨q.val, by have := q.isLt; omega⟩) fun a => ?_
  match a with
  | ⟨0, _⟩ => show p.val = 0 + p.val; omega
  | ⟨1, _⟩ => show q.val = 0 + q.val; omega

/-- On the extended reals no value is "ordered and different" from itself. -/
theorem cmp_one_self (d : EReal) : Ideal.cmp .one d d = 0#1 := by
  unfold Ideal.cmp
  simp

/-- … and the scale is softplus of the shifted last eight: the body selects between the shifted value itself, where
    it compares different from itself, and `max (s, 0) + log1p (exp (-|s|))`; the comparison never holds. -/
theorem scale_apply (x : Vec Ideal S4000x64 .f32) (w : Vec Ideal S64x16 .f32) (b : Vec Ideal S16 .f32) (p : Fin 4000) (q : Fin 8) :
    k7_pay3 (F := Ideal) x w b (ix2 p q)
      = Cert.Net.softplusShift (k7_pay1 (F := Ideal) x w b (ix2 p ⟨q.val + 8, by have := q.isLt; omega⟩)) := by
  have hs : extractStridedSlice S4000x8 ![0, 8] (k7_pay1 (F := Ideal) x w b) slices_S4000x16_o0_8_S4000x8 (ix2 p q)
      = k7_pay1 (F := Ideal) x w b (ix2 p ⟨q.val + 8, by have := q.isLt; omega⟩) := by
    refine extractStridedSlice_apply _ _ slices_S4000x16_o0_8_S4000x8 (ix2 p q) (ix2 p ⟨q.val + 8, by have := q.isLt; omega⟩) fun a => ?_
    match a with
    | ⟨0, _⟩ => show p.val = 0 + p.val; omega
    | ⟨1, _⟩ => show q.val + 8 = 8 + q.val; omega
  rw [← hs]
  unfold k7_pay3
  refine (select_apply _ _ _ _).trans ?_
  rw [cmpf_apply]
  refine (congrArg (fun c => Scalar.select c _ _) (cmp_one_self _)).trans ?_
  rw [select_zero]
  rfl

/-! ## A block of each output, from blocks of the inputs

With the feature block's row `p` being row `r` of the feature array, and the weight and the bias blocks being the
whole weight and bias, row `p` of the block of each output is row `r` of the head's location or scale. -/

/-- The location block, entry by entry. -/
theorem loc_of_blocks (x : Vec Ideal S4000x64 .f32) (w : Vec Ideal S64x16 .f32) (b : Vec Ideal S16 .f32)
    (H : Cert.Net.Mat 300000 64) (Wt : Cert.Net.Mat 64 16) (Bs : Cert.Net.Row 16) (p : Fin 4000) (q : Fin 8) (r : Fin 300000)
    (hx : ∀ j : Fin 64, x (ix2 p j) = H (ix2 r j)) (hw : ∀ (j : Fin 64) (k : Fin 16), w (ix2 j k) = Wt (ix2 j k))
    (hb : ∀ k : Fin 16, b (ix1 k) = Bs (ix1 k)) :
    k7_pay2 (F := Ideal) x w b (ix2 p q) = Cert.Net.headLoc H Wt Bs (ix2 r q) := by
  rw [loc_apply, hidden_apply]
  unfold Cert.Net.headLoc Cert.Net.head Cert.Net.affine Cert.Net.mm
  refine congrArg Ideal.tanh ?_
  show _ = (∑ j : Fin 64, H (ix2 r j) * Wt (ix2 j ⟨q.val, by have := q.isLt; omega⟩)) + Bs (ix1 ⟨q.val, by have := q.isLt; omega⟩)
  rw [hb]
  exact congrArg (· + _) (Finset.sum_congr rfl fun j _ => by rw [hx, hw])

/-- The scale block, entry by entry. -/
theorem scale_of_blocks (x : Vec Ideal S4000x64 .f32) (w : Vec Ideal S64x16 .f32) (b : Vec Ideal S16 .f32)
    (H : Cert.Net.Mat 300000 64) (Wt : Cert.Net.Mat 64 16) (Bs : Cert.Net.Row 16) (p : Fin 4000) (q : Fin 8) (r : Fin 300000)
    (hx : ∀ j : Fin 64, x (ix2 p j) = H (ix2 r j)) (hw : ∀ (j : Fin 64) (k : Fin 16), w (ix2 j k) = Wt (ix2 j k))
    (hb : ∀ k : Fin 16, b (ix1 k) = Bs (ix1 k)) :
    k7_pay3 (F := Ideal) x w b (ix2 p q) = Cert.Net.headScale H Wt Bs (ix2 r q) := by
  rw [scale_apply, hidden_apply]
  unfold Cert.Net.headScale Cert.Net.head Cert.Net.affine Cert.Net.mm
  refine congrArg Cert.Net.softplusShift (congrArg Ideal.tanh ?_)
  show _ = (∑ j : Fin 64, H (ix2 r j) * Wt (ix2 j ⟨q.val + 8, by have := q.isLt; omega⟩)) + Bs (ix1 ⟨q.val + 8, by have := q.isLt; omega⟩)
  rw [hb]
  exact congrArg (· + _) (Finset.sum_congr rfl fun j _ => by rw [hx, hw])

/-! ## The windows

The grid has 75 points; point `t` handles rows `4000 t … 4000 t + 3999`: its feature block and both of its output
blocks are block `t` along the rows, its weight and bias blocks the whole weight and bias. -/

section Windows

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The block indices of the five windows at every point of the grid, decided over its 75 points. -/
theorem block_index : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- Row `p` of the feature block at point `t` is row `4000 t + p` of the features. -/
theorem features_block (c : Dev nD) (t : Fin cfg7.N) (p : Fin 4000) (j : Fin 64) (r : Fin 300000) (hr : r.val = 4000 * t.val + p.val) :
    (iblk7 V c 0 t : Vec Ideal S4000x64 .f32) (ix2 p j) = (V c main_v93 : Vec Ideal S300000x64 .f32) (ix2 r j) := by
  obtain ⟨e0, e1, -⟩ := block_index t
  unfold iblk7
  rw [View.read_apply]
  show V c main_v93 _ = V c main_v93 _
  congr 1
  funext a
  apply Fin.ext
  match a with
  | ⟨0, _⟩ => show win7_0.index t 0 * 4000 + 1 * p.val = r.val; rw [e0, hr]; omega
  | ⟨1, _⟩ => show win7_0.index t 1 * 64 + 1 * j.val = j.val; rw [e1]; omega

/-- The weight block at every point is the weight. -/
theorem weight_block (c : Dev nD) (t : Fin cfg7.N) (j : Fin 64) (k : Fin 16) :
    (iblk7 V c 1 t : Vec Ideal S64x16 .f32) (ix2 j k) = (V c main_arg29 : Vec Ideal S64x16 .f32) (ix2 j k) := by
  obtain ⟨-, -, e2, e3, -⟩ := block_index t
  unfold iblk7
  rw [View.read_apply]
  show V c main_arg29 _ = V c main_arg29 _
  congr 1
  funext a
  apply Fin.ext
  match a with
  | ⟨0, _⟩ => show win7_1.index t 0 * 64 + 1 * j.val = j.val; rw [e2]; omega
  | ⟨1, _⟩ => show win7_1.index t 1 * 16 + 1 * k.val = k.val; rw [e3]; omega

/-- The bias block at every point is the bias. -/
theorem bias_block (c : Dev nD) (t : Fin cfg7.N) (k : Fin 16) :
    (iblk7 V c 2 t : Vec Ideal S16 .f32) (ix1 k) = (V c main_arg30 : Vec Ideal S16 .f32) (ix1 k) := by
  obtain ⟨-, -, -, -, e4, -⟩ := block_index t
  unfold iblk7
  rw [View.read_apply]
  show V c main_arg30 _ = V c main_arg30 _
  congr 1
  funext a
  apply Fin.ext
  match a with
  | ⟨0, _⟩ => show win7_2.index t 0 * 16 + 1 * k.val = k.val; rw [e4]; omega

end Windows

section Arrays

variable (V : (c : Dev nD) → (b : Ref sig .tc) → Buf (Elt Ideal) ((c : Thread nD τ).loc b))

/-! ## What each point writes back, and the arrays after the region -/

/-- Point `t` writes back block `t` of the head's location of the arrays the region found. -/
theorem flushed_loc (c : Dev nD) (t : Fin cfg7.N) :
    (dat7 (F := Ideal) V c).flushed 3 t
      = ((cfg7.win 3).blk t).view.read (Elt Ideal) (Cert.Net.headLoc (V c main_v93) (V c main_arg29) (V c main_arg30)) := by
  show (cfg7.win 3).cut (grid7.coords t) ((dat7 V c).after 3 t) = _
  rw [after7_3]
  unfold out7_3
  rw [View.canon_unit_zero zeros2]
  simp only [View.ld_unit_zero (S := S4000x64) zeros2, View.ld_unit_zero (S := S64x16) zeros2, View.ld_unit_zero (S := S16) zeros1]
  obtain ⟨-, -, -, -, -, e5, e6, -, -⟩ := block_index t
  funext y
  obtain ⟨p, q, rfl⟩ : ∃ (p : Fin 4000) (q : Fin 8), y = ix2 p q := ⟨y 0, y 1, eq_ix2 y⟩
  have hr : 4000 * t.val + p.val < 300000 := by
    have hN : cfg7.N = 75 := N_7
    have := t.isLt; have := p.isLt; omega
  have hi : ((cfg7.win 3).blk t).view.emb (ix2 p q) = ix2 (n0 := 300000) (n1 := 8) ⟨4000 * t.val + p.val, hr⟩ q := by
    funext a
    apply Fin.ext
    match a with
    | ⟨0, _⟩ => show win7_3.index t (0 : Fin 2) * 4000 + 1 * p.val = 4000 * t.val + p.val; rw [e5]; omega
    | ⟨1, _⟩ => show win7_3.index t (1 : Fin 2) * 8 + 1 * q.val = q.val; rw [e6]; omega
  show k7_pay2 (F := Ideal) (iblk7 V c 0 t) (iblk7 V c 1 t) (iblk7 V c 2 t) (ix2 p q)
    = Cert.Net.headLoc (V c main_v93) (V c main_arg29) (V c main_arg30) (((cfg7.win 3).blk t).view.emb (ix2 p q))
  rw [hi]
  exact loc_of_blocks (iblk7 V c 0 t) (iblk7 V c 1 t) (iblk7 V c 2 t) (V c main_v93) (V c main_arg29) (V c main_arg30) p q
    ⟨4000 * t.val + p.val, hr⟩ (fun j => features_block V c t p j _ rfl) (fun j k => weight_block V c t j k) (fun k => bias_block V c t k)

/-- Point `t` writes back block `t` of the head's scale of the arrays the region found. -/
theorem flushed_scale (c : Dev nD) (t : Fin cfg7.N) :
    (dat7 (F := Ideal) V c).flushed 4 t
      = ((cfg7.win 4).blk t).view.read (Elt Ideal) (Cert.Net.headScale (V c main_v93) (V c main_arg29) (V c main_arg30)) := by
  show (cfg7.win 4).cut (grid7.coords t) ((dat7 V c).after 4 t) = _
  rw [after7_4]
  unfold out7_4
  rw [View.canon_unit_zero zeros2]
  simp only [View.ld_unit_zero (S := S4000x64) zeros2, View.ld_unit_zero (S := S64x16) zeros2, View.ld_unit_zero (S := S16) zeros1]
  obtain ⟨-, -, -, -, -, -, -, e7, e8⟩ := block_index t
  funext y
  obtain ⟨p, q, rfl⟩ : ∃ (p : Fin 4000) (q : Fin 8), y = ix2 p q := ⟨y 0, y 1, eq_ix2 y⟩
  have hr : 4000 * t.val + p.val < 300000 := by
    have hN : cfg7.N = 75 := N_7
    have := t.isLt; have := p.isLt; omega
  have hi : ((cfg7.win 4).blk t).view.emb (ix2 p q) = ix2 (n0 := 300000) (n1 := 8) ⟨4000 * t.val + p.val, hr⟩ q := by
    funext a
    apply Fin.ext
    match a with
    | ⟨0, _⟩ => show win7_4.index t (0 : Fin 2) * 4000 + 1 * p.val = 4000 * t.val + p.val; rw [e7]; omega
    | ⟨1, _⟩ => show win7_4.index t (1 : Fin 2) * 8 + 1 * q.val = q.val; rw [e8]; omega
  show k7_pay3 (F := Ideal) (iblk7 V c 0 t) (iblk7 V c 1 t) (iblk7 V c 2 t) (ix2 p q)
    = Cert.Net.headScale (V c main_v93) (V c main_arg29) (V c main_arg30) (((cfg7.win 4).blk t).view.emb (ix2 p q))
  rw [hi]
  exact scale_of_blocks (iblk7 V c 0 t) (iblk7 V c 1 t) (iblk7 V c 2 t) (V c main_v93) (V c main_arg29) (V c main_arg30) p q
    ⟨4000 * t.val + p.val, hr⟩ (fun j => features_block V c t p j _ rfl) (fun j k => weight_block V c t j k) (fun k => bias_block V c t k)

/-- An index of the location array is in point `t`'s block iff each coordinate is in the block's range on its axis. -/
theorem mem_block_loc (t : Fin cfg7.N) (i : S300000x8.Idx) :
    i ∈ ((cfg7.win 3).blk t).view.set ↔ ∀ a : Fin 2, win7_3.index t a * S4000x8.size a ≤ (i a).val ∧ (i a).val < win7_3.index t a * S4000x8.size a + S4000x8.size a := by
  show i ∈ ((View.whole main_v95_0).slice (win7_3.rect t)).set ↔ _
  rw [View.set_slice_whole, Rect.mem_set_unit]
  exact Iff.rfl

/-- The same for the scale array. -/
theorem mem_block_scale (t : Fin cfg7.N) (i : S300000x8.Idx) :
    i ∈ ((cfg7.win 4).blk t).view.set ↔ ∀ a : Fin 2, win7_4.index t a * S4000x8.size a ≤ (i a).val ∧ (i a).val < win7_4.index t a * S4000x8.size a + S4000x8.size a := by
  show i ∈ ((View.whole main_v95_1).slice (win7_4.rect t)).set ↔ _
  rw [View.set_slice_whole, Rect.mem_set_unit]
  exact Iff.rfl

/-- The 75 row blocks tile the location array: row `r` lies in the block of point `r / 4000`. -/
theorem cover_loc (i : S300000x8.Idx) :
    ∃ t : Fin cfg7.N, (cfg7.win 3).flush t = true ∧ i ∈ ((cfg7.win 3).blk t).view.set := by
  have hi0 : (i 0).val < 300000 := (i 0).isLt
  have hi1 : (i 1).val < 8 := (i 1).isLt
  have hN : cfg7.N = 75 := N_7
  refine ⟨⟨(i 0).val / 4000, by rw [hN]; omega⟩, flush7_3 _, ?_⟩
  rw [mem_block_loc]
  obtain ⟨-, -, -, -, -, e5, e6, -, -⟩ := block_index ⟨(i 0).val / 4000, by rw [hN]; omega⟩
  intro a
  match a with
  | ⟨0, _⟩ =>
    show win7_3.index _ (0 : Fin 2) * 4000 ≤ (i 0).val ∧ (i 0).val < win7_3.index _ (0 : Fin 2) * 4000 + 4000
    rw [e5]; show (i 0).val / 4000 * 4000 ≤ (i 0).val ∧ (i 0).val < (i 0).val / 4000 * 4000 + 4000; omega
  | ⟨1, _⟩ =>
    show win7_3.index _ (1 : Fin 2) * 8 ≤ (i 1).val ∧ (i 1).val < win7_3.index _ (1 : Fin 2) * 8 + 8
    rw [e6]; omega

/-- The 75 row blocks tile the scale array likewise. -/
theorem cover_scale (i : S300000x8.Idx) :
    ∃ t : Fin cfg7.N, (cfg7.win 4).flush t = true ∧ i ∈ ((cfg7.win 4).blk t).view.set := by
  have hi0 : (i 0).val < 300000 := (i 0).isLt
  have hi1 : (i 1).val < 8 := (i 1).isLt
  have hN : cfg7.N = 75 := N_7
  refine ⟨⟨(i 0).val / 4000, by rw [hN]; omega⟩, flush7_4 _, ?_⟩
  rw [mem_block_scale]
  obtain ⟨-, -, -, -, -, -, -, e7, e8⟩ := block_index ⟨(i 0).val / 4000, by rw [hN]; omega⟩
  intro a
  match a with
  | ⟨0, _⟩ =>
    show win7_4.index _ (0 : Fin 2) * 4000 ≤ (i 0).val ∧ (i 0).val < win7_4.index _ (0 : Fin 2) * 4000 + 4000
    rw [e7]; show (i 0).val / 4000 * 4000 ≤ (i 0).val ∧ (i 0).val < (i 0).val / 4000 * 4000 + 4000; omega
  | ⟨1, _⟩ =>
    show win7_4.index _ (1 : Fin 2) * 8 ≤ (i 1).val ∧ (i 1).val < win7_4.index _ (1 : Fin 2) * 8 + 8
    rw [e8]; omega

/-- The location array after the region: the head's location of the arrays the region found. -/
theorem final_loc (c : Dev nD) :
    (dat7 (F := Ideal) V c).arrAt 3 cfg7.N = Cert.Net.headLoc (V c main_v93) (V c main_arg29) (V c main_arg30) :=
  (dat7 (F := Ideal) V c).arrAt_eq_of_cover 3 _ (fun t _ => flushed_loc V c t) cover_loc

/-- The scale array after the region: the head's scale of the arrays the region found. -/
theorem final_scale (c : Dev nD) :
    (dat7 (F := Ideal) V c).arrAt 4 cfg7.N = Cert.Net.headScale (V c main_v93) (V c main_arg29) (V c main_arg30) :=
  (dat7 (F := Ideal) V c).arrAt_eq_of_cover 4 _ (fun t _ => flushed_scale V c t) cover_scale

end Arrays

end Cert.KernelIdeal.Region7

end
-- ==== Proof.KChain.lean ====
/-
  The kernel's four result arrays as the fused network of the launch memory.  Walking the boundaries in order:
  region 0 and region 1 leave the two node types' input maps hT and hJ; each stretch of host operations leaves the
  neighbour sums of the features it reads (and, before a two-relation update, the summed biases and summed root
  weights); regions 2 and 3 leave the first layer t₁ and the fused j₁, regions 4 and 5 the second layer, regions
  6 and 7 the two heads.  Every array a later part reads is what the part that wrote it left, since nothing in
  between writes it.
-/
import proofs.«157873_j19705309954765_1_alg».proof.Proof.Gen.KernelIdeal.Frame
import proofs.«157873_j19705309954765_1_alg».proof.Proof.Whole
import proofs.«157873_j19705309954765_1_alg».proof.Proof.Keep
import proofs.«157873_j19705309954765_1_alg».proof.Proof.KHost
import proofs.«157873_j19705309954765_1_alg».proof.Proof.Region0
import proofs.«157873_j19705309954765_1_alg».proof.Proof.Region1
import proofs.«157873_j19705309954765_1_alg».proof.Proof.Region2
import proofs.«157873_j19705309954765_1_alg».proof.Proof.Region3
import proofs.«157873_j19705309954765_1_alg».proof.Proof.Region4
import proofs.«157873_j19705309954765_1_alg».proof.Proof.Region5
import proofs.«157873_j19705309954765_1_alg».proof.Proof.Region6
import proofs.«157873_j19705309954765_1_alg».proof.Proof.Region7

set_option maxRecDepth 16384

noncomputable section

namespace Cert.KernelIdeal.KChain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The weights, read off the launch memory. -/
def P : Cert.Net.Params where
  w0t := (m ((c : Thread nD τ).loc main_arg5))
  b0t := (m ((c : Thread nD τ).loc main_arg6))
  w0j := (m ((c : Thread nD τ).loc main_arg7))
  b0j := (m ((c : Thread nD τ).loc main_arg8))
  tjW1 := (m ((c : Thread nD τ).loc main_arg9))
  tjB1 := (m ((c : Thread nD τ).loc main_arg10))
  tjR1 := (m ((c : Thread nD τ).loc main_arg11))
  jtW1 := (m ((c : Thread nD τ).loc main_arg12))
  jtB1 := (m ((c : Thread nD τ).loc main_arg13))
  jtR1 := (m ((c : Thread nD τ).loc main_arg14))
  jjW1 := (m ((c : Thread nD τ).loc main_arg15))
  jjB1 := (m ((c : Thread nD τ).loc main_arg16))
  jjR1 := (m ((c : Thread nD τ).loc main_arg17))
  tjW2 := (m ((c : Thread nD τ).loc main_arg18))
  tjB2 := (m ((c : Thread nD τ).loc main_arg19))
  tjR2 := (m ((c : Thread nD τ).loc main_arg20))
  jtW2 := (m ((c : Thread nD τ).loc main_arg21))
  jtB2 := (m ((c : Thread nD τ).loc main_arg22))
  jtR2 := (m ((c : Thread nD τ).loc main_arg23))
  jjW2 := (m ((c : Thread nD τ).loc main_arg24))
  jjB2 := (m ((c : Thread nD τ).loc main_arg25))
  jjR2 := (m ((c : Thread nD τ).loc main_arg26))
  w3t := (m ((c : Thread nD τ).loc main_arg27))
  b3t := (m ((c : Thread nD τ).loc main_arg28))
  w3j := (m ((c : Thread nD τ).loc main_arg29))
  b3j := (m ((c : Thread nD τ).loc main_arg30))

/-- The three neighbour sums over the launch memory's edge lists. -/
def A : Cert.Net.Aggs := KHost.aggs (m ((c : Thread nD τ).loc main_arg2)) (m ((c : Thread nD τ).loc main_arg3)) (m ((c : Thread nD τ).loc main_arg4))

/-- The two node types' inputs. -/
abbrev xt : Cert.Net.Mat 100000 32 := (m ((c : Thread nD τ).loc main_arg0))
abbrev xj : Cert.Net.Mat 300000 32 := (m ((c : Thread nD τ).loc main_arg1))

/-- The edge lists are as launched at every stretch's entry. -/
theorem aggs_2 : KHost.E (W2 m ρ c) = A m c := by
  show KHost.aggs (W2 m ρ c (Proc.devRef .tc main_arg2)) (W2 m ρ c (Proc.devRef .tc main_arg3)) (W2 m ρ c (Proc.devRef .tc main_arg4)) = A m c
  rw [Keep.keep_arg2_2_0 m ρ c, Keep.keep_arg3_2_0 m ρ c, Keep.keep_arg4_2_0 m ρ c]; rfl
theorem aggs_4 : KHost.E (W4 m ρ c) = A m c := by
  show KHost.aggs (W4 m ρ c (Proc.devRef .tc main_arg2)) (W4 m ρ c (Proc.devRef .tc main_arg3)) (W4 m ρ c (Proc.devRef .tc main_arg4)) = A m c
  rw [Keep.keep_arg2_4_0 m ρ c, Keep.keep_arg3_4_0 m ρ c, Keep.keep_arg4_4_0 m ρ c]; rfl
theorem aggs_6 : KHost.E (W6 m ρ c) = A m c := by
  show KHost.aggs (W6 m ρ c (Proc.devRef .tc main_arg2)) (W6 m ρ c (Proc.devRef .tc main_arg3)) (W6 m ρ c (Proc.devRef .tc main_arg4)) = A m c
  rw [Keep.keep_arg2_6_0 m ρ c, Keep.keep_arg3_6_0 m ρ c, Keep.keep_arg4_6_0 m ρ c]; rfl
theorem aggs_8 : KHost.E (W8 m ρ c) = A m c := by
  show KHost.aggs (W8 m ρ c (Proc.devRef .tc main_arg2)) (W8 m ρ c (Proc.devRef .tc main_arg3)) (W8 m ρ c (Proc.devRef .tc main_arg4)) = A m c
  rw [Keep.keep_arg2_8_0 m ρ c, Keep.keep_arg3_8_0 m ρ c, Keep.keep_arg4_8_0 m ρ c]; rfl

/-! ## The input maps -/

theorem hT_1 : W1 m ρ c (Proc.devRef .tc main_v0) = Cert.Net.hT (P m c) (xt m c) :=
  (W1_arr m ρ c 3).trans (Region0.final (V0 m ρ) c)

theorem hJ_2 : W2 m ρ c (Proc.devRef .tc main_v1) = Cert.Net.hJ (P m c) (xj m c) := by
  refine (W2_arr m ρ c 3).trans ((Region1.final (V1 m ρ) c).trans ?_)
  show Cert.Net.affine (W1 m ρ c (Proc.devRef .tc main_arg1)) (W1 m ρ c (Proc.devRef .tc main_arg7)) (W1 m ρ c (Proc.devRef .tc main_arg8)) = _
  rw [Keep.keep_arg1_1_0 m ρ c, Keep.keep_arg7_1_0 m ρ c, Keep.keep_arg8_1_0 m ρ c]; rfl

/-! ## Layer 1 -/

theorem msg_jt_3 : W3 m ρ c (Proc.devRef .tc main_v15) = (A m c).jt (Cert.Net.hJ (P m c) (xj m c)) := by
  show StableHlo.after hostOps2 (W2 m ρ c) (Proc.devRef .tc main_v15) = _
  rw [KHost.h2_v15 (W2 m ρ c), aggs_2 m ρ c, hJ_2 m ρ c]

theorem t1_4 : W4 m ρ c (Proc.devRef .tc main_v16) = Cert.Net.t1 (P m c) (A m c) (xt m c) (xj m c) := by
  refine (W4_arr m ρ c 5).trans ((Region2.final (V3 m ρ) c).trans ?_)
  show Cert.Net.conv1 (W3 m ρ c (Proc.devRef .tc main_v15)) (W3 m ρ c (Proc.devRef .tc main_arg12)) (W3 m ρ c (Proc.devRef .tc main_arg13)) (W3 m ρ c (Proc.devRef .tc main_v0)) (W3 m ρ c (Proc.devRef .tc main_arg14)) = _
  rw [msg_jt_3 m ρ c, Keep.keep_arg12_3_0 m ρ c, Keep.keep_arg13_3_0 m ρ c, Keep.keep_v0_3_1 m ρ c, hT_1 m ρ c, Keep.keep_arg14_3_0 m ρ c]; rfl

theorem msg_tj_5 : W5 m ρ c (Proc.devRef .tc main_v30) = (A m c).tj (Cert.Net.hT (P m c) (xt m c)) := by
  show StableHlo.after hostOps3 (W4 m ρ c) (Proc.devRef .tc main_v30) = _
  rw [KHost.h3_v30 (W4 m ρ c), aggs_4 m ρ c, Keep.keep_v0_4_1 m ρ c, hT_1 m ρ c]

theorem msg_jj_5 : W5 m ρ c (Proc.devRef .tc main_v44) = (A m c).jj (Cert.Net.hJ (P m c) (xj m c)) := by
  show StableHlo.after hostOps3 (W4 m ρ c) (Proc.devRef .tc main_v44) = _
  rw [KHost.h3_v44 (W4 m ρ c), aggs_4 m ρ c, Keep.keep_v1_4_2 m ρ c, hJ_2 m ρ c]

theorem bsum_5 : W5 m ρ c (Proc.devRef .tc main_v45) = fun i => (P m c).tjB1 i + (P m c).jjB1 i := by
  show StableHlo.after hostOps3 (W4 m ρ c) (Proc.devRef .tc main_v45) = _
  rw [KHost.h3_v45 (W4 m ρ c), Keep.keep_arg10_4_0 m ρ c, Keep.keep_arg16_4_0 m ρ c]; rfl

theorem rsum_5 : W5 m ρ c (Proc.devRef .tc main_v46) = fun i => (P m c).tjR1 i + (P m c).jjR1 i := by
  show StableHlo.after hostOps3 (W4 m ρ c) (Proc.devRef .tc main_v46) = _
  rw [KHost.h3_v46 (W4 m ρ c), Keep.keep_arg11_4_0 m ρ c, Keep.keep_arg17_4_0 m ρ c]; rfl

theorem j1_6 : W6 m ρ c (Proc.devRef .tc main_v47) = Cert.Net.j1F (P m c) (A m c) (xt m c) (xj m c) := by
  refine (W6_arr m ρ c 7).trans ((Region3.final (V5 m ρ) c).trans ?_)
  show Cert.Net.conv2Fused (W5 m ρ c (Proc.devRef .tc main_v30)) (W5 m ρ c (Proc.devRef .tc main_arg9)) (W5 m ρ c (Proc.devRef .tc main_v44)) (W5 m ρ c (Proc.devRef .tc main_arg15)) (W5 m ρ c (Proc.devRef .tc main_v45)) (W5 m ρ c (Proc.devRef .tc main_v1)) (W5 m ρ c (Proc.devRef .tc main_v46)) = _
  rw [msg_tj_5 m ρ c, Keep.keep_arg9_5_0 m ρ c, msg_jj_5 m ρ c, Keep.keep_arg15_5_0 m ρ c, bsum_5 m ρ c, Keep.keep_v1_5_2 m ρ c, hJ_2 m ρ c, rsum_5 m ρ c]; rfl

/-! ## Layer 2 -/

theorem msg_jt_7 : W7 m ρ c (Proc.devRef .tc main_v61) = (A m c).jt (Cert.Net.j1F (P m c) (A m c) (xt m c) (xj m c)) := by
  show StableHlo.after hostOps4 (W6 m ρ c) (Proc.devRef .tc main_v61) = _
  rw [KHost.h4_v61 (W6 m ρ c), aggs_6 m ρ c, j1_6 m ρ c]

theorem t2_8 : W8 m ρ c (Proc.devRef .tc main_v62) = Cert.Net.t2F (P m c) (A m c) (xt m c) (xj m c) := by
  refine (W8_arr m ρ c 5).trans ((Region4.final (V7 m ρ) c).trans ?_)
  show Cert.Net.conv1 (W7 m ρ c (Proc.devRef .tc main_v61)) (W7 m ρ c (Proc.devRef .tc main_arg21)) (W7 m ρ c (Proc.devRef .tc main_arg22)) (W7 m ρ c (Proc.devRef .tc main_v16)) (W7 m ρ c (Proc.devRef .tc main_arg23)) = _
  rw [msg_jt_7 m ρ c, Keep.keep_arg21_7_0 m ρ c, Keep.keep_arg22_7_0 m ρ c, Keep.keep_v16_7_4 m ρ c, t1_4 m ρ c, Keep.keep_arg23_7_0 m ρ c]; rfl

theorem msg_tj_9 : W9 m ρ c (Proc.devRef .tc main_v76) = (A m c).tj (Cert.Net.t1 (P m c) (A m c) (xt m c) (xj m c)) := by
  show StableHlo.after hostOps5 (W8 m ρ c) (Proc.devRef .tc main_v76) = _
  rw [KHost.h5_v76 (W8 m ρ c), aggs_8 m ρ c, Keep.keep_v16_8_4 m ρ c, t1_4 m ρ c]

theorem msg_jj_9 : W9 m ρ c (Proc.devRef .tc main_v90) = (A m c).jj (Cert.Net.j1F (P m c) (A m c) (xt m c) (xj m c)) := by
  show StableHlo.after hostOps5 (W8 m ρ c) (Proc.devRef .tc main_v90) = _
  rw [KHost.h5_v90 (W8 m ρ c), aggs_8 m ρ c, Keep.keep_v47_8_6 m ρ c, j1_6 m ρ c]

theorem bsum_9 : W9 m ρ c (Proc.devRef .tc main_v91) = fun i => (P m c).tjB2 i + (P m c).jjB2 i := by
  show StableHlo.after hostOps5 (W8 m ρ c) (Proc.devRef .tc main_v91) = _
  rw [KHost.h5_v91 (W8 m ρ c), Keep.keep_arg19_8_0 m ρ c, Keep.keep_arg25_8_0 m ρ c]; rfl

theorem rsum_9 : W9 m ρ c (Proc.devRef .tc main_v92) = fun i => (P m c).tjR2 i + (P m c).jjR2 i := by
  show StableHlo.after hostOps5 (W8 m ρ c) (Proc.devRef .tc main_v92) = _
  rw [KHost.h5_v92 (W8 m ρ c), Keep.keep_arg20_8_0 m ρ c, Keep.keep_arg26_8_0 m ρ c]; rfl

theorem j2_10 : W10 m ρ c (Proc.devRef .tc main_v93) = Cert.Net.j2F (P m c) (A m c) (xt m c) (xj m c) := by
  refine (W10_arr m ρ c 7).trans ((Region5.final (V9 m ρ) c).trans ?_)
  show Cert.Net.conv2Fused (W9 m ρ c (Proc.devRef .tc main_v76)) (W9 m ρ c (Proc.devRef .tc main_arg18)) (W9 m ρ c (Proc.devRef .tc main_v90)) (W9 m ρ c (Proc.devRef .tc main_arg24)) (W9 m ρ c (Proc.devRef .tc main_v91)) (W9 m ρ c (Proc.devRef .tc main_v47)) (W9 m ρ c (Proc.devRef .tc main_v92)) = _
  rw [msg_tj_9 m ρ c, Keep.keep_arg18_9_0 m ρ c, msg_jj_9 m ρ c, Keep.keep_arg24_9_0 m ρ c, bsum_9 m ρ c, Keep.keep_v47_9_6 m ρ c, j1_6 m ρ c, rsum_9 m ρ c]; rfl

/-! ## The heads -/

theorem head_t (f : Cert.Net.Mat 100000 64 → Cert.Net.Mat 64 16 → Cert.Net.Row 16 → Cert.Net.Mat 100000 8) :
    f (W10 m ρ c (Proc.devRef .tc main_v62)) (W10 m ρ c (Proc.devRef .tc main_arg27)) (W10 m ρ c (Proc.devRef .tc main_arg28))
      = f (Cert.Net.t2F (P m c) (A m c) (xt m c) (xj m c)) (P m c).w3t (P m c).b3t := by
  rw [Keep.keep_v62_10_8 m ρ c, t2_8 m ρ c, Keep.keep_arg27_10_0 m ρ c, Keep.keep_arg28_10_0 m ρ c]; rfl

theorem head_j (f : Cert.Net.Mat 300000 64 → Cert.Net.Mat 64 16 → Cert.Net.Row 16 → Cert.Net.Mat 300000 8) :
    f (W11 m ρ c (Proc.devRef .tc main_v93)) (W11 m ρ c (Proc.devRef .tc main_arg29)) (W11 m ρ c (Proc.devRef .tc main_arg30))
      = f (Cert.Net.j2F (P m c) (A m c) (xt m c) (xj m c)) (P m c).w3j (P m c).b3j := by
  rw [Keep.keep_v93_11_10 m ρ c, j2_10 m ρ c, Keep.keep_arg29_11_0 m ρ c, Keep.keep_arg30_11_0 m ρ c]; rfl

theorem loc_t : W12 m ρ c (Proc.devRef .tc main_v94_0) = Cert.Net.headLoc (Cert.Net.t2F (P m c) (A m c) (xt m c) (xj m c)) (P m c).w3t (P m c).b3t :=
  (Keep.keep_v94_0_12_11 m ρ c).trans ((W11_arr m ρ c 3).trans ((Region6.final_loc (V10 m ρ) c).trans (head_t m ρ c Cert.Net.headLoc)))

theorem scale_t : W12 m ρ c (Proc.devRef .tc main_v94_1) = Cert.Net.headScale (Cert.Net.t2F (P m c) (A m c) (xt m c) (xj m c)) (P m c).w3t (P m c).b3t :=
  (Keep.keep_v94_1_12_11 m ρ c).trans ((W11_arr m ρ c 4).trans ((Region6.final_scale (V10 m ρ) c).trans (head_t m ρ c Cert.Net.headScale)))

theorem loc_j : W12 m ρ c (Proc.devRef .tc main_v95_0) = Cert.Net.headLoc (Cert.Net.j2F (P m c) (A m c) (xt m c) (xj m c)) (P m c).w3j (P m c).b3j :=
  (W12_arr m ρ c 3).trans ((Region7.final_loc (V11 m ρ) c).trans (head_j m ρ c Cert.Net.headLoc))

theorem scale_j : W12 m ρ c (Proc.devRef .tc main_v95_1) = Cert.Net.headScale (Cert.Net.j2F (P m c) (A m c) (xt m c) (xj m c)) (P m c).w3j (P m c).b3j :=
  (W12_arr m ρ c 4).trans ((Region7.final_scale (V11 m ρ) c).trans (head_j m ρ c Cert.Net.headScale))

end Cert.KernelIdeal.KChain

end
-- ==== Proof.Finite.lean ====
/-
  Every float argument the precondition constrains is an array of real numbers.

  The precondition is the conjunction, over the float arguments, of "all entries are finite", where an entry x is
  finite when |x| < +∞, the bound being the 32-bit pattern 0x7F800000.  On the extended reals |x| is max x (-x) and the
  pattern denotes ⊤, so the entry test says x ≠ ⊤ and -x ≠ ⊤, that is x is neither infinity: x is a real number.  The
  "all" is a reduction by "and" over every index into a result of one index, so its being 1 gives the entry test at
  every index; the conjunction is a chain of "and"s on one-bit words, 1 exactly when both sides are 1.
-/
import proofs.«157873_j19705309954765_1_alg».proof.Pre_finite_inputs
import proofs.«157873_j19705309954765_1_alg».proof.Proof.Spec
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Idealize.ShloMosaic Cert.Pre_finite_inputs

/-- The rank-zero shape has one index. -/
instance : Subsingleton S_.Idx := ⟨fun a b => funext fun d => d.elim0⟩

theorem ofBool_eq_one (b : Bool) : BitVec.ofBool b = 1#1 ↔ b = true := by cases b <;> decide

/-- The pattern 0x7F800000 is +∞. -/
theorem inf_eq_top : Ideal.ofBits .f32 0x7F800000#32 = (⊤ : EReal) := by simp [Ideal.ofBits, Ideal.ieee]

/-- The entry test: |x| < +∞ on the extended reals says x is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_eq_top] at h'
  simp only [Ideal.cmp, ofBool_eq_one, decide_eq_true_eq, max_lt_iff] at h'
  have hx : (x : EReal) ≠ ⊤ := h'.1.ne
  have hx' : (x : EReal) ≠ ⊥ := fun hb => h'.2.ne (EReal.neg_eq_top_iff.2 hb)
  exact ⟨EReal.toReal x, (EReal.coe_toReal hx hx').symm⟩

/-- "All entries of x are finite" being 1 makes every entry of x a real number: the reduction by "and" into the one
    index is 1 only if the entry test is 1 at every index. -/
theorem isReal_of_all {S : Shape} {axes : List (Fin S.rank)} (x : FVec Ideal S .f32)
    (hb : S_.BroadcastsInDim S (![] : Fin 0 → Fin S.rank)) (hr : S.ReducesTo axes S_) (hu : 0 < S_.numel) (j : S_.Idx)
    (h : Host.reduce IntOp.andi (cmpf .olt (Host.absf x) (broadcastInDim S ![] hb (constant S_ .f32 0x7F800000#32)))
          (constantI S_ 1 1#1) hr hu j = 1#1) :
    Cert.Net.IsReal x := fun i =>
  real_of_abs_lt_inf (x i) (Host.reduce_andi_all _ _ hr hu j h i)

/-- An "and" of two one-bit arrays is 1 at an index exactly when both are. -/
theorem andi_apply_eq_one {s : Shape} (x y : IVec s 1) (j : s.Idx) : andi x y j = 1#1 ↔ x j = 1#1 ∧ y j = 1#1 :=
  IntOp.andi_eq_one

variable [Cert.Pre_finite_inputs.Facts]

/-- The precondition makes the seven arrays whose entries the two programs regroup arrays of real numbers. -/
theorem real_of_pre {a0 : FVec Ideal S100000x32 .f32} {a1 : FVec Ideal S300000x32 .f32} {a2 : IVec S2x1000000 32} {a3 : IVec S2x1000000 32} {a4 : IVec S2x2000000 32} {a5 : FVec Ideal S32x64 .f32} {a6 : FVec Ideal S64 .f32} {a7 : FVec Ideal S32x64 .f32} {a8 : FVec Ideal S64 .f32} {a9 : FVec Ideal S64x64 .f32} {a10 : FVec Ideal S64 .f32} {a11 : FVec Ideal S64x64 .f32} {a12 : FVec Ideal S64x64 .f32} {a13 : FVec Ideal S64 .f32} {a14 : FVec Ideal S64x64 .f32} {a15 : FVec Ideal S64x64 .f32} {a16 : FVec Ideal S64 .f32} {a17 : FVec Ideal S64x64 .f32} {a18 : FVec Ideal S64x64 .f32} {a19 : FVec Ideal S64 .f32} {a20 : FVec Ideal S64x64 .f32} {a21 : FVec Ideal S64x64 .f32} {a22 : FVec Ideal S64 .f32} {a23 : FVec Ideal S64x64 .f32} {a24 : FVec Ideal S64x64 .f32} {a25 : FVec Ideal S64 .f32} {a26 : FVec Ideal S64x64 .f32} {a27 : FVec Ideal S64x16 .f32} {a28 : FVec Ideal S16 .f32} {a29 : FVec Ideal S64x16 .f32} {a30 : FVec Ideal S16 .f32}
    (h : Cert.Pre_finite_inputs.fn (F := Ideal) a0 a1 a2 a3 a4 a5 a6 a7 a8 a9 a10 a11 a12 a13 a14 a15 a16 a17 a18 a19 a20 a21 a22 a23 a24 a25 a26 a27 a28 a29 a30 = fun _ => 1#1) :
    Cert.Net.IsReal a1 ∧ Cert.Net.IsReal a7 ∧ Cert.Net.IsReal a8 ∧ Cert.Net.IsReal a11 ∧ Cert.Net.IsReal a17 ∧ Cert.Net.IsReal a20 ∧ Cert.Net.IsReal a26 := by
  have e := congrFun h ValueIdx.ix0
  dsimp only [fn, fn_part1, fn_part2, fn_part3, fn_part4, fn_part5, fn_part6, fn_part7, fn_part8] at e
  simp only [andi_apply_eq_one] at e
  obtain ⟨⟨⟨⟨⟨⟨⟨⟨⟨⟨⟨⟨⟨⟨⟨⟨⟨⟨⟨⟨⟨⟨⟨⟨⟨⟨⟨h0, h1⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩, h28⟩, h29⟩, h30⟩ := e
  exact ⟨isReal_of_all a1 _ _ _ _ h1,
    isReal_of_all a7 _ _ _ _ h7,
    isReal_of_all a8 _ _ _ _ h8,
    isReal_of_all a11 _ _ _ _ h11,
    isReal_of_all a17 _ _ _ _ h17,
    isReal_of_all a20 _ _ _ _ h20,
    isReal_of_all a26 _ _ _ _ h26⟩

end Cert.Pre_finite_inputs.Finite

end
-- ==== Proof.KValue.lean ====
/-
  The kernel's run, its four results named as the network of the launch memory.  The kernel computes the fused
  chain; under the precondition the joint inputs, the joint input weight and bias and the four root weights it sums
  are arrays of real numbers, so the fused chain is the unfused one, and the four results are the two heads of the
  second layer's torso and joint features.
-/
import proofs.«157873_j19705309954765_1_alg».proof.Defs
import proofs.«157873_j19705309954765_1_alg».proof.Proof.KRun
import proofs.«157873_j19705309954765_1_alg».proof.Proof.KChain
import proofs.«157873_j19705309954765_1_alg».proof.Proof.Finite

set_option maxRecDepth 16384

noncomputable section

namespace Cert.KernelIdeal.KValue

open Cert.KernelIdeal Cert.KernelIdeal.Gen
open Idealize.ShloMosaic Idealize.ShloMosaic.TcCoe Idealize.SL.Sem

variable (m : (ℓ : Loc nD τ sig) → Buf (Elt Ideal) ℓ)

/-- The torso location, torso scale, joint location and joint scale of the launch memory's network. -/
def locT (c : Dev nD) : Buf (Elt Ideal) ((c.tc : Thread nD τ).loc main_v94_0) :=
  Cert.Net.headLoc (Cert.Net.t2 (KChain.P m c) (KChain.A m c) (KChain.xt m c) (KChain.xj m c)) (KChain.P m c).w3t (KChain.P m c).b3t
def scaleT (c : Dev nD) : Buf (Elt Ideal) ((c.tc : Thread nD τ).loc main_v94_1) :=
  Cert.Net.headScale (Cert.Net.t2 (KChain.P m c) (KChain.A m c) (KChain.xt m c) (KChain.xj m c)) (KChain.P m c).w3t (KChain.P m c).b3t
def locJ (c : Dev nD) : Buf (Elt Ideal) ((c.tc : Thread nD τ).loc main_v95_0) :=
  Cert.Net.headLoc (Cert.Net.j2 (KChain.P m c) (KChain.A m c) (KChain.xt m c) (KChain.xj m c)) (KChain.P m c).w3j (KChain.P m c).b3j
def scaleJ (c : Dev nD) : Buf (Elt Ideal) ((c.tc : Thread nD τ).loc main_v95_1) :=
  Cert.Net.headScale (Cert.Net.j2 (KChain.P m c) (KChain.A m c) (KChain.xt m c) (KChain.xj m c)) (KChain.P m c).w3j (KChain.P m c).b3j

/-- The precondition makes the arrays whose products the kernel regroups arrays of real numbers. -/
theorem real [hPre : Cert.Pre_finite_inputs.Facts] (h : Cert.Pre_KernelIdeal m) (c : Dev nD) :
    Cert.Net.RealInputs (KChain.P m c) (KChain.xj m c) := by
  have r := Cert.Pre_finite_inputs.Finite.real_of_pre (h c)
  exact ⟨r.1, r.2.1, r.2.2.1, r.2.2.2.1, r.2.2.2.2.1, r.2.2.2.2.2.1, r.2.2.2.2.2.2⟩

theorem run [hPre : Cert.Pre_finite_inputs.Facts] (ρ : Dev nD → PrngReg) (h : Cert.Pre_KernelIdeal m) :
    θ_run defs (onTc (τ := τ) (main (F := Ideal))) ⟨m, fun _ => 0, ρ⟩ (fun r => ∀ c : Dev nD,
      r.2.mem ((c.tc : Thread nD τ).loc main_v94_0) = locT m c
      ∧ r.2.mem ((c.tc : Thread nD τ).loc main_v94_1) = scaleT m c
      ∧ r.2.mem ((c.tc : Thread nD τ).loc main_v95_0) = locJ m c
      ∧ r.2.mem ((c.tc : Thread nD τ).loc main_v95_1) = scaleJ m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun r hr c =>
    ⟨(hr c).1.trans ((KChain.loc_t m ρ c).trans (by rw [Cert.Net.t2F_eq _ _ (real m h c)]; rfl)),
     (hr c).2.1.trans ((KChain.scale_t m ρ c).trans (by rw [Cert.Net.t2F_eq _ _ (real m h c)]; rfl)),
     (hr c).2.2.1.trans ((KChain.loc_j m ρ c).trans (by rw [Cert.Net.j2F_eq _ _ (real m h c)]; rfl)),
     (hr c).2.2.2.1.trans ((KChain.scale_j m ρ c).trans (by rw [Cert.Net.j2F_eq _ _ (real m h c)]; rfl)),
     (hr c).2.2.2.2⟩)
    (KRun.run m ρ)

end Cert.KernelIdeal.KValue

end
-- ==== Proof.RefNet.lean ====
/-
  The reference program, read stage by stage, is the network of Spec / Whole applied to its arguments.

  Every dense stage of the reference is a contraction `dot_general` followed by a bias broadcast along the rows and
  additions, then `tanh`.  A contraction of the second axis of its left operand with the first axis of its right one is
  the matrix product `Net.mm` entry by entry; a bias broadcast twice (to one row, then to all rows) reads the bias at
  the column; so `x · w + b` is `Net.affine`, `tanh ((msg · w + b) + x · r)` is `Net.conv1`, the sum of two such
  terms under one `tanh` is `Net.conv2`, and `tanh (h · w + b)` is `Net.head`.  The neighbour sums (a gather
  along an edge list's first row followed by a scatter-add along its second) are never opened: they are named as three
  functions of the node features, and both layers apply the same three functions.  The file ends at the second layer's
  torso and joint features, `Net.t2` and `Net.j2` of the bundled weights and the three neighbour sums; a location
  output is the first eight columns of a head.
-/
import proofs.«157873_j19705309954765_1_alg».proof.Proof.Gen.ReferenceIdeal.Read
import proofs.«157873_j19705309954765_1_alg».proof.Proof.Whole

noncomputable section

namespace Cert.ReferenceIdeal.RefNet

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## Contractions are matrix products -/

/-- The contraction of the second axis of `l` with the first of `r` is the matrix product, entry by entry. -/
theorem dot_T32 (l : FVec Ideal S100000x32 .f32) (r : FVec Ideal S32x64 .f32) :
    Host.dotGeneral (F := Ideal) dot_S100000x32_S32x64_S100000x64_1_0_0_1_n_n none l r = Net.mm (n := 100000) (k := 32) (m := 64) l r := by
  funext i
  show Host.dotGeneral (F := Ideal) dot_S100000x32_S32x64_S100000x64_1_0_0_1_n_n none l r i = ∑ k : Fin 32, l (ix2 (n0 := 100000) (n1 := 32) (i 0) k) * r (ix2 (n0 := 32) (n1 := 64) k (i 1))
  simp only [Host.dotGeneral]
  rw [Ideal.dotGeneral_apply, ← Equiv.sum_comp (ValueIdx.contrEquiv1 dot_S100000x32_S32x64_S100000x64_1_0_0_1_n_n 32 rfl rfl).symm]
  refine Finset.sum_congr rfl fun k _ => ?_
  have hk := ValueIdx.contrEquiv1_symm_val dot_S100000x32_S32x64_S100000x64_1_0_0_1_n_n 32 rfl rfl k
  have el : dot_S100000x32_S32x64_S100000x64_1_0_0_1_n_n.lhsIdx i ((ValueIdx.contrEquiv1 dot_S100000x32_S32x64_S100000x64_1_0_0_1_n_n 32 rfl rfl).symm k) = ix2 (n0 := 100000) (n1 := 32) (i 0) k := funext fun a => Fin.ext (by
    match a with
    | ⟨0, _⟩ => exact lhs_main_v0_0 _ _
    | ⟨1, _⟩ => exact (lhs_main_v0_1 _ _).trans hk)
  have er : dot_S100000x32_S32x64_S100000x64_1_0_0_1_n_n.rhsIdx i ((ValueIdx.contrEquiv1 dot_S100000x32_S32x64_S100000x64_1_0_0_1_n_n 32 rfl rfl).symm k) = ix2 (n0 := 32) (n1 := 64) k (i 1) := funext fun a => Fin.ext (by
    match a with
    | ⟨0, _⟩ => exact (rhs_main_v0_0 _ _).trans hk
    | ⟨1, _⟩ => exact rhs_main_v0_1 _ _)
  rw [el, er]

/-- The contraction of the second axis of `l` with the first of `r` is the matrix product, entry by entry. -/
theorem dot_J32 (l : FVec Ideal S300000x32 .f32) (r : FVec Ideal S32x64 .f32) :
    Host.dotGeneral (F := Ideal) dot_S300000x32_S32x64_S300000x64_1_0_0_1_n_n none l r = Net.mm (n := 300000) (k := 32) (m := 64) l r := by
  funext i
  show Host.dotGeneral (F := Ideal) dot_S300000x32_S32x64_S300000x64_1_0_0_1_n_n none l r i = ∑ k : Fin 32, l (ix2 (n0 := 300000) (n1 := 32) (i 0) k) * r (ix2 (n0 := 32) (n1 := 64) k (i 1))
  simp only [Host.dotGeneral]
  rw [Ideal.dotGeneral_apply, ← Equiv.sum_comp (ValueIdx.contrEquiv1 dot_S300000x32_S32x64_S300000x64_1_0_0_1_n_n 32 rfl rfl).symm]
  refine Finset.sum_congr rfl fun k _ => ?_
  have hk := ValueIdx.contrEquiv1_symm_val dot_S300000x32_S32x64_S300000x64_1_0_0_1_n_n 32 rfl rfl k
  have el : dot_S300000x32_S32x64_S300000x64_1_0_0_1_n_n.lhsIdx i ((ValueIdx.contrEquiv1 dot_S300000x32_S32x64_S300000x64_1_0_0_1_n_n 32 rfl rfl).symm k) = ix2 (n0 := 300000) (n1 := 32) (i 0) k := funext fun a => Fin.ext (by
    match a with
    | ⟨0, _⟩ => exact lhs_main_v4_0 _ _
    | ⟨1, _⟩ => exact (lhs_main_v4_1 _ _).trans hk)
  have er : dot_S300000x32_S32x64_S300000x64_1_0_0_1_n_n.rhsIdx i ((ValueIdx.contrEquiv1 dot_S300000x32_S32x64_S300000x64_1_0_0_1_n_n 32 rfl rfl).symm k) = ix2 (n0 := 32) (n1 := 64) k (i 1) := funext fun a => Fin.ext (by
    match a with
    | ⟨0, _⟩ => exact (rhs_main_v4_0 _ _).trans hk
    | ⟨1, _⟩ => exact rhs_main_v4_1 _ _)
  rw [el, er]

/-- The contraction of the second axis of `l` with the first of `r` is the matrix product, entry by entry. -/
theorem dot_T64 (l : FVec Ideal S100000x64 .f32) (r : FVec Ideal S64x64 .f32) :
    Host.dotGeneral (F := Ideal) dot_S100000x64_S64x64_S100000x64_1_0_0_1_n_n none l r = Net.mm (n := 100000) (k := 64) (m := 64) l r := by
  funext i
  show Host.dotGeneral (F := Ideal) dot_S100000x64_S64x64_S100000x64_1_0_0_1_n_n none l r i = ∑ k : Fin 64, l (ix2 (n0 := 100000) (n1 := 64) (i 0) k) * r (ix2 (n0 := 64) (n1 := 64) k (i 1))
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = ix2 (n0 := 100000) (n1 := 64) (i 0) k := funext fun a => Fin.ext (by
    match a with
    | ⟨0, _⟩ => exact lhs_main_v22_0 _ _
    | ⟨1, _⟩ => exact (lhs_main_v22_1 _ _).trans hk)
  have er : dot_S100000x64_S64x64_S100000x64_1_0_0_1_n_n.rhsIdx i ((ValueIdx.contrEquiv1 dot_S100000x64_S64x64_S100000x64_1_0_0_1_n_n 64 rfl rfl).symm k) = ix2 (n0 := 64) (n1 := 64) k (i 1) := funext fun a => Fin.ext (by
    match a with
    | ⟨0, _⟩ => exact (rhs_main_v22_0 _ _).trans hk
    | ⟨1, _⟩ => exact rhs_main_v22_1 _ _)
  rw [el, er]

/-- The contraction of the second axis of `l` with the first of `r` is the matrix product, entry by entry. -/
theorem dot_J64 (l : FVec Ideal S300000x64 .f32) (r : FVec Ideal S64x64 .f32) :
    Host.dotGeneral (F := Ideal) dot_S300000x64_S64x64_S300000x64_1_0_0_1_n_n none l r = Net.mm (n := 300000) (k := 64) (m := 64) l r := by
  funext i
  show Host.dotGeneral (F := Ideal) dot_S300000x64_S64x64_S300000x64_1_0_0_1_n_n none l r i = ∑ k : Fin 64, l (ix2 (n0 := 300000) (n1 := 64) (i 0) k) * r (ix2 (n0 := 64) (n1 := 64) k (i 1))
  simp only [Host.dotGeneral]
  rw [Ideal.dotGeneral_apply, ← Equiv.sum_comp (ValueIdx.contrEquiv1 dot_S300000x64_S64x64_S300000x64_1_0_0_1_n_n 64 rfl rfl).symm]
  refine Finset.sum_congr rfl fun k _ => ?_
  have hk := ValueIdx.contrEquiv1_symm_val dot_S300000x64_S64x64_S300000x64_1_0_0_1_n_n 64 rfl rfl k
  have el : dot_S300000x64_S64x64_S300000x64_1_0_0_1_n_n.lhsIdx i ((ValueIdx.contrEquiv1 dot_S300000x64_S64x64_S300000x64_1_0_0_1_n_n 64 rfl rfl).symm k) = ix2 (n0 := 300000) (n1 := 64) (i 0) k := funext fun a => Fin.ext (by
    match a with
    | ⟨0, _⟩ => exact lhs_main_v42_0 _ _
    | ⟨1, _⟩ => exact (lhs_main_v42_1 _ _).trans hk)
  have er : dot_S300000x64_S64x64_S300000x64_1_0_0_1_n_n.rhsIdx i ((ValueIdx.contrEquiv1 dot_S300000x64_S64x64_S300000x64_1_0_0_1_n_n 64 rfl rfl).symm k) = ix2 (n0 := 64) (n1 := 64) k (i 1) := funext fun a => Fin.ext (by
    match a with
    | ⟨0, _⟩ => exact (rhs_main_v42_0 _ _).trans hk
    | ⟨1, _⟩ => exact rhs_main_v42_1 _ _)
  rw [el, er]

/-- The contraction of the second axis of `l` with the first of `r` is the matrix product, entry by entry. -/
theorem dot_T16 (l : FVec Ideal S100000x64 .f32) (r : FVec Ideal S64x16 .f32) :
    Host.dotGeneral (F := Ideal) dot_S100000x64_S64x16_S100000x16_1_0_0_1_n_n none l r = Net.mm (n := 100000) (k := 64) (m := 16) l r := by
  funext i
  show Host.dotGeneral (F := Ideal) dot_S100000x64_S64x16_S100000x16_1_0_0_1_n_n none l r i = ∑ k : Fin 64, l (ix2 (n0 := 100000) (n1 := 64) (i 0) k) * r (ix2 (n0 := 64) (n1 := 16) k (i 1))
  simp only [Host.dotGeneral]
  rw [Ideal.dotGeneral_apply, ← Equiv.sum_comp (ValueIdx.contrEquiv1 dot_S100000x64_S64x16_S100000x16_1_0_0_1_n_n 64 rfl rfl).symm]
  refine Finset.sum_congr rfl fun k _ => ?_
  have hk := ValueIdx.contrEquiv1_symm_val dot_S100000x64_S64x16_S100000x16_1_0_0_1_n_n 64 rfl rfl k
  have el : dot_S100000x64_S64x16_S100000x16_1_0_0_1_n_n.lhsIdx i ((ValueIdx.contrEquiv1 dot_S100000x64_S64x16_S100000x16_1_0_0_1_n_n 64 rfl rfl).symm k) = ix2 (n0 := 100000) (n1 := 64) (i 0) k := funext fun a => Fin.ext (by
    match a with
    | ⟨0, _⟩ => exact lhs_main_v134_0 _ _
    | ⟨1, _⟩ => exact (lhs_main_v134_1 _ _).trans hk)
  have er : dot_S100000x64_S64x16_S100000x16_1_0_0_1_n_n.rhsIdx i ((ValueIdx.contrEquiv1 dot_S100000x64_S64x16_S100000x16_1_0_0_1_n_n 64 rfl rfl).symm k) = ix2 (n0 := 64) (n1 := 16) k (i 1) := funext fun a => Fin.ext (by
    match a with
    | ⟨0, _⟩ => exact (rhs_main_v134_0 _ _).trans hk
    | ⟨1, _⟩ => exact rhs_main_v134_1 _ _)
  rw [el, er]

/-- The contraction of the second axis of `l` with the first of `r` is the matrix product, entry by entry. -/
theorem dot_J16 (l : FVec Ideal S300000x64 .f32) (r : FVec Ideal S64x16 .f32) :
    Host.dotGeneral (F := Ideal) dot_S300000x64_S64x16_S300000x16_1_0_0_1_n_n none l r = Net.mm (n := 300000) (k := 64) (m := 16) l r := by
  funext i
  show Host.dotGeneral (F := Ideal) dot_S300000x64_S64x16_S300000x16_1_0_0_1_n_n none l r i = ∑ k : Fin 64, l (ix2 (n0 := 300000) (n1 := 64) (i 0) k) * r (ix2 (n0 := 64) (n1 := 16) k (i 1))
  simp only [Host.dotGeneral]
  rw [Ideal.dotGeneral_apply, ← Equiv.sum_comp (ValueIdx.contrEquiv1 dot_S300000x64_S64x16_S300000x16_1_0_0_1_n_n 64 rfl rfl).symm]
  refine Finset.sum_congr rfl fun k _ => ?_
  have hk := ValueIdx.contrEquiv1_symm_val dot_S300000x64_S64x16_S300000x16_1_0_0_1_n_n 64 rfl rfl k
  have el : dot_S300000x64_S64x16_S300000x16_1_0_0_1_n_n.lhsIdx i ((ValueIdx.contrEquiv1 dot_S300000x64_S64x16_S300000x16_1_0_0_1_n_n 64 rfl rfl).symm k) = ix2 (n0 := 300000) (n1 := 64) (i 0) k := funext fun a => Fin.ext (by
    match a with
    | ⟨0, _⟩ => exact lhs_main_v139_0 _ _
    | ⟨1, _⟩ => exact (lhs_main_v139_1 _ _).trans hk)
  have er : dot_S300000x64_S64x16_S300000x16_1_0_0_1_n_n.rhsIdx i ((ValueIdx.contrEquiv1 dot_S300000x64_S64x16_S300000x16_1_0_0_1_n_n 64 rfl rfl).symm k) = ix2 (n0 := 64) (n1 := 16) k (i 1) := funext fun a => Fin.ext (by
    match a with
    | ⟨0, _⟩ => exact (rhs_main_v139_0 _ _).trans hk
    | ⟨1, _⟩ => exact rhs_main_v139_1 _ _)
  rw [el, er]

/-! ## Biases -/

/-- A bias broadcast to one row and then to every row reads the bias at the column. -/
theorem bias_T64 (b : FVec Ideal S64 .f32) : val_main_v2 (F := Ideal) b = fun i => b (ix1 (n := 64) (i 1)) := by
  funext i
  rw [val_main_v2_apply, val_main_v1_apply]
  exact congrArg b (funext fun a => match a with | ⟨0, _⟩ => rfl)

/-- A bias broadcast to one row and then to every row reads the bias at the column. -/
theorem bias_J64 (b : FVec Ideal S64 .f32) : val_main_v6 (F := Ideal) b = fun i => b (ix1 (n := 64) (i 1)) := by
  funext i
  rw [val_main_v6_apply, val_main_v5_apply]
  exact congrArg b (funext fun a => match a with | ⟨0, _⟩ => rfl)

/-- A bias broadcast to one row and then to every row reads the bias at the column. -/
theorem bias_T16 (b : FVec Ideal S16 .f32) : val_main_v136 (F := Ideal) b = fun i => b (ix1 (n := 16) (i 1)) := by
  funext i
  rw [val_main_v136_apply, val_main_v135_apply]
  exact congrArg b (funext fun a => match a with | ⟨0, _⟩ => rfl)

/-- A bias broadcast to one row and then to every row reads the bias at the column. -/
theorem bias_J16 (b : FVec Ideal S16 .f32) : val_main_v141 (F := Ideal) b = fun i => b (ix1 (n := 16) (i 1)) := by
  funext i
  rw [val_main_v141_apply, val_main_v140_apply]
  exact congrArg b (funext fun a => match a with | ⟨0, _⟩ => rfl)

/-! ## The three neighbour sums

Each is the program's own chain on an edge list `e` (row 0 the source nodes, row 1 the destination nodes): the features
of the source node of every edge (a negative index counted from the end) are gathered, and added into a zero array at
the edge's destination node.  Only the features vary between the two layers. -/

/-- Joint features summed into torsos along the edge list `e`. -/
def jtSum (e : (⟨S2x1000000, .i32⟩ : BufTy).Contents (Elt Ideal)) (h : (⟨S300000x64, .f32⟩ : BufTy).Contents (Elt Ideal)) : (⟨S100000x64, .f32⟩ : BufTy).Contents (Elt Ideal) :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 (shapeCast S1000000 (extractStridedSlice S1x1000000 ![1, 0] e slices_S2x1000000_S1x1000000_1_0) shapeCasts_S1x1000000_S1000000))
    (Host.gather gather_S300000x64_S1000000x1_S1000000x64_1_0_n_n_0_1_164 h
      (broadcastInDim S1000000x1 ![0] bcast_S1000000_S1000000x1_0
        (select (cmpi .slt (shapeCast S1000000 (extractStridedSlice S1x1000000 ![0, 0] e slices_S2x1000000_S1x1000000_0_0) shapeCasts_S1x1000000_S1000000) (broadcastInDim S1000000 ![] bcast_S_S1000000 (constantI S_ 32 0#32)))
          (addi (shapeCast S1000000 (extractStridedSlice S1x1000000 ![0, 0] e slices_S2x1000000_S1x1000000_0_0) shapeCasts_S1x1000000_S1000000) (broadcastInDim S1000000 ![] bcast_S_S1000000 (constantI S_ 32 300000#32)))
          (shapeCast S1000000 (extractStridedSlice S1x1000000 ![0, 0] e slices_S2x1000000_S1x1000000_0_0) shapeCasts_S1x1000000_S1000000))))

/-- Torso features summed into joints along the edge list `e`. -/
def tjSum (e : (⟨S2x1000000, .i32⟩ : BufTy).Contents (Elt Ideal)) (h : (⟨S100000x64, .f32⟩ : BufTy).Contents (Elt Ideal)) : (⟨S300000x64, .f32⟩ : BufTy).Contents (Elt Ideal) :=
  Host.scatterAdd (F := Ideal) scatter_S300000x64_S1000000x1_S1000000x64_1_0_0_1
    (broadcastInDim S300000x64 ![] bcast_S_S300000x64 (constant (F := Ideal) S_ .f32 0x00000000#32))
    (broadcastInDim S1000000x1 ![0] bcast_S1000000_S1000000x1_0 (shapeCast S1000000 (extractStridedSlice S1x1000000 ![1, 0] e slices_S2x1000000_S1x1000000_1_0) shapeCasts_S1x1000000_S1000000))
    (Host.gather gather_S100000x64_S1000000x1_S1000000x64_1_0_n_n_0_1_164 h
      (broadcastInDim S1000000x1 ![0] bcast_S1000000_S1000000x1_0
        (select (cmpi .slt (shapeCast S1000000 (extractStridedSlice S1x1000000 ![0, 0] e slices_S2x1000000_S1x1000000_0_0) shapeCasts_S1x1000000_S1000000) (broadcastInDim S1000000 ![] bcast_S_S1000000 (constantI S_ 32 0#32)))
          (addi (shapeCast S1000000 (extractStridedSlice S1x1000000 ![0, 0] e slices_S2x1000000_S1x1000000_0_0) shapeCasts_S1x1000000_S1000000) (broadcastInDim S1000000 ![] bcast_S_S1000000 (constantI S_ 32 100000#32)))
          (shapeCast S1000000 (extractStridedSlice S1x1000000 ![0, 0] e slices_S2x1000000_S1x1000000_0_0) shapeCasts_S1x1000000_S1000000))))

/-- Joint features summed into joints along the edge list `e`. -/
def jjSum (e : (⟨S2x2000000, .i32⟩ : BufTy).Contents (Elt Ideal)) (h : (⟨S300000x64, .f32⟩ : BufTy).Contents (Elt Ideal)) : (⟨S300000x64, .f32⟩ : BufTy).Contents (Elt Ideal) :=
  Host.scatterAdd (F := Ideal) scatter_S300000x64_S2000000x1_S2000000x64_1_0_0_1
    (broadcastInDim S300000x64 ![] bcast_S_S300000x64 (constant (F := Ideal) S_ .f32 0x00000000#32))
    (broadcastInDim S2000000x1 ![0] bcast_S2000000_S2000000x1_0 (shapeCast S2000000 (extractStridedSlice S1x2000000 ![1, 0] e slices_S2x2000000_S1x2000000_1_0) shapeCasts_S1x2000000_S2000000))
    (Host.gather gather_S300000x64_S2000000x1_S2000000x64_1_0_n_n_0_1_164 h
      (broadcastInDim S2000000x1 ![0] bcast_S2000000_S2000000x1_0
        (select (cmpi .slt (shapeCast S2000000 (extractStridedSlice S1x2000000 ![0, 0] e slices_S2x2000000_S1x2000000_0_0) shapeCasts_S1x2000000_S2000000) (broadcastInDim S2000000 ![] bcast_S_S2000000 (constantI S_ 32 0#32)))
          (addi (shapeCast S2000000 (extractStridedSlice S1x2000000 ![0, 0] e slices_S2x2000000_S1x2000000_0_0) shapeCasts_S1x2000000_S2000000) (broadcastInDim S2000000 ![] bcast_S_S2000000 (constantI S_ 32 300000#32)))
          (shapeCast S2000000 (extractStridedSlice S1x2000000 ![0, 0] e slices_S2x2000000_S1x2000000_0_0) shapeCasts_S1x2000000_S2000000))))

/-- The three neighbour sums of the reference, on its three edge lists. -/
def aggs (e2 e3 : (⟨S2x1000000, .i32⟩ : BufTy).Contents (Elt Ideal)) (e4 : (⟨S2x2000000, .i32⟩ : BufTy).Contents (Elt Ideal)) : Net.Aggs :=
  { jt := jtSum e3, tj := tjSum e2, jj := jjSum e4 }

/-! ## The dense stages as the network's -/

/-- `x · w + b` over the torsos. -/
theorem affine_T (x : FVec Ideal S100000x32 .f32) (w : FVec Ideal S32x64 .f32) (b : FVec Ideal S64 .f32) :
    addf (Host.dotGeneral (F := Ideal) dot_S100000x32_S32x64_S100000x64_1_0_0_1_n_n none x w) (val_main_v2 (F := Ideal) b) = Net.affine x w b := by
  rw [dot_T32, bias_T64]; rfl

/-- `x · w + b` over the joints. -/
theorem affine_J (x : FVec Ideal S300000x32 .f32) (w : FVec Ideal S32x64 .f32) (b : FVec Ideal S64 .f32) :
    addf (Host.dotGeneral (F := Ideal) dot_S300000x32_S32x64_S300000x64_1_0_0_1_n_n none x w) (val_main_v6 (F := Ideal) b) = Net.affine x w b := by
  rw [dot_J32, bias_J64]; rfl

/-- `tanh ((msg · w + b) + x · r)` over the torsos. -/
theorem conv1_T (msg : FVec Ideal S100000x64 .f32) (w : FVec Ideal S64x64 .f32) (b : FVec Ideal S64 .f32) (x : FVec Ideal S100000x64 .f32) (r : FVec Ideal S64x64 .f32) :
    Host.tanh (addf (addf (Host.dotGeneral (F := Ideal) dot_S100000x64_S64x64_S100000x64_1_0_0_1_n_n none msg w) (val_main_v2 (F := Ideal) b)) (Host.dotGeneral (F := Ideal) dot_S100000x64_S64x64_S100000x64_1_0_0_1_n_n none x r))
      = Net.conv1 msg w b x r := by
  rw [dot_T64 msg w, dot_T64 x r, bias_T64]; rfl

/-- `tanh (((msg₁ · w₁ + b₁) + x · r₁) + ((msg₂ · w₂ + b₂) + x · r₂))` over the joints. -/
theorem conv2_J (m₁ : FVec Ideal S300000x64 .f32) (w₁ : FVec Ideal S64x64 .f32) (b₁ : FVec Ideal S64 .f32) (r₁ : FVec Ideal S64x64 .f32)
    (m₂ : FVec Ideal S300000x64 .f32) (w₂ : FVec Ideal S64x64 .f32) (b₂ : FVec Ideal S64 .f32) (r₂ : FVec Ideal S64x64 .f32) (x : FVec Ideal S300000x64 .f32) :
    Host.tanh (addf
        (addf (addf (Host.dotGeneral (F := Ideal) dot_S300000x64_S64x64_S300000x64_1_0_0_1_n_n none m₁ w₁) (val_main_v6 (F := Ideal) b₁)) (Host.dotGeneral (F := Ideal) dot_S300000x64_S64x64_S300000x64_1_0_0_1_n_n none x r₁))
        (addf (addf (Host.dotGeneral (F := Ideal) dot_S300000x64_S64x64_S300000x64_1_0_0_1_n_n none m₂ w₂) (val_main_v6 (F := Ideal) b₂)) (Host.dotGeneral (F := Ideal) dot_S300000x64_S64x64_S300000x64_1_0_0_1_n_n none x r₂)))
      = Net.conv2 m₁ w₁ b₁ r₁ m₂ w₂ b₂ r₂ x := by
  rw [dot_J64 m₁ w₁, dot_J64 x r₁, dot_J64 m₂ w₂, dot_J64 x r₂, bias_J64 b₁, bias_J64 b₂]; rfl

/-- `tanh (h · w + b)` over the torsos. -/
theorem head_T (h : FVec Ideal S100000x64 .f32) (w : FVec Ideal S64x16 .f32) (b : FVec Ideal S16 .f32) :
    Host.tanh (addf (Host.dotGeneral (F := Ideal) dot_S100000x64_S64x16_S100000x16_1_0_0_1_n_n none h w) (val_main_v136 (F := Ideal) b)) = Net.head h w b := by
  rw [dot_T16, bias_T16]; rfl

/-- `tanh (h · w + b)` over the joints. -/
theorem head_J (h : FVec Ideal S300000x64 .f32) (w : FVec Ideal S64x16 .f32) (b : FVec Ideal S16 .f32) :
    Host.tanh (addf (Host.dotGeneral (F := Ideal) dot_S300000x64_S64x16_S300000x16_1_0_0_1_n_n none h w) (val_main_v141 (F := Ideal) b)) = Net.head h w b := by
  rw [dot_J16, bias_J16]; rfl

/-- The first eight columns of the torso head. -/
theorem headLoc_T (h : FVec Ideal S100000x64 .f32) (w : FVec Ideal S64x16 .f32) (b : FVec Ideal S16 .f32) :
    extractStridedSlice S100000x8 ![0, 0] (Net.head h w b) slices_S100000x16_S100000x8_0_0 = Net.headLoc h w b := by
  funext i
  exact extractStridedSlice_apply ![0, 0] (Net.head h w b) slices_S100000x16_S100000x8_0_0 i
    (ix2 (n0 := 100000) (n1 := 16) (i 0) ⟨(i 1).val, Nat.lt_of_lt_of_le (idx2_lt1 i) (by norm_num)⟩) (fun a => match a with
    | ⟨0, _⟩ => by show (i 0).val = 0 + (i 0).val; omega
    | ⟨1, _⟩ => by show (i 1).val = 0 + (i 1).val; omega)

/-- The first eight columns of the joint head. -/
theorem headLoc_J (h : FVec Ideal S300000x64 .f32) (w : FVec Ideal S64x16 .f32) (b : FVec Ideal S16 .f32) :
    extractStridedSlice S300000x8 ![0, 0] (Net.head h w b) slices_S300000x16_S300000x8_0_0 = Net.headLoc h w b := by
  funext i
  exact extractStridedSlice_apply ![0, 0] (Net.head h w b) slices_S300000x16_S300000x8_0_0 i
    (ix2 (n0 := 300000) (n1 := 16) (i 0) ⟨(i 1).val, Nat.lt_of_lt_of_le (idx2_lt1 i) (by norm_num)⟩) (fun a => match a with
    | ⟨0, _⟩ => by show (i 0).val = 0 + (i 0).val; omega
    | ⟨1, _⟩ => by show (i 1).val = 0 + (i 1).val; omega)

/-- The reference's weight arguments, bundled as the network's. -/
def params
  (x5 : (⟨S32x64, .f32⟩ : BufTy).Contents (Elt Ideal))
  (x6 : (⟨S64, .f32⟩ : BufTy).Contents (Elt Ideal))
  (x7 : (⟨S32x64, .f32⟩ : BufTy).Contents (Elt Ideal))
  (x8 : (⟨S64, .f32⟩ : BufTy).Contents (Elt Ideal))
  (x9 : (⟨S64x64, .f32⟩ : BufTy).Contents (Elt Ideal))
  (x10 : (⟨S64, .f32⟩ : BufTy).Contents (Elt Ideal))
  (x11 : (⟨S64x64, .f32⟩ : BufTy).Contents (Elt Ideal))
  (x12 : (⟨S64x64, .f32⟩ : BufTy).Contents (Elt Ideal))
  (x13 : (⟨S64, .f32⟩ : BufTy).Contents (Elt Ideal))
  (x14 : (⟨S64x64, .f32⟩ : BufTy).Contents (Elt Ideal))
  (x15 : (⟨S64x64, .f32⟩ : BufTy).Contents (Elt Ideal))
  (x16 : (⟨S64, .f32⟩ : BufTy).Contents (Elt Ideal))
  (x17 : (⟨S64x64, .f32⟩ : BufTy).Contents (Elt Ideal))
  (x18 : (⟨S64x64, .f32⟩ : BufTy).Contents (Elt Ideal))
  (x19 : (⟨S64, .f32⟩ : BufTy).Contents (Elt Ideal))
  (x20 : (⟨S64x64, .f32⟩ : BufTy).Contents (Elt Ideal))
  (x21 : (⟨S64x64, .f32⟩ : BufTy).Contents (Elt Ideal))
  (x22 : (⟨S64, .f32⟩ : BufTy).Contents (Elt Ideal))
  (x23 : (⟨S64x64, .f32⟩ : BufTy).Contents (Elt Ideal))
  (x24 : (⟨S64x64, .f32⟩ : BufTy).Contents (Elt Ideal))
  (x25 : (⟨S64, .f32⟩ : BufTy).Contents (Elt Ideal))
  (x26 : (⟨S64x64, .f32⟩ : BufTy).Contents (Elt Ideal))
  (x27 : (⟨S64x16, .f32⟩ : BufTy).Contents (Elt Ideal))
  (x28 : (⟨S16, .f32⟩ : BufTy).Contents (Elt Ideal))
  (x29 : (⟨S64x16, .f32⟩ : BufTy).Contents (Elt Ideal))
  (x30 : (⟨S16, .f32⟩ : BufTy).Contents (Elt Ideal)) : Net.Params :=
  { w0t := x5, b0t := x6, w0j := x7, b0j := x8,
    tjW1 := x9, tjB1 := x10, tjR1 := x11, jtW1 := x12, jtB1 := x13, jtR1 := x14, jjW1 := x15, jjB1 := x16, jjR1 := x17,
    tjW2 := x18, tjB2 := x19, tjR2 := x20, jtW2 := x21, jtB2 := x22, jtR2 := x23, jjW2 := x24, jjB2 := x25, jjR2 := x26,
    w3t := x27, b3t := x28, w3j := x29, b3j := x30 }

/-! ## The reference, stage by stage, over its arguments as variables -/

section Stages

variable
  (x0 : (⟨S100000x32, .f32⟩ : BufTy).Contents (Elt Ideal))
  (x1 : (⟨S300000x32, .f32⟩ : BufTy).Contents (Elt Ideal))
  (x2 : (⟨S2x1000000, .i32⟩ : BufTy).Contents (Elt Ideal))
  (x3 : (⟨S2x1000000, .i32⟩ : BufTy).Contents (Elt Ideal))
  (x4 : (⟨S2x2000000, .i32⟩ : BufTy).Contents (Elt Ideal))
  (x5 : (⟨S32x64, .f32⟩ : BufTy).Contents (Elt Ideal))
  (x6 : (⟨S64, .f32⟩ : BufTy).Contents (Elt Ideal))
  (x7 : (⟨S32x64, .f32⟩ : BufTy).Contents (Elt Ideal))
  (x8 : (⟨S64, .f32⟩ : BufTy).Contents (Elt Ideal))
  (x9 : (⟨S64x64, .f32⟩ : BufTy).Contents (Elt Ideal))
  (x10 : (⟨S64, .f32⟩ : BufTy).Contents (Elt Ideal))
  (x11 : (⟨S64x64, .f32⟩ : BufTy).Contents (Elt Ideal))
  (x12 : (⟨S64x64, .f32⟩ : BufTy).Contents (Elt Ideal))
  (x13 : (⟨S64, .f32⟩ : BufTy).Contents (Elt Ideal))
  (x14 : (⟨S64x64, .f32⟩ : BufTy).Contents (Elt Ideal))
  (x15 : (⟨S64x64, .f32⟩ : BufTy).Contents (Elt Ideal))
  (x16 : (⟨S64, .f32⟩ : BufTy).Contents (Elt Ideal))
  (x17 : (⟨S64x64, .f32⟩ : BufTy).Contents (Elt Ideal))
  (x18 : (⟨S64x64, .f32⟩ : BufTy).Contents (Elt Ideal))
  (x19 : (⟨S64, .f32⟩ : BufTy).Contents (Elt Ideal))
  (x20 : (⟨S64x64, .f32⟩ : BufTy).Contents (Elt Ideal))
  (x21 : (⟨S64x64, .f32⟩ : BufTy).Contents (Elt Ideal))
  (x22 : (⟨S64, .f32⟩ : BufTy).Contents (Elt Ideal))
  (x23 : (⟨S64x64, .f32⟩ : BufTy).Contents (Elt Ideal))
  (x24 : (⟨S64x64, .f32⟩ : BufTy).Contents (Elt Ideal))
  (x25 : (⟨S64, .f32⟩ : BufTy).Contents (Elt Ideal))
  (x26 : (⟨S64x64, .f32⟩ : BufTy).Contents (Elt Ideal))
  (x27 : (⟨S64x16, .f32⟩ : BufTy).Contents (Elt Ideal))
  (x28 : (⟨S16, .f32⟩ : BufTy).Contents (Elt Ideal))
  (x29 : (⟨S64x16, .f32⟩ : BufTy).Contents (Elt Ideal))
  (x30 : (⟨S16, .f32⟩ : BufTy).Contents (Elt Ideal))

/-- The torso input map. -/
theorem v3_eq : val_main_v3 (F := Ideal) x0 x5 x6 = Net.affine x0 x5 x6 := by
  unfold val_main_v3 val_main_v0; exact affine_T x0 x5 x6

/-- The joint input map. -/
theorem v7_eq : val_main_v7 (F := Ideal) x1 x7 x8 = Net.affine x1 x7 x8 := by
  unfold val_main_v7 val_main_v4; exact affine_J x1 x7 x8

/-- Layer 1: the three neighbour sums are the three named functions of the input features. -/
theorem v21_eq : val_main_v21 (F := Ideal) x1 x3 x7 x8 = jtSum x3 (val_main_v7 (F := Ideal) x1 x7 x8) := rfl
theorem v41_eq : val_main_v41 (F := Ideal) x0 x2 x5 x6 = tjSum x2 (val_main_v3 (F := Ideal) x0 x5 x6) := rfl
theorem v61_eq : val_main_v61 (F := Ideal) x1 x4 x7 x8 = jjSum x4 (val_main_v7 (F := Ideal) x1 x7 x8) := rfl

/-- Layer 2: the same three functions, of the layer-1 features. -/
theorem v84_eq : val_main_v84 (F := Ideal) x0 x1 x2 x3 x4 x5 x6 x7 x8 x9 x10 x11 x15 x16 x17 = jtSum x3 (val_main_v70 (F := Ideal) x0 x1 x2 x4 x5 x6 x7 x8 x9 x10 x11 x15 x16 x17) := rfl
theorem v104_eq : val_main_v104 (F := Ideal) x0 x1 x2 x3 x5 x6 x7 x8 x12 x13 x14 = tjSum x2 (val_main_v69 (F := Ideal) x0 x1 x3 x5 x6 x7 x8 x12 x13 x14) := rfl
theorem v124_eq : val_main_v124 (F := Ideal) x0 x1 x2 x4 x5 x6 x7 x8 x9 x10 x11 x15 x16 x17 = jjSum x4 (val_main_v70 (F := Ideal) x0 x1 x2 x4 x5 x6 x7 x8 x9 x10 x11 x15 x16 x17) := rfl

/-- Layer 1, torsos. -/
theorem v69_eq : val_main_v69 (F := Ideal) x0 x1 x3 x5 x6 x7 x8 x12 x13 x14 = Net.t1 (params x5 x6 x7 x8 x9 x10 x11 x12 x13 x14 x15 x16 x17 x18 x19 x20 x21 x22 x23 x24 x25 x26 x27 x28 x29 x30) (aggs x2 x3 x4) x0 x1 := by
  unfold val_main_v69 val_main_v27 val_main_v25 val_main_v22 val_main_v26
  rw [v21_eq, v7_eq, v3_eq]
  exact conv1_T _ _ _ _ _

/-- Layer 1, joints. -/
theorem v70_eq : val_main_v70 (F := Ideal) x0 x1 x2 x4 x5 x6 x7 x8 x9 x10 x11 x15 x16 x17 = Net.j1 (params x5 x6 x7 x8 x9 x10 x11 x12 x13 x14 x15 x16 x17 x18 x19 x20 x21 x22 x23 x24 x25 x26 x27 x28 x29 x30) (aggs x2 x3 x4) x0 x1 := by
  unfold val_main_v70 val_main_v68 val_main_v47 val_main_v45 val_main_v42 val_main_v46 val_main_v67 val_main_v65 val_main_v62 val_main_v66
  rw [v41_eq, v61_eq, v7_eq, v3_eq]
  exact conv2_J _ _ _ _ _ _ _ _ _

/-- Layer 2, torsos. -/
theorem v132_eq : val_main_v132 (F := Ideal) x0 x1 x2 x3 x4 x5 x6 x7 x8 x9 x10 x11 x12 x13 x14 x15 x16 x17 x21 x22 x23 = Net.t2 (params x5 x6 x7 x8 x9 x10 x11 x12 x13 x14 x15 x16 x17 x18 x19 x20 x21 x22 x23 x24 x25 x26 x27 x28 x29 x30) (aggs x2 x3 x4) x0 x1 := by
  unfold val_main_v132 val_main_v90 val_main_v88 val_main_v85 val_main_v89
  rw [v84_eq, v70_eq x0 x1 x2 x3 x4 x5 x6 x7 x8 x9 x10 x11 x12 x13 x14 x15 x16 x17 x18 x19 x20 x21 x22 x23 x24 x25 x26 x27 x28 x29 x30, v69_eq x0 x1 x2 x3 x4 x5 x6 x7 x8 x9 x10 x11 x12 x13 x14 x15 x16 x17 x18 x19 x20 x21 x22 x23 x24 x25 x26 x27 x28 x29 x30]
  exact conv1_T _ _ _ _ _

/-- Layer 2, joints. -/
theorem v133_eq : val_main_v133 (F := Ideal) x0 x1 x2 x3 x4 x5 x6 x7 x8 x9 x10 x11 x12 x13 x14 x15 x16 x17 x18 x19 x20 x24 x25 x26 = Net.j2 (params x5 x6 x7 x8 x9 x10 x11 x12 x13 x14 x15 x16 x17 x18 x19 x20 x21 x22 x23 x24 x25 x26 x27 x28 x29 x30) (aggs x2 x3 x4) x0 x1 := by
  unfold val_main_v133 val_main_v131 val_main_v110 val_main_v108 val_main_v105 val_main_v109 val_main_v130 val_main_v128 val_main_v125 val_main_v129
  rw [v104_eq, v124_eq, v70_eq x0 x1 x2 x3 x4 x5 x6 x7 x8 x9 x10 x11 x12 x13 x14 x15 x16 x17 x18 x19 x20 x21 x22 x23 x24 x25 x26 x27 x28 x29 x30, v69_eq x0 x1 x2 x3 x4 x5 x6 x7 x8 x9 x10 x11 x12 x13 x14 x15 x16 x17 x18 x19 x20 x21 x22 x23 x24 x25 x26 x27 x28 x29 x30]
  exact conv2_J _ _ _ _ _ _ _ _ _

end Stages

/-! ## At the launch contents of a run -/

/-- The weights a run reads from its launch contents. -/
def P (m : (ℓ : Loc nD τ sig) → Buf (Elt Ideal) ℓ) (c : Dev nD) : Net.Params :=
  params (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))
    (m ((c.tc : Thread nD τ).loc main_arg18))
    (m ((c.tc : Thread nD τ).loc main_arg19))
    (m ((c.tc : Thread nD τ).loc main_arg20))
    (m ((c.tc : Thread nD τ).loc main_arg21))
    (m ((c.tc : Thread nD τ).loc main_arg22))
    (m ((c.tc : Thread nD τ).loc main_arg23))
    (m ((c.tc : Thread nD τ).loc main_arg24))
    (m ((c.tc : Thread nD τ).loc main_arg25))
    (m ((c.tc : Thread nD τ).loc main_arg26))
    (m ((c.tc : Thread nD τ).loc main_arg27))
    (m ((c.tc : Thread nD τ).loc main_arg28))
    (m ((c.tc : Thread nD τ).loc main_arg29))
    (m ((c.tc : Thread nD τ).loc main_arg30))

/-- The neighbour sums on the edge lists a run reads from its launch contents. -/
def A (m : (ℓ : Loc nD τ sig) → Buf (Elt Ideal) ℓ) (c : Dev nD) : Net.Aggs :=
  aggs (m ((c.tc : Thread nD τ).loc main_arg2)) (m ((c.tc : Thread nD τ).loc main_arg3)) (m ((c.tc : Thread nD τ).loc main_arg4))

/-- Layer 2's torso features in a run. -/
theorem t2_run (m : (ℓ : Loc nD τ sig) → Buf (Elt Ideal) ℓ) (c : Dev nD) :
    val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg21)) (m ((c.tc : Thread nD τ).loc main_arg22)) (m ((c.tc : Thread nD τ).loc main_arg23))
      = Net.t2 (P m c) (A m c) (m ((c.tc : Thread nD τ).loc main_arg0)) (m ((c.tc : Thread nD τ).loc main_arg1)) :=
  v132_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))

/-- Layer 2's joint features in a run. -/
theorem j2_run (m : (ℓ : Loc nD τ sig) → Buf (Elt Ideal) ℓ) (c : Dev nD) :
    val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg24)) (m ((c.tc : Thread nD τ).loc main_arg25)) (m ((c.tc : Thread nD τ).loc main_arg26))
      = Net.j2 (P m c) (A m c) (m ((c.tc : Thread nD τ).loc main_arg0)) (m ((c.tc : Thread nD τ).loc main_arg1)) :=
  v133_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))

end Cert.ReferenceIdeal.RefNet

end
-- ==== Proof.RefHeads.lean ====
/-
  The reference's two output heads, each as the head of the specification applied to its hidden features.

  For each node type the reference computes, from hidden features h (one row of 64 per node), a weight w (64 × 16)
  and a bias b (16): the product h · w, the bias laid along every row, their sum, tanh of it (sixteen columns); the
  first eight columns are the location; to the last eight it adds a constant and applies softplus, written as a
  selection between x + 0, taken where x - 0 compares different from itself, and
  max (x, 0) + log1p (exp (-|x - 0|)).  On the extended reals nothing differs from itself, so the selection always
  takes the second form, and -a = 0 - a: this is the specification's shifted softplus of the un-shifted entry.

  The hidden features are kept as ONE term throughout (the value of the stage below the head): nothing below the head
  is opened here.
-/
import proofs.«157873_j19705309954765_1_alg».proof.Proof.Gen.ReferenceIdeal.Read
import proofs.«157873_j19705309954765_1_alg».proof.Proof.Spec
import Idealize.ShloMosaic.Lib.ValueIdx
import Idealize.ShloMosaic.PureOps.Ideal.Laws

noncomputable section

namespace Cert.ReferenceIdeal.RefHeads

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## softplus of a shifted value, as the reference writes it -/

/-- On the extended reals no value differs from itself. -/
theorem cmp_une_self (d : EReal) : Ideal.cmp .une d d = 0#1 := by
  unfold Ideal.cmp
  simp

/-- The reference's softplus of `t` plus the shift: the selection takes its stable form, and negating is subtracting
    from zero. -/
theorem softplus_eq (t : EReal) :
    Scalar.select
        (Ideal.cmp .une (t + Ideal.ofBits .f32 0x3F0A9444#32 - Ideal.ofBits .f32 0x00000000#32)
          (t + Ideal.ofBits .f32 0x3F0A9444#32 - Ideal.ofBits .f32 0x00000000#32))
        (t + Ideal.ofBits .f32 0x3F0A9444#32 + Ideal.ofBits .f32 0x00000000#32)
        (max (t + Ideal.ofBits .f32 0x3F0A9444#32) (Ideal.ofBits .f32 0x00000000#32)
          + Ideal.log1p (Ideal.exp (-(max (t + Ideal.ofBits .f32 0x3F0A9444#32 - Ideal.ofBits .f32 0x00000000#32)
              (-(t + Ideal.ofBits .f32 0x3F0A9444#32 - Ideal.ofBits .f32 0x00000000#32))))))
      = Cert.Net.softplusShift t := by
  rw [cmp_une_self, select_zero]
  unfold Cert.Net.softplusShift
  rw [Ideal.ofBits_zero_f32, zero_sub]

/-! ## The head of the first node type -/

/-- tanh (h · w + b) over the first node type' hidden features, all sixteen columns. -/
theorem head_t (x0 : (⟨S100000x32, .f32⟩ : BufTy).Contents (Elt Ideal)) (x1 : (⟨S300000x32, .f32⟩ : BufTy).Contents (Elt Ideal)) (x2 x3 : (⟨S2x1000000, .i32⟩ : BufTy).Contents (Elt Ideal)) (x4 : (⟨S2x2000000, .i32⟩ : BufTy).Contents (Elt Ideal)) (x5 : (⟨S32x64, .f32⟩ : BufTy).Contents (Elt Ideal)) (x6 : (⟨S64, .f32⟩ : BufTy).Contents (Elt Ideal)) (x7 : (⟨S32x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 x12 : (⟨S64x64, .f32⟩ : BufTy).Contents (Elt Ideal)) (x13 : (⟨S64, .f32⟩ : BufTy).Contents (Elt Ideal)) (x14 x15 : (⟨S64x64, .f32⟩ : BufTy).Contents (Elt Ideal)) (x16 : (⟨S64, .f32⟩ : BufTy).Contents (Elt Ideal)) (x17 x21 : (⟨S64x64, .f32⟩ : BufTy).Contents (Elt Ideal)) (x22 : (⟨S64, .f32⟩ : BufTy).Contents (Elt Ideal)) (x23 : (⟨S64x64, .f32⟩ : BufTy).Contents (Elt Ideal)) (x27 : (⟨S64x16, .f32⟩ : BufTy).Contents (Elt Ideal)) (x28 : (⟨S16, .f32⟩ : BufTy).Contents (Elt Ideal)) :
    val_main_v138 (F := Ideal) x0 x1 x2 x3 x4 x5 x6 x7 x8 x9 x10 x11 x12 x13 x14 x15 x16 x17 x21 x22 x23 x27 x28 = Cert.Net.head (val_main_v132 (F := Ideal) x0 x1 x2 x3 x4 x5 x6 x7 x8 x9 x10 x11 x12 x13 x14 x15 x16 x17 x21 x22 x23) x27 x28 := by
  funext i
  obtain ⟨r, q, rfl⟩ : ∃ (r : Fin 100000) (q : Fin 16), i = ix2 r q := ⟨i 0, i 1, eq_ix2 i⟩
  rw [val_main_v138_apply, val_main_v137_apply, val_main_v134_apply, val_main_v136_apply, val_main_v135_apply]
  generalize val_main_v132 (F := Ideal) x0 x1 x2 x3 x4 x5 x6 x7 x8 x9 x10 x11 x12 x13 x14 x15 x16 x17 x21 x22 x23 = h
  unfold Cert.Net.head Cert.Net.affine Cert.Net.mm
  show Ideal.tanh ((∑ k : Fin 64, h (lidx_main_v134 (ix2 r q) k) * x27 (ridx_main_v134 (ix2 r q) k)) + x28 (idx_main_v135 (idx_main_v136 (ix2 r q))))
    = Ideal.tanh ((∑ j : Fin 64, h (ix2 r j) * x27 (ix2 j q)) + x28 (ix1 q))
  have el : ∀ k : Fin 64, lidx_main_v134 (ix2 (n0 := 100000) (n1 := 16) r q) k = ix2 r k := fun k =>
    funext fun a => Fin.ext (by match a with | ⟨0, _⟩ => rfl | ⟨1, _⟩ => rfl)
  have er : ∀ k : Fin 64, ridx_main_v134 (ix2 (n0 := 100000) (n1 := 16) r q) k = ix2 k q := fun k =>
    funext fun a => Fin.ext (by match a with | ⟨0, _⟩ => rfl | ⟨1, _⟩ => rfl)
  have eb : idx_main_v135 (idx_main_v136 (ix2 (n0 := 100000) (n1 := 16) r q)) = ix1 q :=
    funext fun a => Fin.ext (by match a with | ⟨0, _⟩ => rfl)
  rw [eb]
  exact congrArg Ideal.tanh (congrArg (· + _) (Finset.sum_congr rfl fun k _ => by rw [el k, er k]))

/-- The location of the first node type: the head's first eight columns. -/
theorem loc_t (x0 : (⟨S100000x32, .f32⟩ : BufTy).Contents (Elt Ideal)) (x1 : (⟨S300000x32, .f32⟩ : BufTy).Contents (Elt Ideal)) (x2 x3 : (⟨S2x1000000, .i32⟩ : BufTy).Contents (Elt Ideal)) (x4 : (⟨S2x2000000, .i32⟩ : BufTy).Contents (Elt Ideal)) (x5 : (⟨S32x64, .f32⟩ : BufTy).Contents (Elt Ideal)) (x6 : (⟨S64, .f32⟩ : BufTy).Contents (Elt Ideal)) (x7 : (⟨S32x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 x12 : (⟨S64x64, .f32⟩ : BufTy).Contents (Elt Ideal)) (x13 : (⟨S64, .f32⟩ : BufTy).Contents (Elt Ideal)) (x14 x15 : (⟨S64x64, .f32⟩ : BufTy).Contents (Elt Ideal)) (x16 : (⟨S64, .f32⟩ : BufTy).Contents (Elt Ideal)) (x17 x21 : (⟨S64x64, .f32⟩ : BufTy).Contents (Elt Ideal)) (x22 : (⟨S64, .f32⟩ : BufTy).Contents (Elt Ideal)) (x23 : (⟨S64x64, .f32⟩ : BufTy).Contents (Elt Ideal)) (x27 : (⟨S64x16, .f32⟩ : BufTy).Contents (Elt Ideal)) (x28 : (⟨S16, .f32⟩ : BufTy).Contents (Elt Ideal)) :
    val_main_v144 (F := Ideal) x0 x1 x2 x3 x4 x5 x6 x7 x8 x9 x10 x11 x12 x13 x14 x15 x16 x17 x21 x22 x23 x27 x28 = Cert.Net.headLoc (val_main_v132 (F := Ideal) x0 x1 x2 x3 x4 x5 x6 x7 x8 x9 x10 x11 x12 x13 x14 x15 x16 x17 x21 x22 x23) x27 x28 := by
  funext i
  rw [val_main_v144_apply, head_t]
  unfold Cert.Net.headLoc
  exact congrArg _ (funext fun a => Fin.ext (by match a with | ⟨0, _⟩ => rfl | ⟨1, _⟩ => rfl))

/-- The scale of the first node type: softplus of the head's last eight columns, shifted. -/
theorem scale_t (x0 : (⟨S100000x32, .f32⟩ : BufTy).Contents (Elt Ideal)) (x1 : (⟨S300000x32, .f32⟩ : BufTy).Contents (Elt Ideal)) (x2 x3 : (⟨S2x1000000, .i32⟩ : BufTy).Contents (Elt Ideal)) (x4 : (⟨S2x2000000, .i32⟩ : BufTy).Contents (Elt Ideal)) (x5 : (⟨S32x64, .f32⟩ : BufTy).Contents (Elt Ideal)) (x6 : (⟨S64, .f32⟩ : BufTy).Contents (Elt Ideal)) (x7 : (⟨S32x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 x12 : (⟨S64x64, .f32⟩ : BufTy).Contents (Elt Ideal)) (x13 : (⟨S64, .f32⟩ : BufTy).Contents (Elt Ideal)) (x14 x15 : (⟨S64x64, .f32⟩ : BufTy).Contents (Elt Ideal)) (x16 : (⟨S64, .f32⟩ : BufTy).Contents (Elt Ideal)) (x17 x21 : (⟨S64x64, .f32⟩ : BufTy).Contents (Elt Ideal)) (x22 : (⟨S64, .f32⟩ : BufTy).Contents (Elt Ideal)) (x23 : (⟨S64x64, .f32⟩ : BufTy).Contents (Elt Ideal)) (x27 : (⟨S64x16, .f32⟩ : BufTy).Contents (Elt Ideal)) (x28 : (⟨S16, .f32⟩ : BufTy).Contents (Elt Ideal)) :
    val_main_v150 (F := Ideal) x0 x1 x2 x3 x4 x5 x6 x7 x8 x9 x10 x11 x12 x13 x14 x15 x16 x17 x21 x22 x23 x27 x28 = Cert.Net.headScale (val_main_v132 (F := Ideal) x0 x1 x2 x3 x4 x5 x6 x7 x8 x9 x10 x11 x12 x13 x14 x15 x16 x17 x21 x22 x23) x27 x28 := by
  funext i
  rw [val_main_v150_apply, val_main_call0_v4_apply, val_main_call0_v6_apply, val_main_call0_v11_apply, val_main_call0_v1_apply, val_main_call0_v10_apply,
    val_main_call0_v9_apply, val_main_call0_v8_apply, val_main_call0_v7_apply, val_main_call0_v3_apply, val_main_call0_v0_apply, val_main_call0_v2_apply,
    val_main_call0_v5_apply, val_main_call0_cst_apply, val_main_v149_apply, val_main_v148_apply, val_main_cst_16_apply, val_main_v145_apply, head_t]
  generalize val_main_v132 (F := Ideal) x0 x1 x2 x3 x4 x5 x6 x7 x8 x9 x10 x11 x12 x13 x14 x15 x16 x17 x21 x22 x23 = h
  refine (softplus_eq (Cert.Net.head h x27 x28 (idx_main_v145 i))).trans ?_
  unfold Cert.Net.headScale
  refine congrArg Cert.Net.softplusShift (congrArg (Cert.Net.head h x27 x28) (funext fun a => Fin.ext ?_))
  match a with
  | ⟨0, _⟩ => rfl
  | ⟨1, _⟩ => show 8 + (i 1).val = (i 1).val + 8; omega

/-! ## The head of the second node type -/

/-- tanh (h · w + b) over the second node type' hidden features, all sixteen columns. -/
theorem head_j (x0 : (⟨S100000x32, .f32⟩ : BufTy).Contents (Elt Ideal)) (x1 : (⟨S300000x32, .f32⟩ : BufTy).Contents (Elt Ideal)) (x2 x3 : (⟨S2x1000000, .i32⟩ : BufTy).Contents (Elt Ideal)) (x4 : (⟨S2x2000000, .i32⟩ : BufTy).Contents (Elt Ideal)) (x5 : (⟨S32x64, .f32⟩ : BufTy).Contents (Elt Ideal)) (x6 : (⟨S64, .f32⟩ : BufTy).Contents (Elt Ideal)) (x7 : (⟨S32x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 x12 : (⟨S64x64, .f32⟩ : BufTy).Contents (Elt Ideal)) (x13 : (⟨S64, .f32⟩ : BufTy).Contents (Elt Ideal)) (x14 x15 : (⟨S64x64, .f32⟩ : BufTy).Contents (Elt Ideal)) (x16 : (⟨S64, .f32⟩ : BufTy).Contents (Elt Ideal)) (x17 x18 : (⟨S64x64, .f32⟩ : BufTy).Contents (Elt Ideal)) (x19 : (⟨S64, .f32⟩ : BufTy).Contents (Elt Ideal)) (x20 x24 : (⟨S64x64, .f32⟩ : BufTy).Contents (Elt Ideal)) (x25 : (⟨S64, .f32⟩ : BufTy).Contents (Elt Ideal)) (x26 : (⟨S64x64, .f32⟩ : BufTy).Contents (Elt Ideal)) (x29 : (⟨S64x16, .f32⟩ : BufTy).Contents (Elt Ideal)) (x30 : (⟨S16, .f32⟩ : BufTy).Contents (Elt Ideal)) :
    val_main_v143 (F := Ideal) x0 x1 x2 x3 x4 x5 x6 x7 x8 x9 x10 x11 x12 x13 x14 x15 x16 x17 x18 x19 x20 x24 x25 x26 x29 x30 = Cert.Net.head (val_main_v133 (F := Ideal) x0 x1 x2 x3 x4 x5 x6 x7 x8 x9 x10 x11 x12 x13 x14 x15 x16 x17 x18 x19 x20 x24 x25 x26) x29 x30 := by
  funext i
  obtain ⟨r, q, rfl⟩ : ∃ (r : Fin 300000) (q : Fin 16), i = ix2 r q := ⟨i 0, i 1, eq_ix2 i⟩
  rw [val_main_v143_apply, val_main_v142_apply, val_main_v139_apply, val_main_v141_apply, val_main_v140_apply]
  generalize val_main_v133 (F := Ideal) x0 x1 x2 x3 x4 x5 x6 x7 x8 x9 x10 x11 x12 x13 x14 x15 x16 x17 x18 x19 x20 x24 x25 x26 = h
  unfold Cert.Net.head Cert.Net.affine Cert.Net.mm
  show Ideal.tanh ((∑ k : Fin 64, h (lidx_main_v139 (ix2 r q) k) * x29 (ridx_main_v139 (ix2 r q) k)) + x30 (idx_main_v140 (idx_main_v141 (ix2 r q))))
    = Ideal.tanh ((∑ j : Fin 64, h (ix2 r j) * x29 (ix2 j q)) + x30 (ix1 q))
  have el : ∀ k : Fin 64, lidx_main_v139 (ix2 (n0 := 300000) (n1 := 16) r q) k = ix2 r k := fun k =>
    funext fun a => Fin.ext (by match a with | ⟨0, _⟩ => rfl | ⟨1, _⟩ => rfl)
  have er : ∀ k : Fin 64, ridx_main_v139 (ix2 (n0 := 300000) (n1 := 16) r q) k = ix2 k q := fun k =>
    funext fun a => Fin.ext (by match a with | ⟨0, _⟩ => rfl | ⟨1, _⟩ => rfl)
  have eb : idx_main_v140 (idx_main_v141 (ix2 (n0 := 300000) (n1 := 16) r q)) = ix1 q :=
    funext fun a => Fin.ext (by match a with | ⟨0, _⟩ => rfl)
  rw [eb]
  exact congrArg Ideal.tanh (congrArg (· + _) (Finset.sum_congr rfl fun k _ => by rw [el k, er k]))

/-- The location of the second node type: the head's first eight columns. -/
theorem loc_j (x0 : (⟨S100000x32, .f32⟩ : BufTy).Contents (Elt Ideal)) (x1 : (⟨S300000x32, .f32⟩ : BufTy).Contents (Elt Ideal)) (x2 x3 : (⟨S2x1000000, .i32⟩ : BufTy).Contents (Elt Ideal)) (x4 : (⟨S2x2000000, .i32⟩ : BufTy).Contents (Elt Ideal)) (x5 : (⟨S32x64, .f32⟩ : BufTy).Contents (Elt Ideal)) (x6 : (⟨S64, .f32⟩ : BufTy).Contents (Elt Ideal)) (x7 : (⟨S32x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 x12 : (⟨S64x64, .f32⟩ : BufTy).Contents (Elt Ideal)) (x13 : (⟨S64, .f32⟩ : BufTy).Contents (Elt Ideal)) (x14 x15 : (⟨S64x64, .f32⟩ : BufTy).Contents (Elt Ideal)) (x16 : (⟨S64, .f32⟩ : BufTy).Contents (Elt Ideal)) (x17 x18 : (⟨S64x64, .f32⟩ : BufTy).Contents (Elt Ideal)) (x19 : (⟨S64, .f32⟩ : BufTy).Contents (Elt Ideal)) (x20 x24 : (⟨S64x64, .f32⟩ : BufTy).Contents (Elt Ideal)) (x25 : (⟨S64, .f32⟩ : BufTy).Contents (Elt Ideal)) (x26 : (⟨S64x64, .f32⟩ : BufTy).Contents (Elt Ideal)) (x29 : (⟨S64x16, .f32⟩ : BufTy).Contents (Elt Ideal)) (x30 : (⟨S16, .f32⟩ : BufTy).Contents (Elt Ideal)) :
    val_main_v146 (F := Ideal) x0 x1 x2 x3 x4 x5 x6 x7 x8 x9 x10 x11 x12 x13 x14 x15 x16 x17 x18 x19 x20 x24 x25 x26 x29 x30 = Cert.Net.headLoc (val_main_v133 (F := Ideal) x0 x1 x2 x3 x4 x5 x6 x7 x8 x9 x10 x11 x12 x13 x14 x15 x16 x17 x18 x19 x20 x24 x25 x26) x29 x30 := by
  funext i
  rw [val_main_v146_apply, head_j]
  unfold Cert.Net.headLoc
  exact congrArg _ (funext fun a => Fin.ext (by match a with | ⟨0, _⟩ => rfl | ⟨1, _⟩ => rfl))

/-- The scale of the second node type: softplus of the head's last eight columns, shifted. -/
theorem scale_j (x0 : (⟨S100000x32, .f32⟩ : BufTy).Contents (Elt Ideal)) (x1 : (⟨S300000x32, .f32⟩ : BufTy).Contents (Elt Ideal)) (x2 x3 : (⟨S2x1000000, .i32⟩ : BufTy).Contents (Elt Ideal)) (x4 : (⟨S2x2000000, .i32⟩ : BufTy).Contents (Elt Ideal)) (x5 : (⟨S32x64, .f32⟩ : BufTy).Contents (Elt Ideal)) (x6 : (⟨S64, .f32⟩ : BufTy).Contents (Elt Ideal)) (x7 : (⟨S32x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 x12 : (⟨S64x64, .f32⟩ : BufTy).Contents (Elt Ideal)) (x13 : (⟨S64, .f32⟩ : BufTy).Contents (Elt Ideal)) (x14 x15 : (⟨S64x64, .f32⟩ : BufTy).Contents (Elt Ideal)) (x16 : (⟨S64, .f32⟩ : BufTy).Contents (Elt Ideal)) (x17 x18 : (⟨S64x64, .f32⟩ : BufTy).Contents (Elt Ideal)) (x19 : (⟨S64, .f32⟩ : BufTy).Contents (Elt Ideal)) (x20 x24 : (⟨S64x64, .f32⟩ : BufTy).Contents (Elt Ideal)) (x25 : (⟨S64, .f32⟩ : BufTy).Contents (Elt Ideal)) (x26 : (⟨S64x64, .f32⟩ : BufTy).Contents (Elt Ideal)) (x29 : (⟨S64x16, .f32⟩ : BufTy).Contents (Elt Ideal)) (x30 : (⟨S16, .f32⟩ : BufTy).Contents (Elt Ideal)) :
    val_main_v153 (F := Ideal) x0 x1 x2 x3 x4 x5 x6 x7 x8 x9 x10 x11 x12 x13 x14 x15 x16 x17 x18 x19 x20 x24 x25 x26 x29 x30 = Cert.Net.headScale (val_main_v133 (F := Ideal) x0 x1 x2 x3 x4 x5 x6 x7 x8 x9 x10 x11 x12 x13 x14 x15 x16 x17 x18 x19 x20 x24 x25 x26) x29 x30 := by
  funext i
  rw [val_main_v153_apply, val_main_call1_v4_apply, val_main_call1_v6_apply, val_main_call1_v11_apply, val_main_call1_v1_apply, val_main_call1_v10_apply,
    val_main_call1_v9_apply, val_main_call1_v8_apply, val_main_call1_v7_apply, val_main_call1_v3_apply, val_main_call1_v0_apply, val_main_call1_v2_apply,
    val_main_call1_v5_apply, val_main_call1_cst_apply, val_main_v152_apply, val_main_v151_apply, val_main_cst_17_apply, val_main_v147_apply, head_j]
  generalize val_main_v133 (F := Ideal) x0 x1 x2 x3 x4 x5 x6 x7 x8 x9 x10 x11 x12 x13 x14 x15 x16 x17 x18 x19 x20 x24 x25 x26 = h
  refine (softplus_eq (Cert.Net.head h x29 x30 (idx_main_v147 i))).trans ?_
  unfold Cert.Net.headScale
  refine congrArg Cert.Net.softplusShift (congrArg (Cert.Net.head h x29 x30) (funext fun a => Fin.ext ?_))
  match a with
  | ⟨0, _⟩ => rfl
  | ⟨1, _⟩ => show 8 + (i 1).val = (i 1).val + 8; omega

end Cert.ReferenceIdeal.RefHeads

end
-- ==== Proof.RefOut.lean ====
/-
  The four results of the reference's run are the network's outputs on the launch contents: each result is its
  stage of the program at the arguments, a location is the first eight columns of a head and a scale the softplus of
  its shifted last eight, and the features under the heads are the second layer's of the network on the bundled weights
  and the three neighbour sums.
-/
import proofs.«157873_j19705309954765_1_alg».proof.Proof.RefNet
import proofs.«157873_j19705309954765_1_alg».proof.Proof.RefHeads

noncomputable section

namespace Cert.ReferenceIdeal.RefOut

open Cert.ReferenceIdeal Cert.ReferenceIdeal.Gen Cert.ReferenceIdeal.Read Idealize.ShloMosaic Idealize.ShloMosaic.TcCoe Idealize.SL.Sem Idealize.ShloMosaic.StableHlo

/-- The torso location. -/
theorem out0 (m : (ℓ : Loc nD τ sig) → Buf (Elt Ideal) ℓ) (c : Dev nD) :
    Cert.ReferenceIdeal.Value.res_main_v144 (F := Ideal) m c
      = Cert.Net.headLoc (Cert.Net.t2 (RefNet.P m c) (RefNet.A m c) (m ((c.tc : Thread nD τ).loc main_arg0)) (m ((c.tc : Thread nD τ).loc main_arg1))) (RefNet.P m c).w3t (RefNet.P m c).b3t :=
  (val_main_v144_eq (F := Ideal) m c).trans
    ((RefHeads.loc_t (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg21)) (m ((c.tc : Thread nD τ).loc main_arg22)) (m ((c.tc : Thread nD τ).loc main_arg23)) (m ((c.tc : Thread nD τ).loc main_arg27)) (m ((c.tc : Thread nD τ).loc main_arg28))).trans (by rw [RefNet.t2_run m c]; rfl))

/-- The torso scale. -/
theorem out1 (m : (ℓ : Loc nD τ sig) → Buf (Elt Ideal) ℓ) (c : Dev nD) :
    Cert.ReferenceIdeal.Value.res_main_v150 (F := Ideal) m c
      = Cert.Net.headScale (Cert.Net.t2 (RefNet.P m c) (RefNet.A m c) (m ((c.tc : Thread nD τ).loc main_arg0)) (m ((c.tc : Thread nD τ).loc main_arg1))) (RefNet.P m c).w3t (RefNet.P m c).b3t :=
  (val_main_v150_eq (F := Ideal) m c).trans
    ((RefHeads.scale_t (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg21)) (m ((c.tc : Thread nD τ).loc main_arg22)) (m ((c.tc : Thread nD τ).loc main_arg23)) (m ((c.tc : Thread nD τ).loc main_arg27)) (m ((c.tc : Thread nD τ).loc main_arg28))).trans (by rw [RefNet.t2_run m c]; rfl))

/-- The joint location. -/
theorem out2 (m : (ℓ : Loc nD τ sig) → Buf (Elt Ideal) ℓ) (c : Dev nD) :
    Cert.ReferenceIdeal.Value.res_main_v146 (F := Ideal) m c
      = Cert.Net.headLoc (Cert.Net.j2 (RefNet.P m c) (RefNet.A m c) (m ((c.tc : Thread nD τ).loc main_arg0)) (m ((c.tc : Thread nD τ).loc main_arg1))) (RefNet.P m c).w3j (RefNet.P m c).b3j :=
  (val_main_v146_eq (F := Ideal) m c).trans
    ((RefHeads.loc_j (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg24)) (m ((c.tc : Thread nD τ).loc main_arg25)) (m ((c.tc : Thread nD τ).loc main_arg26)) (m ((c.tc : Thread nD τ).loc main_arg29)) (m ((c.tc : Thread nD τ).loc main_arg30))).trans (by rw [RefNet.j2_run m c]; rfl))

/-- The joint scale. -/
theorem out3 (m : (ℓ : Loc nD τ sig) → Buf (Elt Ideal) ℓ) (c : Dev nD) :
    Cert.ReferenceIdeal.Value.res_main_v153 (F := Ideal) m c
      = Cert.Net.headScale (Cert.Net.j2 (RefNet.P m c) (RefNet.A m c) (m ((c.tc : Thread nD τ).loc main_arg0)) (m ((c.tc : Thread nD τ).loc main_arg1))) (RefNet.P m c).w3j (RefNet.P m c).b3j :=
  (val_main_v153_eq (F := Ideal) m c).trans
    ((RefHeads.scale_j (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg24)) (m ((c.tc : Thread nD τ).loc main_arg25)) (m ((c.tc : Thread nD τ).loc main_arg26)) (m ((c.tc : Thread nD τ).loc main_arg29)) (m ((c.tc : Thread nD τ).loc main_arg30))).trans (by rw [RefNet.j2_run m c]; rfl))

end Cert.ReferenceIdeal.RefOut

end
-- ==== Proof.Bridge.lean ====
/-
  The two programs name the same three neighbour sums.  Each program carries its own copies of the gather and
  scatter dimension records, of the shapes and of the slice, reshape and broadcast witnesses; the copies have the same
  fields, so with the edge list and the node features as variables the two chains are one term, and the gather and the
  scatter-add themselves are never opened.
-/
import proofs.«157873_j19705309954765_1_alg».proof.Proof.RefNet
import proofs.«157873_j19705309954765_1_alg».proof.Proof.KHost

noncomputable section

namespace Cert.Bridge

open Idealize.ShloMosaic

/-- Joint features summed into torsos: one function in both programs. -/
theorem jt_eq (e : (⟨Cert.ReferenceIdeal.S2x1000000, .i32⟩ : BufTy).Contents (Elt Ideal)) :
    Cert.ReferenceIdeal.RefNet.jtSum e = Cert.KernelIdeal.KHost.jt e := by
  funext h; rfl

/-- Torso features summed into joints: one function in both programs. -/
theorem tj_eq (e : (⟨Cert.ReferenceIdeal.S2x1000000, .i32⟩ : BufTy).Contents (Elt Ideal)) :
    Cert.ReferenceIdeal.RefNet.tjSum e = Cert.KernelIdeal.KHost.tj e := by
  funext h; rfl

/-- Joint features summed into joints: one function in both programs. -/
theorem jj_eq (e : (⟨Cert.ReferenceIdeal.S2x2000000, .i32⟩ : BufTy).Contents (Elt Ideal)) :
    Cert.ReferenceIdeal.RefNet.jjSum e = Cert.KernelIdeal.KHost.jj e := by
  funext h; rfl

/-- The three neighbour sums of the reference are the kernel program's. -/
theorem aggs_eq (e2 e3 : (⟨Cert.ReferenceIdeal.S2x1000000, .i32⟩ : BufTy).Contents (Elt Ideal)) (e4 : (⟨Cert.ReferenceIdeal.S2x2000000, .i32⟩ : BufTy).Contents (Elt Ideal)) :
    Cert.ReferenceIdeal.RefNet.aggs e2 e3 e4 = Cert.KernelIdeal.KHost.aggs e2 e3 e4 := by
  unfold Cert.ReferenceIdeal.RefNet.aggs Cert.KernelIdeal.KHost.aggs
  rw [jt_eq, tj_eq, jj_eq]

end Cert.Bridge

end
-- ==== Proof.lean ====
/-
  The certificate of a two-layer message-passing network on a graph with two node types (torso, joint).

  Both programs compute, from the two input arrays, three edge lists and the weights: an affine input map per
  node type; two layers in which each node type's features become tanh of the sum, over the relations that end at
  it, of (neighbour sum · W + b + own features · R); and per node type a head tanh (h · w + b) whose first eight
  columns are the location and whose last eight, shifted and passed through softplus, are the scale.  The kernel
  runs the dense stages in eight regions of row blocks and the neighbour sums between them; for the joints, which
  two relations reach, it adds the two biases and the two root weights first and multiplies once, where the
  reference multiplies twice and adds.  x · (r₁ + r₂) = x · r₁ + x · r₂ entry by entry needs x, r₁, r₂ real on the
  extended reals: the precondition gives that for the inputs and the weights, a finite sum of products of reals is
  real, and a tanh is always real; every other difference between the two programs is a regrouping of sums.  The
  neighbour sums are the same operations on both sides and are never opened.

  The three frames: the kernel's two are its regions' frame run; the reference's is its run with the results
  dropped.  The idealization rewrote nothing, so it is preserved trivially.  The value claim: the kernel's run ends
  with the four results at the heads of the network of its launch memory, the reference's run ends at the same
  network of its own memory, and the memories agree on the arguments.
-/
import proofs.«157873_j19705309954765_1_alg».proof.Defs
import proofs.«157873_j19705309954765_1_alg».proof.Proof.Gen.Kernel
import proofs.«157873_j19705309954765_1_alg».proof.Proof.Gen.Kernel.Skeleton
import proofs.«157873_j19705309954765_1_alg».proof.Proof.Gen.Kernel.Launch
import proofs.«157873_j19705309954765_1_alg».proof.Proof.Gen.Kernel.Points
import proofs.«157873_j19705309954765_1_alg».proof.Proof.Gen.Kernel.Frame
import proofs.«157873_j19705309954765_1_alg».proof.Proof.Gen.KernelIdeal
import proofs.«157873_j19705309954765_1_alg».proof.Proof.Gen.KernelIdeal.Skeleton
import proofs.«157873_j19705309954765_1_alg».proof.Proof.Gen.KernelIdeal.Launch
import proofs.«157873_j19705309954765_1_alg».proof.Proof.Gen.KernelIdeal.Points
import proofs.«157873_j19705309954765_1_alg».proof.Proof.Gen.KernelIdeal.Frame
import proofs.«157873_j19705309954765_1_alg».proof.Proof.Gen.ReferenceIdeal
import proofs.«157873_j19705309954765_1_alg».proof.Proof.Gen.ReferenceIdeal.Run
import proofs.«157873_j19705309954765_1_alg».proof.Proof.Gen.ReferenceIdeal.Read
import proofs.«157873_j19705309954765_1_alg».proof.Proof.Gen.Pre_finite_inputs
import proofs.«157873_j19705309954765_1_alg».proof.Proof.KValue
import proofs.«157873_j19705309954765_1_alg».proof.Proof.RefOut
import proofs.«157873_j19705309954765_1_alg».proof.Proof.Bridge
import Idealize.ShloMosaic.Adequacy
import Idealize.ShloMosaic.Init

set_option maxRecDepth 16384

noncomputable section

namespace Cert.Proof

open Idealize.ShloMosaic Idealize.SL.Sem

/-! ## The frames and the idealization -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2.2.2) (Cert.ReferenceIdeal.Value.run (F := Ideal) m ρ)
theorem preserves : Cert.preserves_Kernel_KernelIdeal := trivial

/-! ## Memories that agree on the arguments give the same network -/

/-- The weights, the neighbour sums and the two inputs read off the reference's memory are those read off the
    kernel's, when the memories agree on the thirty-one arguments. -/
theorem same_network (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    Cert.ReferenceIdeal.RefNet.P m' c = Cert.KernelIdeal.KChain.P m c
      ∧ Cert.ReferenceIdeal.RefNet.A m' c = Cert.KernelIdeal.KChain.A m c
      ∧ m' ((c.tc : Thread Cert.ReferenceIdeal.nD Cert.ReferenceIdeal.τ).loc Cert.ReferenceIdeal.main_arg0) = Cert.KernelIdeal.KChain.xt m c
      ∧ m' ((c.tc : Thread Cert.ReferenceIdeal.nD Cert.ReferenceIdeal.τ).loc Cert.ReferenceIdeal.main_arg1) = Cert.KernelIdeal.KChain.xj m c := by
  obtain ⟨h0, h1, h2, h3, h4, h5, h6, h7, h8, h9, h10, h11, h12, h13, h14, h15, h16, h17, h18, h19, h20, h21, h22, h23, h24, h25, h26, h27, h28, h29, h30⟩ := h
  refine ⟨?_, ?_, h0, h1⟩
  · unfold Cert.ReferenceIdeal.RefNet.P
    rw [h5, h6, h7, h8, h9, h10, h11, h12, h13, h14, h15, h16, h17, h18, h19, h20, h21, h22, h23, h24, h25, h26, h27, h28, h29, h30]
    rfl
  · unfold Cert.ReferenceIdeal.RefNet.A
    rw [h2, h3, h4]
    exact Cert.Bridge.aggs_eq _ _ _

/-! ## The value claim -/

theorem algebraic : Cert.algebraic_KernelIdeal_ReferenceIdeal := by
  intro m ρ m' ρ' hpre hagree
  refine ⟨Cert.KernelIdeal.KValue.locT m, Cert.KernelIdeal.KValue.scaleT m, Cert.KernelIdeal.KValue.locJ m,
    Cert.KernelIdeal.KValue.scaleJ m, Cert.KernelIdeal.KValue.run m ρ hpre, ?_⟩
  refine (θ_run Cert.ReferenceIdeal.defs _ _).mono (fun r h c => ?_) (Cert.ReferenceIdeal.Value.run (F := Ideal) m' ρ')
  obtain ⟨hP, hA, hxt, hxj⟩ := same_network m m' c (hagree c)
  refine ⟨(h c).1.trans ((Cert.ReferenceIdeal.RefOut.out0 m' c).trans ?_),
    (h c).2.1.trans ((Cert.ReferenceIdeal.RefOut.out1 m' c).trans ?_),
    (h c).2.2.1.trans ((Cert.ReferenceIdeal.RefOut.out2 m' c).trans ?_),
    (h c).2.2.2.1.trans ((Cert.ReferenceIdeal.RefOut.out3 m' c).trans ?_),
    (h c).2.2.2.2⟩
  all_goals (rw [hP, hA, hxt, hxj]; rfl)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
